-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S8192 : Shape := ⟨1, ![8192]⟩
abbrev S256x64 : Shape := ⟨2, ![256, 64]⟩
abbrev S64x64 : Shape := ⟨2, ![64, 64]⟩
abbrev S64 : Shape := ⟨1, ![64]⟩
abbrev S8x64 : Shape := ⟨2, ![8, 64]⟩
abbrev S8 : Shape := ⟨1, ![8]⟩
abbrev S_ : Shape := ⟨0, ![]⟩

class Facts : Prop where
  bcast_S_S256x64 : S_.BroadcastsInDim S256x64 (![] : Fin 0 → Fin S256x64.rank)
  reducesTo_S256x64_S_d0_1 : S256x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S8x64 : S_.BroadcastsInDim S8x64 (![] : Fin 0 → Fin S8x64.rank)
  reducesTo_S8x64_S_d0_1 : S8x64.ReducesTo [0, 1] S_
  bcast_S_S8 : S_.BroadcastsInDim S8 (![] : Fin 0 → Fin S8.rank)
  reducesTo_S8_S_d0 : S8.ReducesTo [0] S_
  bcast_S_S8192 : S_.BroadcastsInDim S8192 (![] : Fin 0 → Fin S8192.rank)
  reducesTo_S8192_S_d0 : S8192.ReducesTo [0] S_

variable [Facts]

def fn_part1 {F : FTy → Type} [FloatOps F] (main_arg0 : IVec S8192 32) (main_arg5 : FVec F S8 .f32) (main_v13 : IVec S_ 1) (main_v16 : IVec S8x64 1) : IVec S_ 1 :=
  let main_c_5 : IVec S_ 1 := constantI S_ 1 1#1
  let main_v17 : IVec S_ 1 := (fun x v => Host.reduce IntOp.andi x v reducesTo_S8x64_S_d0_1 h_S_) main_v16 main_c_5
  let main_v18 : IVec S_ 1 := andi main_v13 main_v17
  let main_v19 : FVec F S8 .f32 := Host.absf main_arg5
  let main_cst_6 : FVec F S_ .f32 := constant S_ .f32 0x7F800000#32
  let main_v20 : FVec F S8 .f32 := broadcastInDim S8 ![] bcast_S_S8 main_cst_6
  let main_v21 : IVec S8 1 := cmpf .olt main_v19 main_v20
  let main_c_7 : IVec S_ 1 := constantI S_ 1 1#1
  let main_v22 : IVec S_ 1 := (fun x v => Host.reduce IntOp.andi x v reducesTo_S8_S_d0 h_S_) main_v21 main_c_7
  let main_v23 : IVec S_ 1 := andi main_v18 main_v22
  let main_c_8 : IVec S_ 32 := constantI S_ 32 0#32
  let main_v24 : IVec S8192 32 := broadcastInDim S8192 ![] bcast_S_S8192 main_c_8
  let main_v25 : IVec S8192 1 := cmpi .sge main_arg0 main_v24
  let main_c_9 : IVec S_ 32 := constantI S_ 32 255#32
  let main_v26 : IVec S8192 32 := broadcastInDim S8192 ![] bcast_S_S8192 main_c_9
  let main_v27 : IVec S8192 1 := cmpi .sle main_arg0 main_v26
  let main_v28 : IVec S8192 1 := andi main_v25 main_v27
  let main_c_10 : IVec S_ 1 := constantI S_ 1 1#1
  let main_v29 : IVec S_ 1 := (fun x v => Host.reduce IntOp.andi x v reducesTo_S8192_S_d0 h_S_) main_v28 main_c_10
  let main_v30 : IVec S_ 1 := andi main_v23 main_v29
  main_v30

def fn {F : FTy → Type} [FloatOps F] (main_arg0 : IVec S8192 32) (main_arg1 : FVec F S256x64 .f32) (main_arg2 : FVec F S64x64 .f32) (main_arg3 : FVec F S64 .f32) (main_arg4 : FVec F S8x64 .f32) (main_arg5 : FVec F S8 .f32) : IVec S_ 1 :=
  let main_v0 : FVec F S256x64 .f32 := Host.absf main_arg1
  let main_cst : FVec F S_ .f32 := constant S_ .f32 0x7F800000#32
  let main_v1 : FVec F S256x64 .f32 := broadcastInDim S256x64 ![] bcast_S_S256x64 main_cst
  let main_v2 : IVec S256x64 1 := cmpf .olt main_v0 main_v1
  let main_c : IVec S_ 1 := constantI S_ 1 1#1
  let main_v3 : IVec S_ 1 := (fun x v => Host.reduce IntOp.andi x v reducesTo_S256x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S8x64 .f32 := Host.absf main_arg4
  let main_cst_4 : FVec F S_ .f32 := constant S_ .f32 0x7F800000#32
  let main_v15 : FVec F S8x64 .f32 := broadcastInDim S8x64 ![] bcast_S_S8x64 main_cst_4
  let main_v16 : IVec S8x64 1 := cmpf .olt main_v14 main_v15
  fn_part1 (F := F) main_arg0 main_arg5 main_v13 main_v16
-- ==== Kernel.lean ====
abbrev S8192 : Shape := ⟨1, ![8192]⟩
abbrev S256x64 : Shape := ⟨2, ![256, 64]⟩
abbrev S64x64 : Shape := ⟨2, ![64, 64]⟩
abbrev S64 : Shape := ⟨1, ![64]⟩
abbrev S8x64 : Shape := ⟨2, ![8, 64]⟩
abbrev S8 : Shape := ⟨1, ![8]⟩
abbrev S16x256 : Shape := ⟨2, ![16, 256]⟩
abbrev S512 : Shape := ⟨1, ![512]⟩
abbrev S256 : Shape := ⟨1, ![256]⟩
abbrev S_ : Shape := ⟨0, ![]⟩
abbrev S16 : Shape := ⟨1, ![16]⟩
abbrev S1x256 : Shape := ⟨2, ![1, 256]⟩
abbrev S1x64 : Shape := ⟨2, ![1, 64]⟩
abbrev S1x8 : Shape := ⟨2, ![1, 8]⟩

abbrev nBuf : Table → Nat
  | .hbm => 11
  | .local .tc .vmem => 7
  | .local .scVector .vmem => 2
  | _ => 0

abbrev bufTy : (tb : Table) → Fin (nBuf tb) → BufTy
  | .hbm, ⟨0, _⟩ => ⟨S8192, .i32⟩
  | .hbm, ⟨1, _⟩ => ⟨S256x64, .f32⟩
  | .hbm, ⟨2, _⟩ => ⟨S64x64, .f32⟩
  | .hbm, ⟨3, _⟩ => ⟨S64, .f32⟩
  | .hbm, ⟨4, _⟩ => ⟨S8x64, .f32⟩
  | .hbm, ⟨5, _⟩ => ⟨S8, .f32⟩
  | .hbm, ⟨6, _⟩ => ⟨S16x256, .f32⟩
  | .hbm, ⟨7, _⟩ => ⟨S1x64, .f32⟩
  | .hbm, ⟨8, _⟩ => ⟨S1x8, .f32⟩
  | .hbm, ⟨9, _⟩ => ⟨S1x8, .f32⟩
  | .hbm, ⟨10, _⟩ => ⟨S8, .f32⟩
  | .local .tc .vmem, ⟨0, _⟩ => ⟨S16x256, .f32⟩
  | .local .tc .vmem, ⟨1, _⟩ => ⟨S256x64, .f32⟩
  | .local .tc .vmem, ⟨2, _⟩ => ⟨S64x64, .f32⟩
  | .local .tc .vmem, ⟨3, _⟩ => ⟨S1x64, .f32⟩
  | .local .tc .vmem, ⟨4, _⟩ => ⟨S8x64, .f32⟩
  | .local .tc .vmem, ⟨5, _⟩ => ⟨S1x8, .f32⟩
  | .local .tc .vmem, ⟨6, _⟩ => ⟨S1x8, .f32⟩
  | .local .scVector .vmem, ⟨0, _⟩ => ⟨S512, .i32⟩
  | .local .scVector .vmem, ⟨1, _⟩ => ⟨S256, .f32⟩
  | _, _ => ⟨S8192, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 9 → Bool
  | ⟨0, _⟩ => false
  | ⟨1, _⟩ => false
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTables nBuf rfl bufTy 4 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_arg0_scv : Ref sig .scVector := ⟨.hbm, 0, rfl⟩
abbrev main_v0_scv : Ref sig .scVector := ⟨.hbm, 6, rfl⟩
abbrev cc1_stg0_0 : Ref sig .tc := ⟨.vmem, 0, rfl⟩
abbrev cc1_stg1_0 : Ref sig .tc := ⟨.vmem, 1, rfl⟩
abbrev cc1_stg2_0 : Ref sig .tc := ⟨.vmem, 2, rfl⟩
abbrev cc1_stg3_0 : Ref sig .tc := ⟨.vmem, 3, rfl⟩
abbrev cc1_stg4_0 : Ref sig .tc := ⟨.vmem, 4, rfl⟩
abbrev cc1_stg5_0 : Ref sig .tc := ⟨.vmem, 5, rfl⟩
abbrev cc1_stg6_0 : Ref sig .tc := ⟨.vmem, 6, rfl⟩
abbrev cc0_scratch0 : Ref sig .scVector := ⟨.vmem, 0, rfl⟩
abbrev cc0_scratch1 : Ref sig .scVector := ⟨.vmem, 1, rfl⟩
abbrev cc1_sem0_0 : DmaSem sig := 2
abbrev cc1_sem1_0 : DmaSem sig := 3
abbrev cc1_sem2_0 : DmaSem sig := 4
abbrev cc1_sem3_0 : DmaSem sig := 5
abbrev cc1_sem4_0 : DmaSem sig := 6
abbrev cc1_sem5_0 : DmaSem sig := 7
abbrev cc1_sem6_0 : DmaSem sig := 8
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![1, 16], ![false, false]⟩

def k0_off1 (i : grid0.Coords) : Fin 1 → Nat :=
  let arg1 : BitVec 32 := BitVec.ofNat 32 (i 1).val
  let c512_i32 : BitVec 32 := 512#32
  let v0 : BitVec 32 := Scalar.muli arg1 c512_i32
  ![v0.toNat]

def k0_chk1 (v19 : IVec S16 32) : Prop :=
  (∀ a x, ((![v19] : Fin 1 → IVec S16 32) a x).toNat < S256.size a)
instance k0_chk1.dec : ∀ (v19 : IVec S16 32), Decidable (k0_chk1 v19) := fun v19 => decidable_of_iff' _ (Iff.of_eq (k0_chk1.eq_1 v19))
theorem k0_idx1_inb : ∀ (v19 : IVec S16 32) (k0_hw1 : k0_chk1 v19), ∀ a x, ((![v19] : Fin 1 → IVec S16 32) a x).toNat < S256.size a := fun v19 k0_hw1 => k0_hw1

def k0_chk2 (v20 : IVec S16 32) : Prop :=
  (∀ a x, ((![v20] : Fin 1 → IVec S16 32) a x).toNat < S256.size a)
instance k0_chk2.dec : ∀ (v20 : IVec S16 32), Decidable (k0_chk2 v20) := fun v20 => decidable_of_iff' _ (Iff.of_eq (k0_chk2.eq_1 v20))
theorem k0_idx2_inb : ∀ (v20 : IVec S16 32) (k0_hw2 : k0_chk2 v20), ∀ a x, ((![v20] : Fin 1 → IVec S16 32) a x).toNat < S256.size a := fun v20 k0_hw2 => k0_hw2

def k0_chk3 (v21 : IVec S16 32) : Prop :=
  (∀ a x, ((![v21] : Fin 1 → IVec S16 32) a x).toNat < S256.size a)
instance k0_chk3.dec : ∀ (v21 : IVec S16 32), Decidable (k0_chk3 v21) := fun v21 => decidable_of_iff' _ (Iff.of_eq (k0_chk3.eq_1 v21))
theorem k0_idx3_inb : ∀ (v21 : IVec S16 32) (k0_hw3 : k0_chk3 v21), ∀ a x, ((![v21] : Fin 1 → IVec S16 32) a x).toNat < S256.size a := fun v21 k0_hw3 => k0_hw3

def k0_chk4 (v22 : IVec S16 32) : Prop :=
  (∀ a x, ((![v22] : Fin 1 → IVec S16 32) a x).toNat < S256.size a)
instance k0_chk4.dec : ∀ (v22 : IVec S16 32), Decidable (k0_chk4 v22) := fun v22 => decidable_of_iff' _ (Iff.of_eq (k0_chk4.eq_1 v22))
theorem k0_idx4_inb : ∀ (v22 : IVec S16 32) (k0_hw4 : k0_chk4 v22), ∀ a x, ((![v22] : Fin 1 → IVec S16 32) a x).toNat < S256.size a := fun v22 k0_hw4 => k0_hw4

def k0_chk5 (v23 : IVec S16 32) : Prop :=
  (∀ a x, ((![v23] : Fin 1 → IVec S16 32) a x).toNat < S256.size a)
instance k0_chk5.dec : ∀ (v23 : IVec S16 32), Decidable (k0_chk5 v23) := fun v23 => decidable_of_iff' _ (Iff.of_eq (k0_chk5.eq_1 v23))
theorem k0_idx5_inb : ∀ (v23 : IVec S16 32) (k0_hw5 : k0_chk5 v23), ∀ a x, ((![v23] : Fin 1 → IVec S16 32) a x).toNat < S256.size a := fun v23 k0_hw5 => k0_hw5

def k0_chk6 (v24 : IVec S16 32) : Prop :=
  (∀ a x, ((![v24] : Fin 1 → IVec S16 32) a x).toNat < S256.size a)
instance k0_chk6.dec : ∀ (v24 : IVec S16 32), Decidable (k0_chk6 v24) := fun v24 => decidable_of_iff' _ (Iff.of_eq (k0_chk6.eq_1 v24))
theorem k0_idx6_inb : ∀ (v24 : IVec S16 32) (k0_hw6 : k0_chk6 v24), ∀ a x, ((![v24] : Fin 1 → IVec S16 32) a x).toNat < S256.size a := fun v24 k0_hw6 => k0_hw6

def k0_chk7 (v25 : IVec S16 32) : Prop :=
  (∀ a x, ((![v25] : Fin 1 → IVec S16 32) a x).toNat < S256.size a)
instance k0_chk7.dec : ∀ (v25 : IVec S16 32), Decidable (k0_chk7 v25) := fun v25 => decidable_of_iff' _ (Iff.of_eq (k0_chk7.eq_1 v25))
theorem k0_idx7_inb : ∀ (v25 : IVec S16 32) (k0_hw7 : k0_chk7 v25), ∀ a x, ((![v25] : Fin 1 → IVec S16 32) a x).toNat < S256.size a := fun v25 k0_hw7 => k0_hw7

def k0_chk8 (v26 : IVec S16 32) : Prop :=
  (∀ a x, ((![v26] : Fin 1 → IVec S16 32) a x).toNat < S256.size a)
instance k0_chk8.dec : ∀ (v26 : IVec S16 32), Decidable (k0_chk8 v26) := fun v26 => decidable_of_iff' _ (Iff.of_eq (k0_chk8.eq_1 v26))
theorem k0_idx8_inb : ∀ (v26 : IVec S16 32) (k0_hw8 : k0_chk8 v26), ∀ a x, ((![v26] : Fin 1 → IVec S16 32) a x).toNat < S256.size a := fun v26 k0_hw8 => k0_hw8

def k0_chk9 (v27 : IVec S16 32) : Prop :=
  (∀ a x, ((![v27] : Fin 1 → IVec S16 32) a x).toNat < S256.size a)
instance k0_chk9.dec : ∀ (v27 : IVec S16 32), Decidable (k0_chk9 v27) := fun v27 => decidable_of_iff' _ (Iff.of_eq (k0_chk9.eq_1 v27))
theorem k0_idx9_inb : ∀ (v27 : IVec S16 32) (k0_hw9 : k0_chk9 v27), ∀ a x, ((![v27] : Fin 1 → IVec S16 32) a x).toNat < S256.size a := fun v27 k0_hw9 => k0_hw9

def k0_chk10 (v28 : IVec S16 32) : Prop :=
  (∀ a x, ((![v28] : Fin 1 → IVec S16 32) a x).toNat < S256.size a)
instance k0_chk10.dec : ∀ (v28 : IVec S16 32), Decidable (k0_chk10 v28) := fun v28 => decidable_of_iff' _ (Iff.of_eq (k0_chk10.eq_1 v28))
theorem k0_idx10_inb : ∀ (v28 : IVec S16 32) (k0_hw10 : k0_chk10 v28), ∀ a x, ((![v28] : Fin 1 → IVec S16 32) a x).toNat < S256.size a := fun v28 k0_hw10 => k0_hw10

def k0_chk11 (v29 : IVec S16 32) : Prop :=
  (∀ a x, ((![v29] : Fin 1 → IVec S16 32) a x).toNat < S256.size a)
instance k0_chk11.dec : ∀ (v29 : IVec S16 32), Decidable (k0_chk11 v29) := fun v29 => decidable_of_iff' _ (Iff.of_eq (k0_chk11.eq_1 v29))
theorem k0_idx11_inb : ∀ (v29 : IVec S16 32) (k0_hw11 : k0_chk11 v29), ∀ a x, ((![v29] : Fin 1 → IVec S16 32) a x).toNat < S256.size a := fun v29 k0_hw11 => k0_hw11

def k0_chk12 (v30 : IVec S16 32) : Prop :=
  (∀ a x, ((![v30] : Fin 1 → IVec S16 32) a x).toNat < S256.size a)
instance k0_chk12.dec : ∀ (v30 : IVec S16 32), Decidable (k0_chk12 v30) := fun v30 => decidable_of_iff' _ (Iff.of_eq (k0_chk12.eq_1 v30))
theorem k0_idx12_inb : ∀ (v30 : IVec S16 32) (k0_hw12 : k0_chk12 v30), ∀ a x, ((![v30] : Fin 1 → IVec S16 32) a x).toNat < S256.size a := fun v30 k0_hw12 => k0_hw12

def k0_chk13 (v31 : IVec S16 32) : Prop :=
  (∀ a x, ((![v31] : Fin 1 → IVec S16 32) a x).toNat < S256.size a)
instance k0_chk13.dec : ∀ (v31 : IVec S16 32), Decidable (k0_chk13 v31) := fun v31 => decidable_of_iff' _ (Iff.of_eq (k0_chk13.eq_1 v31))
theorem k0_idx13_inb : ∀ (v31 : IVec S16 32) (k0_hw13 : k0_chk13 v31), ∀ a x, ((![v31] : Fin 1 → IVec S16 32) a x).toNat < S256.size a := fun v31 k0_hw13 => k0_hw13

def k0_chk14 (v32 : IVec S16 32) : Prop :=
  (∀ a x, ((![v32] : Fin 1 → IVec S16 32) a x).toNat < S256.size a)
instance k0_chk14.dec : ∀ (v32 : IVec S16 32), Decidable (k0_chk14 v32) := fun v32 => decidable_of_iff' _ (Iff.of_eq (k0_chk14.eq_1 v32))
theorem k0_idx14_inb : ∀ (v32 : IVec S16 32) (k0_hw14 : k0_chk14 v32), ∀ a x, ((![v32] : Fin 1 → IVec S16 32) a x).toNat < S256.size a := fun v32 k0_hw14 => k0_hw14

def k0_chk15 (v33 : IVec S16 32) : Prop :=
  (∀ a x, ((![v33] : Fin 1 → IVec S16 32) a x).toNat < S256.size a)
instance k0_chk15.dec : ∀ (v33 : IVec S16 32), Decidable (k0_chk15 v33) := fun v33 => decidable_of_iff' _ (Iff.of_eq (k0_chk15.eq_1 v33))
theorem k0_idx15_inb : ∀ (v33 : IVec S16 32) (k0_hw15 : k0_chk15 v33), ∀ a x, ((![v33] : Fin 1 → IVec S16 32) a x).toNat < S256.size a := fun v33 k0_hw15 => k0_hw15

def k0_chk16 (v34 : IVec S16 32) : Prop :=
  (∀ a x, ((![v34] : Fin 1 → IVec S16 32) a x).toNat < S256.size a)
instance k0_chk16.dec : ∀ (v34 : IVec S16 32), Decidable (k0_chk16 v34) := fun v34 => decidable_of_iff' _ (Iff.of_eq (k0_chk16.eq_1 v34))
theorem k0_idx16_inb : ∀ (v34 : IVec S16 32) (k0_hw16 : k0_chk16 v34), ∀ a x, ((![v34] : Fin 1 → IVec S16 32) a x).toNat < S256.size a := fun v34 k0_hw16 => k0_hw16

def k0_chk17 (v35 : IVec S16 32) : Prop :=
  (∀ a x, ((![v35] : Fin 1 → IVec S16 32) a x).toNat < S256.size a)
instance k0_chk17.dec : ∀ (v35 : IVec S16 32), Decidable (k0_chk17 v35) := fun v35 => decidable_of_iff' _ (Iff.of_eq (k0_chk17.eq_1 v35))
theorem k0_idx17_inb : ∀ (v35 : IVec S16 32) (k0_hw17 : k0_chk17 v35), ∀ a x, ((![v35] : Fin 1 → IVec S16 32) a x).toNat < S256.size a := fun v35 k0_hw17 => k0_hw17

def k0_chk18 (v36 : IVec S16 32) : Prop :=
  (∀ a x, ((![v36] : Fin 1 → IVec S16 32) a x).toNat < S256.size a)
instance k0_chk18.dec : ∀ (v36 : IVec S16 32), Decidable (k0_chk18 v36) := fun v36 => decidable_of_iff' _ (Iff.of_eq (k0_chk18.eq_1 v36))
theorem k0_idx18_inb : ∀ (v36 : IVec S16 32) (k0_hw18 : k0_chk18 v36), ∀ a x, ((![v36] : Fin 1 → IVec S16 32) a x).toNat < S256.size a := fun v36 k0_hw18 => k0_hw18

def k0_chk19 (v37 : IVec S16 32) : Prop :=
  (∀ a x, ((![v37] : Fin 1 → IVec S16 32) a x).toNat < S256.size a)
instance k0_chk19.dec : ∀ (v37 : IVec S16 32), Decidable (k0_chk19 v37) := fun v37 => decidable_of_iff' _ (Iff.of_eq (k0_chk19.eq_1 v37))
theorem k0_idx19_inb : ∀ (v37 : IVec S16 32) (k0_hw19 : k0_chk19 v37), ∀ a x, ((![v37] : Fin 1 → IVec S16 32) a x).toNat < S256.size a := fun v37 k0_hw19 => k0_hw19

def k0_chk20 (v38 : IVec S16 32) : Prop :=
  (∀ a x, ((![v38] : Fin 1 → IVec S16 32) a x).toNat < S256.size a)
instance k0_chk20.dec : ∀ (v38 : IVec S16 32), Decidable (k0_chk20 v38) := fun v38 => decidable_of_iff' _ (Iff.of_eq (k0_chk20.eq_1 v38))
theorem k0_idx20_inb : ∀ (v38 : IVec S16 32) (k0_hw20 : k0_chk20 v38), ∀ a x, ((![v38] : Fin 1 → IVec S16 32) a x).toNat < S256.size a := fun v38 k0_hw20 => k0_hw20

def k0_chk21 (v39 : IVec S16 32) : Prop :=
  (∀ a x, ((![v39] : Fin 1 → IVec S16 32) a x).toNat < S256.size a)
instance k0_chk21.dec : ∀ (v39 : IVec S16 32), Decidable (k0_chk21 v39) := fun v39 => decidable_of_iff' _ (Iff.of_eq (k0_chk21.eq_1 v39))
theorem k0_idx21_inb : ∀ (v39 : IVec S16 32) (k0_hw21 : k0_chk21 v39), ∀ a x, ((![v39] : Fin 1 → IVec S16 32) a x).toNat < S256.size a := fun v39 k0_hw21 => k0_hw21

def k0_chk22 (v40 : IVec S16 32) : Prop :=
  (∀ a x, ((![v40] : Fin 1 → IVec S16 32) a x).toNat < S256.size a)
instance k0_chk22.dec : ∀ (v40 : IVec S16 32), Decidable (k0_chk22 v40) := fun v40 => decidable_of_iff' _ (Iff.of_eq (k0_chk22.eq_1 v40))
theorem k0_idx22_inb : ∀ (v40 : IVec S16 32) (k0_hw22 : k0_chk22 v40), ∀ a x, ((![v40] : Fin 1 → IVec S16 32) a x).toNat < S256.size a := fun v40 k0_hw22 => k0_hw22

def k0_chk23 (v41 : IVec S16 32) : Prop :=
  (∀ a x, ((![v41] : Fin 1 → IVec S16 32) a x).toNat < S256.size a)
instance k0_chk23.dec : ∀ (v41 : IVec S16 32), Decidable (k0_chk23 v41) := fun v41 => decidable_of_iff' _ (Iff.of_eq (k0_chk23.eq_1 v41))
theorem k0_idx23_inb : ∀ (v41 : IVec S16 32) (k0_hw23 : k0_chk23 v41), ∀ a x, ((![v41] : Fin 1 → IVec S16 32) a x).toNat < S256.size a := fun v41 k0_hw23 => k0_hw23

def k0_chk24 (v42 : IVec S16 32) : Prop :=
  (∀ a x, ((![v42] : Fin 1 → IVec S16 32) a x).toNat < S256.size a)
instance k0_chk24.dec : ∀ (v42 : IVec S16 32), Decidable (k0_chk24 v42) := fun v42 => decidable_of_iff' _ (Iff.of_eq (k0_chk24.eq_1 v42))
theorem k0_idx24_inb : ∀ (v42 : IVec S16 32) (k0_hw24 : k0_chk24 v42), ∀ a x, ((![v42] : Fin 1 → IVec S16 32) a x).toNat < S256.size a := fun v42 k0_hw24 => k0_hw24

def k0_chk25 (v43 : IVec S16 32) : Prop :=
  (∀ a x, ((![v43] : Fin 1 → IVec S16 32) a x).toNat < S256.size a)
instance k0_chk25.dec : ∀ (v43 : IVec S16 32), Decidable (k0_chk25 v43) := fun v43 => decidable_of_iff' _ (Iff.of_eq (k0_chk25.eq_1 v43))
theorem k0_idx25_inb : ∀ (v43 : IVec S16 32) (k0_hw25 : k0_chk25 v43), ∀ a x, ((![v43] : Fin 1 → IVec S16 32) a x).toNat < S256.size a := fun v43 k0_hw25 => k0_hw25

def k0_chk26 (v44 : IVec S16 32) : Prop :=
  (∀ a x, ((![v44] : Fin 1 → IVec S16 32) a x).toNat < S256.size a)
instance k0_chk26.dec : ∀ (v44 : IVec S16 32), Decidable (k0_chk26 v44) := fun v44 => decidable_of_iff' _ (Iff.of_eq (k0_chk26.eq_1 v44))
theorem k0_idx26_inb : ∀ (v44 : IVec S16 32) (k0_hw26 : k0_chk26 v44), ∀ a x, ((![v44] : Fin 1 → IVec S16 32) a x).toNat < S256.size a := fun v44 k0_hw26 => k0_hw26

def k0_chk27 (v45 : IVec S16 32) : Prop :=
  (∀ a x, ((![v45] : Fin 1 → IVec S16 32) a x).toNat < S256.size a)
instance k0_chk27.dec : ∀ (v45 : IVec S16 32), Decidable (k0_chk27 v45) := fun v45 => decidable_of_iff' _ (Iff.of_eq (k0_chk27.eq_1 v45))
theorem k0_idx27_inb : ∀ (v45 : IVec S16 32) (k0_hw27 : k0_chk27 v45), ∀ a x, ((![v45] : Fin 1 → IVec S16 32) a x).toNat < S256.size a := fun v45 k0_hw27 => k0_hw27

def k0_chk28 (v46 : IVec S16 32) : Prop :=
  (∀ a x, ((![v46] : Fin 1 → IVec S16 32) a x).toNat < S256.size a)
instance k0_chk28.dec : ∀ (v46 : IVec S16 32), Decidable (k0_chk28 v46) := fun v46 => decidable_of_iff' _ (Iff.of_eq (k0_chk28.eq_1 v46))
theorem k0_idx28_inb : ∀ (v46 : IVec S16 32) (k0_hw28 : k0_chk28 v46), ∀ a x, ((![v46] : Fin 1 → IVec S16 32) a x).toNat < S256.size a := fun v46 k0_hw28 => k0_hw28

def k0_chk29 (v47 : IVec S16 32) : Prop :=
  (∀ a x, ((![v47] : Fin 1 → IVec S16 32) a x).toNat < S256.size a)
instance k0_chk29.dec : ∀ (v47 : IVec S16 32), Decidable (k0_chk29 v47) := fun v47 => decidable_of_iff' _ (Iff.of_eq (k0_chk29.eq_1 v47))
theorem k0_idx29_inb : ∀ (v47 : IVec S16 32) (k0_hw29 : k0_chk29 v47), ∀ a x, ((![v47] : Fin 1 → IVec S16 32) a x).toNat < S256.size a := fun v47 k0_hw29 => k0_hw29

def k0_chk30 (v48 : IVec S16 32) : Prop :=
  (∀ a x, ((![v48] : Fin 1 → IVec S16 32) a x).toNat < S256.size a)
instance k0_chk30.dec : ∀ (v48 : IVec S16 32), Decidable (k0_chk30 v48) := fun v48 => decidable_of_iff' _ (Iff.of_eq (k0_chk30.eq_1 v48))
theorem k0_idx30_inb : ∀ (v48 : IVec S16 32) (k0_hw30 : k0_chk30 v48), ∀ a x, ((![v48] : Fin 1 → IVec S16 32) a x).toNat < S256.size a := fun v48 k0_hw30 => k0_hw30

def k0_chk31 (v49 : IVec S16 32) : Prop :=
  (∀ a x, ((![v49] : Fin 1 → IVec S16 32) a x).toNat < S256.size a)
instance k0_chk31.dec : ∀ (v49 : IVec S16 32), Decidable (k0_chk31 v49) := fun v49 => decidable_of_iff' _ (Iff.of_eq (k0_chk31.eq_1 v49))
theorem k0_idx31_inb : ∀ (v49 : IVec S16 32) (k0_hw31 : k0_chk31 v49), ∀ a x, ((![v49] : Fin 1 → IVec S16 32) a x).toNat < S256.size a := fun v49 k0_hw31 => k0_hw31

def k0_chk32 (v50 : IVec S16 32) : Prop :=
  (∀ a x, ((![v50] : Fin 1 → IVec S16 32) a x).toNat < S256.size a)
instance k0_chk32.dec : ∀ (v50 : IVec S16 32), Decidable (k0_chk32 v50) := fun v50 => decidable_of_iff' _ (Iff.of_eq (k0_chk32.eq_1 v50))
theorem k0_idx32_inb : ∀ (v50 : IVec S16 32) (k0_hw32 : k0_chk32 v50), ∀ a x, ((![v50] : Fin 1 → IVec S16 32) a x).toNat < S256.size a := fun v50 k0_hw32 => k0_hw32
def k0_off2 (i : grid0.Coords) : Fin 2 → Nat :=
  let arg1 : BitVec 32 := BitVec.ofNat 32 (i 1).val
  let c0_i32_r1 : BitVec 32 := 0#32
  ![arg1.toNat, 0]
abbrev grid1 : Pipeline.Grid := .none

abbrev stage1_0 : Fin 1 → Memref sig .tc .vmem S16x256 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S256x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S8x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S1x8 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

abbrev stage1_6 : Fin 1 → Memref sig .tc .vmem S1x8 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 1 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  inb_S256_S16_0 : ∀ a, (![0] : Fin 1 → Nat) a + S16.size a ≤ S256.size a
  h_S16 : 0 < S16.numel
  inb_S256_S16_16 : ∀ a, (![16] : Fin 1 → Nat) a + S16.size a ≤ S256.size a
  inb_S256_S16_32 : ∀ a, (![32] : Fin 1 → Nat) a + S16.size a ≤ S256.size a
  inb_S256_S16_48 : ∀ a, (![48] : Fin 1 → Nat) a + S16.size a ≤ S256.size a
  inb_S256_S16_64 : ∀ a, (![64] : Fin 1 → Nat) a + S16.size a ≤ S256.size a
  inb_S256_S16_80 : ∀ a, (![80] : Fin 1 → Nat) a + S16.size a ≤ S256.size a
  inb_S256_S16_96 : ∀ a, (![96] : Fin 1 → Nat) a + S16.size a ≤ S256.size a
  inb_S256_S16_112 : ∀ a, (![112] : Fin 1 → Nat) a + S16.size a ≤ S256.size a
  inb_S256_S16_128 : ∀ a, (![128] : Fin 1 → Nat) a + S16.size a ≤ S256.size a
  inb_S256_S16_144 : ∀ a, (![144] : Fin 1 → Nat) a + S16.size a ≤ S256.size a
  inb_S256_S16_160 : ∀ a, (![160] : Fin 1 → Nat) a + S16.size a ≤ S256.size a
  inb_S256_S16_176 : ∀ a, (![176] : Fin 1 → Nat) a + S16.size a ≤ S256.size a
  inb_S256_S16_192 : ∀ a, (![192] : Fin 1 → Nat) a + S16.size a ≤ S256.size a
  inb_S256_S16_208 : ∀ a, (![208] : Fin 1 → Nat) a + S16.size a ≤ S256.size a
  inb_S256_S16_224 : ∀ a, (![224] : Fin 1 → Nat) a + S16.size a ≤ S256.size a
  inb_S256_S16_240 : ∀ a, (![240] : Fin 1 → Nat) a + S16.size a ≤ S256.size a
  inb_S512_S16_0 : ∀ a, (![0] : Fin 1 → Nat) a + S16.size a ≤ S512.size a
  h_S256 : 0 < S256.numel
  inb_S512_S16_16 : ∀ a, (![16] : Fin 1 → Nat) a + S16.size a ≤ S512.size a
  inb_S512_S16_32 : ∀ a, (![32] : Fin 1 → Nat) a + S16.size a ≤ S512.size a
  inb_S512_S16_48 : ∀ a, (![48] : Fin 1 → Nat) a + S16.size a ≤ S512.size a
  inb_S512_S16_64 : ∀ a, (![64] : Fin 1 → Nat) a + S16.size a ≤ S512.size a
  inb_S512_S16_80 : ∀ a, (![80] : Fin 1 → Nat) a + S16.size a ≤ S512.size a
  inb_S512_S16_96 : ∀ a, (![96] : Fin 1 → Nat) a + S16.size a ≤ S512.size a
  inb_S512_S16_112 : ∀ a, (![112] : Fin 1 → Nat) a + S16.size a ≤ S512.size a
  inb_S512_S16_128 : ∀ a, (![128] : Fin 1 → Nat) a + S16.size a ≤ S512.size a
  inb_S512_S16_144 : ∀ a, (![144] : Fin 1 → Nat) a + S16.size a ≤ S512.size a
  inb_S512_S16_160 : ∀ a, (![160] : Fin 1 → Nat) a + S16.size a ≤ S512.size a
  inb_S512_S16_176 : ∀ a, (![176] : Fin 1 → Nat) a + S16.size a ≤ S512.size a
  inb_S512_S16_192 : ∀ a, (![192] : Fin 1 → Nat) a + S16.size a ≤ S512.size a
  inb_S512_S16_208 : ∀ a, (![208] : Fin 1 → Nat) a + S16.size a ≤ S512.size a
  inb_S512_S16_224 : ∀ a, (![224] : Fin 1 → Nat) a + S16.size a ≤ S512.size a
  inb_S512_S16_240 : ∀ a, (![240] : Fin 1 → Nat) a + S16.size a ≤ S512.size a
  inb_S512_S16_256 : ∀ a, (![256] : Fin 1 → Nat) a + S16.size a ≤ S512.size a
  inb_S512_S16_272 : ∀ a, (![272] : Fin 1 → Nat) a + S16.size a ≤ S512.size a
  inb_S512_S16_288 : ∀ a, (![288] : Fin 1 → Nat) a + S16.size a ≤ S512.size a
  inb_S512_S16_304 : ∀ a, (![304] : Fin 1 → Nat) a + S16.size a ≤ S512.size a
  inb_S512_S16_320 : ∀ a, (![320] : Fin 1 → Nat) a + S16.size a ≤ S512.size a
  inb_S512_S16_336 : ∀ a, (![336] : Fin 1 → Nat) a + S16.size a ≤ S512.size a
  inb_S512_S16_352 : ∀ a, (![352] : Fin 1 → Nat) a + S16.size a ≤ S512.size a
  inb_S512_S16_368 : ∀ a, (![368] : Fin 1 → Nat) a + S16.size a ≤ S512.size a
  inb_S512_S16_384 : ∀ a, (![384] : Fin 1 → Nat) a + S16.size a ≤ S512.size a
  inb_S512_S16_400 : ∀ a, (![400] : Fin 1 → Nat) a + S16.size a ≤ S512.size a
  inb_S512_S16_416 : ∀ a, (![416] : Fin 1 → Nat) a + S16.size a ≤ S512.size a
  inb_S512_S16_432 : ∀ a, (![432] : Fin 1 → Nat) a + S16.size a ≤ S512.size a
  inb_S512_S16_448 : ∀ a, (![448] : Fin 1 → Nat) a + S16.size a ≤ S512.size a
  inb_S512_S16_464 : ∀ a, (![464] : Fin 1 → Nat) a + S16.size a ≤ S512.size a
  inb_S512_S16_480 : ∀ a, (![480] : Fin 1 → Nat) a + S16.size a ≤ S512.size a
  inb_S512_S16_496 : ∀ a, (![496] : Fin 1 → Nat) a + S16.size a ≤ S512.size a
  squeezes_S1x256_S256 : S1x256.Squeezes S256
  shapeCasts_S64_S1x64 : S64.ShapeCasts S1x64
  shapeCasts_S8_S1x8 : S8.ShapeCasts S1x8
  inb_S16x256_S16x256_0_0 : ∀ a, (![0, 0] : Fin 2 → Nat) a + S16x256.size a ≤ S16x256.size a
  h_S16x256 : 0 < S16x256.numel
  shapeCasts_S16x256_S16x256 : S16x256.ShapeCasts S16x256
  reduces_S16x256_S256 : S16x256.Reduces [0] S256
  shapeCasts_S256_S1x256 : S256.ShapeCasts S1x256
  inb_S256x64_S256x64_0_0 : ∀ a, (![0, 0] : Fin 2 → Nat) a + S256x64.size a ≤ S256x64.size a
  h_S256x64 : 0 < S256x64.numel
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  inb_S8x64_S8x64_0_0 : ∀ a, (![0, 0] : Fin 2 → Nat) a + S8x64.size a ≤ S8x64.size a
  h_S8x64 : 0 < S8x64.numel
  inb_S1x8_S1x8_0_0 : ∀ a, (![0, 0] : Fin 2 → Nat) a + S1x8.size a ≤ S1x8.size a
  h_S1x8 : 0 < S1x8.numel
  shapeCasts_S1x8_S1x8 : S1x8.ShapeCasts S1x8
  shapeCasts_S1x8_S8 : S1x8.ShapeCasts S8
  dot_S1x256_S256x64_S1x64_1_0_0_1_n_n_wf : DotDims.WF S1x256 S256x64 S1x64 [1] [0] [0] [1] [] []
  dot_S1x64_S64x64_S1x64_1_1_0_0_n_n_wf : DotDims.WF S1x64 S64x64 S1x64 [1] [1] [0] [0] [] []
  dot_S1x64_S8x64_S1x8_1_1_0_0_n_n_wf : DotDims.WF S1x64 S8x64 S1x8 [1] [1] [0] [0] [] []
  hcc0_scoped0 : 0 + S_.numel ≤ 9
  hcc0_scoped1 : 1 + S_.numel ≤ 9
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S512.size a ≤ S8192.size a
  k0_off2_inb : ∀ i : grid0.Coords, ∀ a, (k0_off2 i) a + S1x256.size a ≤ S16x256.size a
  hstage1_0 : ∀ j, (stage1_0 j).IsWhole
  hstage1_1 : ∀ j, (stage1_1 j).IsWhole
  hstage1_2 : ∀ j, (stage1_2 j).IsWhole
  hstage1_3 : ∀ j, (stage1_3 j).IsWhole
  hstage1_4 : ∀ j, (stage1_4 j).IsWhole
  hstage1_5 : ∀ j, (stage1_5 j).IsWhole
  hstage1_6 : ∀ j, (stage1_6 j).IsWhole

variable [Facts₀]

abbrev cc0_scoped0 : DmaSems sig S_ := SemArray.consecutive 0 S_ hcc0_scoped0
abbrev cc0_scoped1 : DmaSems sig S_ := SemArray.consecutive 1 S_ hcc0_scoped1
def dot_S1x256_S256x64_S1x64_1_0_0_1_n_n : DotDims S1x256 S256x64 S1x64 where
  lhsContracting := [1]
  rhsContracting := [0]
  lhsNonContracting := [0]
  rhsNonContracting := [1]
  lhsBatch := []
  rhsBatch := []
  wf := dot_S1x256_S256x64_S1x64_1_0_0_1_n_n_wf
def dot_S1x64_S64x64_S1x64_1_1_0_0_n_n : DotDims S1x64 S64x64 S1x64 where
  lhsContracting := [1]
  rhsContracting := [1]
  lhsNonContracting := [0]
  rhsNonContracting := [0]
  lhsBatch := []
  rhsBatch := []
  wf := dot_S1x64_S64x64_S1x64_1_1_0_0_n_n_wf
def dot_S1x64_S8x64_S1x8_1_1_0_0_n_n : DotDims S1x64 S8x64 S1x8 where
  lhsContracting := [1]
  rhsContracting := [1]
  lhsNonContracting := [0]
  rhsNonContracting := [0]
  lhsBatch := []
  rhsBatch := []
  wf := dot_S1x64_S8x64_S1x8_1_1_0_0_n_n_wf

abbrev win1_0 : Pipeline.Window sig grid1 :=
  Pipeline.Window.whole (Memref.whole main_v0) false false (stage1_0 0) (sem1_0 0) (Memref.isWhole_whole _) (hstage1_0 0)

abbrev win1_1 : Pipeline.Window sig grid1 :=
  Pipeline.Window.whole (Memref.whole main_arg1) false false (stage1_1 0) (sem1_1 0) (Memref.isWhole_whole _) (hstage1_1 0)

abbrev win1_2 : Pipeline.Window sig grid1 :=
  Pipeline.Window.whole (Memref.whole main_arg2) false false (stage1_2 0) (sem1_2 0) (Memref.isWhole_whole _) (hstage1_2 0)

abbrev win1_3 : Pipeline.Window sig grid1 :=
  Pipeline.Window.whole (Memref.whole main_v1) false false (stage1_3 0) (sem1_3 0) (Memref.isWhole_whole _) (hstage1_3 0)

abbrev win1_4 : Pipeline.Window sig grid1 :=
  Pipeline.Window.whole (Memref.whole main_arg4) false false (stage1_4 0) (sem1_4 0) (Memref.isWhole_whole _) (hstage1_4 0)

abbrev win1_5 : Pipeline.Window sig grid1 :=
  Pipeline.Window.whole (Memref.whole main_v2) false false (stage1_5 0) (sem1_5 0) (Memref.isWhole_whole _) (hstage1_5 0)

abbrev win1_6 : Pipeline.Window sig grid1 :=
  Pipeline.Window.whole (Memref.whole main_v3) true false (stage1_6 0) (sem1_6 0) (Memref.isWhole_whole _) (hstage1_6 0)

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S8192 : Shape := ⟨1, ![8192]⟩
abbrev S256x64 : Shape := ⟨2, ![256, 64]⟩
abbrev S64x64 : Shape := ⟨2, ![64, 64]⟩
abbrev S64 : Shape := ⟨1, ![64]⟩
abbrev S8x64 : Shape := ⟨2, ![8, 64]⟩
abbrev S8 : Shape := ⟨1, ![8]⟩
abbrev S_ : Shape := ⟨0, ![]⟩
abbrev S8192x1 : Shape := ⟨2, ![8192, 1]⟩
abbrev S1 : Shape := ⟨1, ![1]⟩
abbrev S1x1 : Shape := ⟨2, ![1, 1]⟩
abbrev S8192x64 : Shape := ⟨2, ![8192, 64]⟩
abbrev S1x8192x64 : Shape := ⟨3, ![1, 8192, 64]⟩
abbrev S1x64 : Shape := ⟨2, ![1, 64]⟩
abbrev S64x8 : Shape := ⟨2, ![64, 8]⟩
abbrev S1x8 : Shape := ⟨2, ![1, 8]⟩

abbrev nBuf : Space → Nat
  | .hbm => 47
  | .vmem => 0
  | .smem => 0
  | _ => 0

abbrev bufTy : (tb : Table) → Fin (tcTables nBuf tb) → BufTy
  | .hbm, ⟨0, _⟩ => ⟨S8192, .i32⟩
  | .hbm, ⟨1, _⟩ => ⟨S256x64, .f32⟩
  | .hbm, ⟨2, _⟩ => ⟨S64x64, .f32⟩
  | .hbm, ⟨3, _⟩ => ⟨S64, .f32⟩
  | .hbm, ⟨4, _⟩ => ⟨S8x64, .f32⟩
  | .hbm, ⟨5, _⟩ => ⟨S8, .f32⟩
  | .hbm, ⟨6, _⟩ => ⟨S_, .i32⟩
  | .hbm, ⟨7, _⟩ => ⟨S8192, .i32⟩
  | .hbm, ⟨8, _⟩ => ⟨S8192, .i1⟩
  | .hbm, ⟨9, _⟩ => ⟨S_, .i32⟩
  | .hbm, ⟨10, _⟩ => ⟨S8192, .i32⟩
  | .hbm, ⟨11, _⟩ => ⟨S8192, .i32⟩
  | .hbm, ⟨12, _⟩ => ⟨S8192, .i32⟩
  | .hbm, ⟨13, _⟩ => ⟨S8192x1, .i32⟩
  | .hbm, ⟨14, _⟩ => ⟨S1, .i32⟩
  | .hbm, ⟨15, _⟩ => ⟨S_, .i32⟩
  | .hbm, ⟨16, _⟩ => ⟨S8192x1, .i32⟩
  | .hbm, ⟨17, _⟩ => ⟨S8192x1, .i1⟩
  | .hbm, ⟨18, _⟩ => ⟨S1x1, .i32⟩
  | .hbm, ⟨19, _⟩ => ⟨S8192x1, .i32⟩
  | .hbm, ⟨20, _⟩ => ⟨S8192x1, .i1⟩
  | .hbm, ⟨21, _⟩ => ⟨S8192x1, .i1⟩
  | .hbm, ⟨22, _⟩ => ⟨S_, .i1⟩
  | .hbm, ⟨23, _⟩ => ⟨S8192, .i1⟩
  | .hbm, ⟨24, _⟩ => ⟨S8192x64, .f32⟩
  | .hbm, ⟨25, _⟩ => ⟨S8192x64, .i1⟩
  | .hbm, ⟨26, _⟩ => ⟨S_, .f32⟩
  | .hbm, ⟨27, _⟩ => ⟨S8192x64, .f32⟩
  | .hbm, ⟨28, _⟩ => ⟨S8192x64, .f32⟩
  | .hbm, ⟨29, _⟩ => ⟨S1x8192x64, .f32⟩
  | .hbm, ⟨30, _⟩ => ⟨S_, .f32⟩
  | .hbm, ⟨31, _⟩ => ⟨S1x64, .f32⟩
  | .hbm, ⟨32, _⟩ => ⟨S_, .f32⟩
  | .hbm, ⟨33, _⟩ => ⟨S1x64, .f32⟩
  | .hbm, ⟨34, _⟩ => ⟨S1x64, .f32⟩
  | .hbm, ⟨35, _⟩ => ⟨S64x64, .f32⟩
  | .hbm, ⟨36, _⟩ => ⟨S1x64, .f32⟩
  | .hbm, ⟨37, _⟩ => ⟨S1x64, .f32⟩
  | .hbm, ⟨38, _⟩ => ⟨S1x64, .f32⟩
  | .hbm, ⟨39, _⟩ => ⟨S_, .f32⟩
  | .hbm, ⟨40, _⟩ => ⟨S1x64, .f32⟩
  | .hbm, ⟨41, _⟩ => ⟨S1x64, .f32⟩
  | .hbm, ⟨42, _⟩ => ⟨S64x8, .f32⟩
  | .hbm, ⟨43, _⟩ => ⟨S1x8, .f32⟩
  | .hbm, ⟨44, _⟩ => ⟨S1x8, .f32⟩
  | .hbm, ⟨45, _⟩ => ⟨S1x8, .f32⟩
  | .hbm, ⟨46, _⟩ => ⟨S8, .f32⟩
  | _, _ => ⟨S8192, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_cst : Ref sig .tc := ⟨.hbm, 26, rfl⟩
abbrev main_call0_v15 : Ref sig .tc := ⟨.hbm, 27, rfl⟩
abbrev main_v0 : Ref sig .tc := ⟨.hbm, 28, rfl⟩
abbrev main_v1 : Ref sig .tc := ⟨.hbm, 29, rfl⟩
abbrev main_cst : Ref sig .tc := ⟨.hbm, 30, rfl⟩
abbrev main_v2 : Ref sig .tc := ⟨.hbm, 31, rfl⟩
abbrev main_cst_0 : Ref sig .tc := ⟨.hbm, 32, rfl⟩
abbrev main_v3 : Ref sig .tc := ⟨.hbm, 33, rfl⟩
abbrev main_v4 : Ref sig .tc := ⟨.hbm, 34, rfl⟩
abbrev main_v5 : Ref sig .tc := ⟨.hbm, 35, rfl⟩
abbrev main_v6 : Ref sig .tc := ⟨.hbm, 36, rfl⟩
abbrev main_v7 : Ref sig .tc := ⟨.hbm, 37, rfl⟩
abbrev main_v8 : Ref sig .tc := ⟨.hbm, 38, rfl⟩
abbrev main_cst_1 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩

abbrev nD : Nat := 1
abbrev τ : Topo := Topo.v7x

variable {F : FTy → Type} [FloatOps F]

class Facts₀ : Prop where
  bcast_S_S8192 : S_.BroadcastsInDim S8192 (![] : Fin 0 → Fin S8192.rank)
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S1_S1x1_1 : S1.BroadcastsInDim S1x1 (![1] : Fin 1 → Fin S1x1.rank)
  bcast_S1x1_S8192x1_0_1 : S1x1.BroadcastsInDim S8192x1 (![0, 1] : Fin 2 → Fin S8192x1.rank)
  reducesTo_S8192x1_S8192_d1 : S8192x1.ReducesTo [1] S8192
  h_S_ : 0 < S_.numel
  bcast_S8192_S8192x64_0 : S8192.BroadcastsInDim S8192x64 (![0] : Fin 1 → Fin S8192x64.rank)
  bcast_S_S8192x64 : S_.BroadcastsInDim S8192x64 (![] : Fin 0 → Fin S8192x64.rank)
  bcast_S8192x64_S1x8192x64_1_2 : S8192x64.BroadcastsInDim S1x8192x64 (![1, 2] : Fin 2 → Fin S1x8192x64.rank)
  reducesTo_S1x8192x64_S1x64_d1 : S1x8192x64.ReducesTo [1] S1x64
  bcast_S_S1x64 : S_.BroadcastsInDim S1x64 (![] : Fin 0 → Fin S1x64.rank)
  transposes_S64x64_S64x64_1_0 : S64x64.Transposes [1, 0] S64x64
  bcast_S64_S1x64_1 : S64.BroadcastsInDim S1x64 (![1] : Fin 1 → Fin S1x64.rank)
  transposes_S8x64_S64x8_1_0 : S8x64.Transposes [1, 0] S64x8
  bcast_S8_S1x8_1 : S8.BroadcastsInDim S1x8 (![1] : Fin 1 → Fin S1x8.rank)
  shapeCasts_S1x8_S8 : S1x8.ShapeCasts S8
  gather_S256x64_S8192x1_S8192x64_1_0_n_n_0_1_164_wf : GatherDims.WF S256x64 S8192x1 S8192x64 [1] [0] [] [0] [] 1 ![1, 64]
  dot_S1x64_S64x64_S1x64_1_0_0_1_n_n_wf : DotDims.WF S1x64 S64x64 S1x64 [1] [0] [0] [1] [] []
  dot_S1x64_S64x8_S1x8_1_0_0_1_n_n_wf : DotDims.WF S1x64 S64x8 S1x8 [1] [0] [0] [1] [] []

variable [Facts₀]

def gather_S256x64_S8192x1_S8192x64_1_0_n_n_0_1_164 : GatherDims S256x64 S8192x1 S8192x64 where
  offsetDims := [1]
  collapsedSliceDims := [0]
  operandBatchingDims := []
  startIndicesBatchingDims := []
  startIndexMap := [0]
  indexVectorDim := 1
  sliceSizes := ![1, 64]
  wf := gather_S256x64_S8192x1_S8192x64_1_0_n_n_0_1_164_wf
def dot_S1x64_S64x64_S1x64_1_0_0_1_n_n : DotDims S1x64 S64x64 S1x64 where
  lhsContracting := [1]
  rhsContracting := [0]
  lhsNonContracting := [0]
  rhsNonContracting := [1]
  lhsBatch := []
  rhsBatch := []
  wf := dot_S1x64_S64x64_S1x64_1_0_0_1_n_n_wf
def dot_S1x64_S64x8_S1x8_1_0_0_1_n_n : DotDims S1x64 S64x8 S1x8 where
  lhsContracting := [1]
  rhsContracting := [0]
  lhsNonContracting := [0]
  rhsNonContracting := [1]
  lhsBatch := []
  rhsBatch := []
  wf := dot_S1x64_S64x8_S1x8_1_0_0_1_n_n_wf

class Facts : Prop extends Facts₀ where

variable [Facts]
-- ==== Proof.CommonK.lean ====
/-
  The histogram kernel as its launch sees it: sixteen workers of one SparseCore, each with 512 consecutive words of the
  index list and one row of the 16 × 256 result. This module fixes the names the later ones share: the program's
  configuration, the ghost state (the launch's handshakes beside the matrix-unit call's staging cells and the local
  copies' counters), the arrays' locations, the slice of the index list and the row of the result a worker addresses,
  and that these slices are the sixteen equal parts of their arrays.
-/
import proofs.«201856_g16750372454438_cont_week2b_1124_27_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«201856_g16750372454438_cont_week2b_1124_27_alg».proof.Proof.Gen.Kernel
import proofs.«201856_g16750372454438_cont_week2b_1124_27_alg».proof.Proof.Gen.Kernel.Skeleton

noncomputable section

namespace Cert.HistBits

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state: the launch's handshakes, the staging cells of the matrix-unit call, the local copies' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ
local notation "idsW" => (Memref.whole Cert.Kernel.main_arg0_scv : Memref Cert.Kernel.sig Kind.scVector Space.hbm Cert.Kernel.S8192 EltTy.i32)
local notation "outW" => (Memref.whole Cert.Kernel.main_v0_scv : Memref Cert.Kernel.sig Kind.scVector Space.hbm Cert.Kernel.S16x256 EltTy.f32)
local notation "sIds" => (Memref.whole Cert.Kernel.cc0_scratch0 : Memref Cert.Kernel.sig Kind.scVector Space.vmem Cert.Kernel.S512 EltTy.i32)
local notation "sCnt" => (Memref.whole Cert.Kernel.cc0_scratch1 : Memref Cert.Kernel.sig Kind.scVector Space.vmem Cert.Kernel.S256 EltTy.f32)

abbrev EH : Emb UH (MT nD τ sig (HIx 1) (Elt F) ℕ UU ℕ) := embL

/-! ## The arrays and the workers' slices -/

abbrev idsLoc (d : Dev nD) : Loc nD τ sig := (SparseCore.T d).loc main_arg0
abbrev outLoc (d : Dev nD) : Loc nD τ sig := (SparseCore.T d).loc main_v0

abbrev cV (L : grid0.Coords) : Fin τ.nSC := (L 0).castLE hcore0
abbrev jV (L : grid0.Coords) : Fin τ.nSub := (L 1).castLE hsub0
theorem bound_one : grid0.bound 1 = 16 := rfl
abbrev jL (L : grid0.Coords) : Fin 16 := Fin.cast bound_one (L 1)

/-- Worker `L 1`'s 512 words of the index list, and its row of the result, as the body slices them. -/
abbrev idsSlice (L : grid0.Coords) : Memref sig .scVector .hbm S512 .i32 :=
  (idsW).slice (Rect.unit (s := S8192) (k0_off1 L) S512.size (k0_off1_inb L)) (fun _ => rfl)
abbrev outRow (L : grid0.Coords) : Memref sig .scVector .hbm S256 .f32 :=
  ((outW).slice (Rect.unit (s := S16x256) (k0_off2 L) S1x256.size (k0_off2_inb L)) (fun _ => rfl)).squeeze S256 squeezes_S1x256_S256

theorem hdivI : 16 ∣ S8192.size 0 := ⟨512, rfl⟩
theorem hdivO : 16 ∣ S16x256.size 0 := ⟨1, rfl⟩
/-- The sixteen equal parts of the index list, and the sixteen rows of the result. -/
abbrev partI (i : Fin 16) : Rect S8192 := Rect.part (s := S8192) (a₀ := 0) hdivI i
abbrev partO (i : Fin 16) : Rect S16x256 := Rect.part (s := S16x256) (a₀ := 0) hdivO i
abbrev partSet (i : Fin 16) : Finset S8192.Idx := ((idsW).view.slice (partI i)).set
abbrev rowSet (i : Fin 16) : Finset S16x256.Idx := ((outW).view.slice (partO i)).set

theorem sliceI_eq (L : grid0.Coords) : Rect.unit (s := S8192) (k0_off1 L) S512.size (k0_off1_inb L) = partI (jL L) := by
  unfold partI Rect.part Rect.block
  congr 1 <;> funext a
  · rw [k0_off1_eq]
    match a with
    | 0 => simp [Shape.partIx, Shape.partSize]; omega
  · match a with
    | 0 => simp [Shape.partSize]
theorem sliceO_eq (L : grid0.Coords) : Rect.unit (s := S16x256) (k0_off2 L) S1x256.size (k0_off2_inb L) = partO (jL L) := by
  unfold partO Rect.part Rect.block
  congr 1 <;> funext a
  · rw [k0_off2_eq]
    match a with
    | 0 => simp [Shape.partIx, Shape.partSize]
    | 1 => simp [Shape.partIx, Shape.partSize]
  · match a with
    | 0 => simp [Shape.partSize]
    | 1 => simp [Shape.partSize]

theorem set_idsSlice (L : grid0.Coords) : (idsSlice L).view.set = partSet (jL L) := by
  show ((idsW).view.slice (Rect.unit (s := S8192) (k0_off1 L) S512.size (k0_off1_inb L))).set = ((idsW).view.slice (partI (jL L))).set
  rw [sliceI_eq]
theorem set_outRow (L : grid0.Coords) : (outRow L).view.set = rowSet (jL L) := by
  show (((outW).view.slice (Rect.unit (s := S16x256) (k0_off2 L) S1x256.size (k0_off2_inb L))).reshape S256 squeezes_S1x256_S256.numel_eq).set
    = ((outW).view.slice (partO (jL L))).set
  rw [View.set_reshape]
  exact sliceO_eq L ▸ rfl

theorem partSet_eq (i : Fin 16) : partSet i = (partI i).set := by
  show ((View.whole (main_arg0_scv : Ref sig .scVector)).slice (partI i)).set = _
  rw [View.set_slice]; exact Finset.map_refl
theorem rowSet_eq (i : Fin 16) : rowSet i = (partO i).set := by
  show ((View.whole (main_v0_scv : Ref sig .scVector)).slice (partO i)).set = _
  rw [View.set_slice]; exact Finset.map_refl
theorem parts_disjoint : ∀ i ∈ (Finset.univ : Finset (Fin 16)), ∀ j ∈ (Finset.univ : Finset (Fin 16)), i ≠ j → Disjoint (partSet i) (partSet j) :=
  fun i _ j _ h => by rw [partSet_eq, partSet_eq]; exact Rect.part_disjoint hdivI h
theorem parts_cover : (Finset.univ : Finset (Fin 16)).biUnion partSet = Finset.univ :=
  (Finset.biUnion_congr rfl fun i _ => partSet_eq i).trans (Rect.biUnion_part hdivI)
theorem rows_disjoint : ∀ i ∈ (Finset.univ : Finset (Fin 16)), ∀ j ∈ (Finset.univ : Finset (Fin 16)), i ≠ j → Disjoint (rowSet i) (rowSet j) :=
  fun i _ j _ h => by rw [rowSet_eq, rowSet_eq]; exact Rect.part_disjoint hdivO h
theorem rows_cover : (Finset.univ : Finset (Fin 16)).biUnion rowSet = Finset.univ :=
  (Finset.biUnion_congr rfl fun i _ => rowSet_eq i).trans (Rect.biUnion_part hdivO)

end Cert.HistBits

end
-- ==== Proof.TileK.lean ====
/-
  One worker's task of the histogram kernel, at a symbolic worker: it copies its 512 words of the index list into its
  own memory and waits for them, clears its 256 counts sixteen at a time, adds one to the count each word names —
  thirty-two passes of sixteen words, every word below 256 because every word of the index list is —, copies the counts
  into its row of the result and waits for that copy. It reads nothing but its own part of the index list and writes
  nothing but its own row, so it ends holding both again, the part unchanged.
-/
import proofs.«201856_g16750372454438_cont_week2b_1124_27_alg».proof.Proof.CommonK
import Idealize.ShloMosaic.Lib.Pipeline.FrameBody
import Idealize.ShloMosaic.Lib.Pipeline.Value
import Idealize.ShloMosaic.Lib.Writes
import Idealize.ShloMosaic.Lib.Exec.Geometry
import Idealize.ShloMosaic.Lib.ValueIdx

noncomputable section

namespace Cert.HistBits

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/- the ghost state and the memrefs, as Common spells them -/
local notation "𝕄" => MT nD τ sig (HIx 1) (Elt F) ℕ UU ℕ
local notation "idsW" => (Memref.whole Cert.Kernel.main_arg0_scv : Memref Cert.Kernel.sig Kind.scVector Space.hbm Cert.Kernel.S8192 EltTy.i32)
local notation "outW" => (Memref.whole Cert.Kernel.main_v0_scv : Memref Cert.Kernel.sig Kind.scVector Space.hbm Cert.Kernel.S16x256 EltTy.f32)
local notation "sIds" => (Memref.whole Cert.Kernel.cc0_scratch0 : Memref Cert.Kernel.sig Kind.scVector Space.vmem Cert.Kernel.S512 EltTy.i32)
local notation "sCnt" => (Memref.whole Cert.Kernel.cc0_scratch1 : Memref Cert.Kernel.sig Kind.scVector Space.vmem Cert.Kernel.S256 EltTy.f32)

variable (m : (ℓ : Loc nD τ sig) → Buf (Elt F) ℓ)

/-- What the proof asks of the launch memory: every word of the index list is below 256. -/
def PreOK : Prop := ∀ (d : Dev nD) (j : (idsLoc d).ty.Idx), (m (idsLoc d) j).toNat < 256

/-! ## What a worker's row holds -/

/-- Worker i's 512 words of the index list. -/
def wordsOf (d : Dev nD) (i : Fin 16) : S512.Idx → BitVec 32 :=
  fun t => m (idsLoc d) (ValueIdx.ix1 (⟨512 * i.val + (t 0).val, by
    have h1 := i.isLt
    have h2 : (t 0).val < 512 := (t 0).isLt
    omega⟩ : Fin 8192))

theorem wordsOf_lt (hpre : PreOK m) (d : Dev nD) (i : Fin 16) : ∀ t, (wordsOf m d i t).toNat < 256 :=
  fun _ => hpre d _

omit m in
/-- Pass c's sixteen words of a 512-word list: words 16c … 16c+15 (the position taken modulo 512, which changes
    nothing for c below 32). -/
def chunkOf (x : S512.Idx → BitVec 32) (c : ℕ) : IVec S16 32 :=
  fun l => x (ValueIdx.ix1 (⟨(16 * c + (l 0).val) % 512, Nat.mod_lt _ (by norm_num)⟩ : Fin 512))

omit m in
/-- Words below 256 are in range as indices into the 256 counts. -/
theorem chunkOf_lt (x : S512.Idx → BitVec 32) (hx : ∀ t, (x t).toNat < 256) (c : ℕ) :
    ∀ a l, ((![chunkOf x c] : Fin 1 → IVec S16 32) a l).toNat < S256.size a := by
  intro a l
  match a with
  | ⟨0, _⟩ => exact hx _

omit m in
/-- The counts after c passes: the zero word everywhere, then one scatter-add of the one word per pass. -/
def histG [FloatOps F] (x : S512.Idx → BitVec 32) (hx : ∀ t, (x t).toNat < 256) : ℕ → (S256.Idx → Elt F .f32)
  | 0 => fun _ => Scalar.ofBits .f32 0x00000000#32
  | c + 1 => storeIdx (F := F) (s := S256) (e := .f32) (d := ![16]) (histG x hx c) ![chunkOf x c] (k0_pay2 (F := F))
      (fun _ => 1#1) true (chunkOf_lt x hx c)

omit m in
/-- One pass: a scatter-add of the one word at a pass's words onto the counts so far is the counts after it. -/
theorem hist_step [FloatOps F] (x : S512.Idx → BitVec 32) (hx : ∀ t, (x t).toNat < 256) (k : ℕ)
    (g : S256.Idx → Elt F .f32) (ck : IVec S16 32) (hck : ∀ a l, ((![ck] : Fin 1 → IVec S16 32) a l).toNat < S256.size a)
    (hg : g = histG x hx k) (hc : ck = chunkOf x k) :
    storeIdx (F := F) (s := S256) (e := .f32) (d := ![16]) g ![ck] (k0_pay2 (F := F)) (fun _ => 1#1) true hck
      = histG x hx (k + 1) := by
  subst hg hc; rfl

/-- What a worker leaves in its row of the result: when every word of the index list is below 256, entry b of its row is
    the count after all thirty-two passes over its own 512 words. -/
def RowOK [FloatOps F] (d : Dev nD) (i : Fin 16) (f : Buf (Elt F) (outLoc d)) : Prop :=
  ∀ (hpre : PreOK m) (b : Fin 256),
    f (ValueIdx.ix2 i b) = histG (wordsOf m d i) (wordsOf_lt m hpre d i) 32 (ValueIdx.ix1 b)

abbrev idsPart (d : Dev nD) (i : Fin 16) : sProp 𝕄 := idsLoc d ↦[partSet i]{fullShare} m (idsLoc d)
abbrev outRowPts (d : Dev nD) (i : Fin 16) (f : Buf (Elt F) (outLoc d)) : sProp 𝕄 := outLoc d ↦[rowSet i]{fullShare} f

/-- A worker's row, at contents that are what a worker leaves, is a row some worker left. -/
theorem row_intro [FloatOps F] (d : Dev nD) (i : Fin 16) (f : Buf (Elt F) (outLoc d)) (h : RowOK (F := F) m d i f) :
    (outRowPts d i f : sProp 𝕄) ⊢ iprop(∃ f, ⌜RowOK (F := F) m d i f⌝ ∗ outRowPts d i f) := by
  iintro H; iexists f; isplitr
  · ipureintro; exact h
  · iexact H

omit m in
/-- Entry (i, b) of the result lies in worker i's row. -/
theorem mem_rowSet (i : Fin 16) (b : Fin 256) : ValueIdx.ix2 i b ∈ rowSet i := by
  rw [rowSet_eq]
  refine (partO i).mem_set.mpr fun a => ?_
  match a with
  | ⟨0, _⟩ =>
    refine ⟨0, ?_, ?_⟩
    · simp [partO, Rect.part, Rect.block, Shape.partSize]
    · simp [partO, Rect.part, Rect.block, Shape.partIx, Shape.partSize]
  | ⟨1, _⟩ =>
    refine ⟨b.val, ?_, ?_⟩
    · simp [partO, Rect.part, Rect.block, Shape.partSize]
    · simp [partO, Rect.part, Rect.block, Shape.partIx, Shape.partSize]

/-- What a worker leaves in its row is a statement about that row's elements only. -/
theorem RowOK_congr [FloatOps F] (d : Dev nD) (i : Fin 16) {f g : Buf (Elt F) (outLoc d)} (_h : ∀ j ∈ rowSet i, g j = f j) :
    RowOK (F := F) m d i f → RowOK (F := F) m d i g :=
  fun hf hpre b => (_h _ (mem_rowSet i b)).trans (hf hpre b)

section Tile

variable (d : Dev nD) (L : grid0.Coords)

abbrev c0cell : GSem nD τ sig := (V d (cV L) (jV L), .dma cc0_scoped0.sem)
abbrev c1cell : GSem nD τ sig := (V d (cV L) (jV L), .dma cc0_scoped1.sem)

theorem pts_idsSlice (f : Buf (Elt F) (idsLoc d)) :
    ((idsSlice L).view.loc (V d (cV L) (jV L)) ↦[(idsSlice L).view.set]{fullShare} f : sProp 𝕄) = idsLoc d ↦[partSet (jL L)]{fullShare} f := by
  rw [set_idsSlice]
theorem pts_outRow (f : Buf (Elt F) (outLoc d)) :
    ((outRow L).view.loc (V d (cV L) (jV L)) ↦[(outRow L).view.set]{fullShare} f : sProp 𝕄) = outLoc d ↦[rowSet (jL L)]{fullShare} f := by
  rw [set_outRow]
theorem pts_sIds (f : Buf (Elt F) ((V d (cV L) (jV L)).loc cc0_scratch0)) :
    ((sIds).view.loc (V d (cV L) (jV L)) ↦{fullShare} f : sProp 𝕄) = (V d (cV L) (jV L)).loc cc0_scratch0 ↦{fullShare} f := rfl
theorem pts_sCnt (f : Buf (Elt F) ((V d (cV L) (jV L)).loc cc0_scratch1)) :
    ((sCnt).view.loc (V d (cV L) (jV L)) ↦{fullShare} f : sProp 𝕄) = (V d (cV L) (jV L)).loc cc0_scratch1 ↦{fullShare} f := rfl

theorem ownSems0_V :
    (ownSems0 (V d (cV L) (jV L)) : sProp 𝕄)
      = iprop(semVal (c0cell d L) 0 ∗ semVal (c1cell d L) 0
          ∗ bigSep (((ownCells (V d (cV L) (jV L))).erase (c0cell d L)).erase (c1cell d L)) fun g => semVal g 0) := by
  unfold SparseCore.Cfg.ownSems0
  rw [SparseCore.bigSep_erase' ((mem_ownCells (g := c0cell d L)).mpr ⟨rfl, by
      show (SemLoc.dma cc0_scoped0.sem : SemLoc sig).isScoped .scVector = true; decide⟩),
    SparseCore.bigSep_erase' (Finset.mem_erase.mpr ⟨by simp [c0cell, c1cell]; decide, (mem_ownCells (g := c1cell d L)).mpr ⟨rfl, by
      show (SemLoc.dma cc0_scoped1.sem : SemLoc sig).isScoped .scVector = true; decide⟩⟩)]

/-- The two scratch buffers are among the worker's own: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-- Every word the worker loads from its copy of its 512 words is a word of the index list: below 256 when they all are. -/
theorem chk_ok (fi : Buf (Elt F) (idsLoc d)) (hall : ∀ j, (fi j).toNat < 256)
    (s0 : Buf (Elt F) ((V d (cV L) (jV L)).loc cc0_scratch0)) (off : Fin 1 → Nat) (hin : ∀ a, off a + S16.size a ≤ S512.size a) :
    ∀ a x, ((![View.readAt (Elt F) (sIds).view (Rect.unit (s := S512) off S16.size hin).toLoadRect
        (View.write (Elt F) (sIds).view s0 (ReadAs.same.apply (View.read (Elt F) (idsSlice L).view fi)) Finset.univ)] : Fin 1 → IVec S16 32) a x).toNat < S256.size a := by
  intro a x
  obtain rfl : a = 0 := Subsingleton.elim _ _
  have e : View.readAt (Elt F) (sIds).view (Rect.unit (s := S512) off S16.size hin).toLoadRect
        (View.write (Elt F) (sIds).view s0 (ReadAs.same.apply (View.read (Elt F) (idsSlice L).view fi)) Finset.univ) x
      = fi ((idsSlice L).view.emb ((Rect.unit (s := S512) off S16.size hin).toLoadRect.idx x)) := by
    rw [View.readAt_apply]
    simp only [Memref.view_whole, View.write_whole_univ, View.read_whole]
    exact (View.read_apply _ _).trans (cast_eq _ _)
  exact lt_of_eq_of_lt (congrArg BitVec.toNat e) (hall _)

/-! ## Reading the run's terms -/

omit m in
/-- Position t of worker (L 1)'s slice of the index list is position 512 (L 1) + t of the list. -/
theorem emb_idsSlice (L : grid0.Coords) (t : S512.Idx) :
    (idsSlice L).view.emb t = ValueIdx.ix1 (⟨512 * (jL L).val + (t 0).val, by
      have h1 := (jL L).isLt
      have h2 : (t 0).val < 512 := (t 0).isLt
      omega⟩ : Fin 8192) := by
  funext a
  refine Fin.ext ?_
  match a with
  | ⟨0, _⟩ =>
    show (k0_off1 L) 0 + 1 * (t 0).val = 512 * (jL L).val + (t 0).val
    rw [k0_off1_eq, Nat.one_mul]
    rfl

/-- Sixteen words loaded from the worker's copy of its words, at offset 16 k, are pass k's words. -/
theorem chunk_read (d : Dev nD) (L : grid0.Coords) (s0 : Buf (Elt F) ((V d (cV L) (jV L)).loc cc0_scratch0))
    (off : Fin 1 → Nat) (hin : ∀ a, off a + S16.size a ≤ S512.size a) (k : ℕ) (hk : k < 32) (hoff : off 0 = 16 * k) :
    View.readAt (Elt F) (sIds).view (Rect.unit (s := S512) off S16.size hin).toLoadRect
        (View.write (Elt F) (sIds).view s0 (ReadAs.same.apply (View.read (Elt F) (idsSlice L).view (m (idsLoc d)))) Finset.univ)
      = chunkOf (wordsOf m d (jL L)) k := by
  funext l
  have e : View.readAt (Elt F) (sIds).view (Rect.unit (s := S512) off S16.size hin).toLoadRect
        (View.write (Elt F) (sIds).view s0 (ReadAs.same.apply (View.read (Elt F) (idsSlice L).view (m (idsLoc d)))) Finset.univ) l
      = m (idsLoc d) ((idsSlice L).view.emb ((Rect.unit (s := S512) off S16.size hin).toLoadRect.idx l)) := by
    rw [View.readAt_apply]
    simp only [Memref.view_whole, View.write_whole_univ, View.read_whole]
    exact (View.read_apply _ _).trans (cast_eq _ _)
  refine e.trans ?_
  rw [emb_idsSlice]
  show m (idsLoc d) _ = m (idsLoc d) _
  refine congrArg (m (idsLoc d)) (congrArg ValueIdx.ix1 (Fin.ext ?_))
  have hl : (l 0).val < 16 := (l 0).isLt
  have hi := LoadRect.idx_apply (Rect.unit (s := S512) off S16.size hin).toLoadRect l 0
  show 512 * (jL L).val + ((Rect.unit (s := S512) off S16.size hin).toLoadRect.idx l 0).val
      = 512 * (jL L).val + (16 * k + (l 0).val) % 512
  rw [hi]
  show 512 * (jL L).val + (off 0 + 1 * (l 0).val) = _
  rw [hoff]
  omega

omit m in
/-- The sixteen clearing stores, in the order the run lists them (the last first). -/
abbrev zeroPieces [FloatOps F] : List (View.Piece (Elt F) S256 .f32) :=
  [ ⟨Rect.unit (s := S256) ![240] S16.size inb_S256_S16_240, k0_pay1 (F := F)⟩,
    ⟨Rect.unit (s := S256) ![224] S16.size inb_S256_S16_224, k0_pay1 (F := F)⟩,
    ⟨Rect.unit (s := S256) ![208] S16.size inb_S256_S16_208, k0_pay1 (F := F)⟩,
    ⟨Rect.unit (s := S256) ![192] S16.size inb_S256_S16_192, k0_pay1 (F := F)⟩,
    ⟨Rect.unit (s := S256) ![176] S16.size inb_S256_S16_176, k0_pay1 (F := F)⟩,
    ⟨Rect.unit (s := S256) ![160] S16.size inb_S256_S16_160, k0_pay1 (F := F)⟩,
    ⟨Rect.unit (s := S256) ![144] S16.size inb_S256_S16_144, k0_pay1 (F := F)⟩,
    ⟨Rect.unit (s := S256) ![128] S16.size inb_S256_S16_128, k0_pay1 (F := F)⟩,
    ⟨Rect.unit (s := S256) ![112] S16.size inb_S256_S16_112, k0_pay1 (F := F)⟩,
    ⟨Rect.unit (s := S256) ![96] S16.size inb_S256_S16_96, k0_pay1 (F := F)⟩,
    ⟨Rect.unit (s := S256) ![80] S16.size inb_S256_S16_80, k0_pay1 (F := F)⟩,
    ⟨Rect.unit (s := S256) ![64] S16.size inb_S256_S16_64, k0_pay1 (F := F)⟩,
    ⟨Rect.unit (s := S256) ![48] S16.size inb_S256_S16_48, k0_pay1 (F := F)⟩,
    ⟨Rect.unit (s := S256) ![32] S16.size inb_S256_S16_32, k0_pay1 (F := F)⟩,
    ⟨Rect.unit (s := S256) ![16] S16.size inb_S256_S16_16, k0_pay1 (F := F)⟩,
    ⟨Rect.unit (s := S256) ![0] S16.size inb_S256_S16_0, k0_pay1 (F := F)⟩ ]

omit m in
/-- After the sixteen clearing stores every count reads the zero word. -/
theorem zero_read [FloatOps F] (x : S512.Idx → BitVec 32) (hx : ∀ t, (x t).toNat < 256) :
    (sCnt).view.readCov (zeroPieces (F := F)) (LoadRect.whole S256) = histG x hx 0 := by
  rw [View.readCov_eq_canon']
  funext j
  exact View.canon_apply_of_pieces (fun _ => Scalar.ofBits .f32 0x00000000#32) _
    (List.forall_iff_forall_mem.1 (show (zeroPieces (F := F)).Forall _ from
      ⟨fun _ => rfl, fun _ => rfl, fun _ => rfl, fun _ => rfl, fun _ => rfl, fun _ => rfl, fun _ => rfl, fun _ => rfl, fun _ => rfl, fun _ => rfl, fun _ => rfl, fun _ => rfl, fun _ => rfl, fun _ => rfl, fun _ => rfl, fun _ => rfl⟩)) _
    (View.cover_of_tiled (s := S256) (zeroPieces (F := F)) ![16] rfl _)

omit m in
/-- Reading back contents whose last write covers the whole view gives that write's payload. -/
theorem read_writes_whole_cons {sig' : RefSig} {κ : Kind} {sp : Space} {s : Shape} {e : EltTy} {Val : EltTy → Type}
    (v : View sig' κ sp s e) (f : v.ty.Contents Val) (x : s.Idx → Val e) (P : List (View.Piece Val s e)) :
    ReadAs.same.apply (View.read Val v (v.writes Val f (⟨Rect.whole s, x⟩ :: P))) = x := by
  funext y
  have h := View.read_writes_cons_emb v f (Rect.whole s) x P y
  rwa [Rect.emb_whole_apply] at h

omit m in
/-- Entry b of worker (L 1)'s row is entry (L 1, b) of the result. -/
theorem emb_outRow (L : grid0.Coords) (b : Fin 256) :
    (outRow L).view.emb (ValueIdx.ix1 b) = ValueIdx.ix2 (jL L) b := by
  show ((outW).view.slice (Rect.unit (s := S16x256) (k0_off2 L) S1x256.size (k0_off2_inb L))).emb
      (Shape.reshapeEquiv squeezes_S1x256_S256.numel_eq (ValueIdx.ix1 b)) = _
  rw [Shape.reshapeEquiv_cons_one]
  funext a
  refine Fin.ext ?_
  match a with
  | ⟨0, _⟩ =>
    show (k0_off2 L) 0 + 1 * 0 = (jL L).val
    rw [k0_off2_eq]; rfl
  | ⟨1, _⟩ =>
    show (k0_off2 L) 1 + 1 * b.val = b.val
    rw [k0_off2_eq, Nat.one_mul]
    show 0 + b.val = b.val
    rw [Nat.zero_add]

omit m in
/-- A row written whole reads, at entry (L 1, b) of the result, the written row at b. -/
theorem row_written (d : Dev nD) (L : grid0.Coords) (g : Buf (Elt F) (outLoc d)) (P : S256.Idx → Elt F .f32) (b : Fin 256) :
    ((outRow L).view.writes (Elt F) g [⟨Rect.whole S256, P⟩]) (ValueIdx.ix2 (jL L) b) = P (ValueIdx.ix1 b) := by
  have h := congrFun (View.read_writes_whole (outRow L).view g P) (ValueIdx.ix1 b)
  rw [View.read_apply, emb_outRow] at h
  exact (cast_eq _ _).symm.trans h

variable [FloatOps F]

set_option maxHeartbeats 40000000 in
/-- The task on worker `(L 0, L 1)` of device `d`. -/
theorem tile_body (hF : (K (F := F)).Facts) (hpre : PreOK m) (O : CellTallies nD τ sig (HIx 1)) (W : Waits sig (HIx 1)) (hO : ∀ g, O g none = 0) :
    iprop(levAts (K (F := F)).L (K (F := F)).lev ∗ emp
        ∗ (idsPart m d (jL L) ∗ outRowPts d (jL L) (m (outLoc d)))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__hist_body L idsW (Memref.isWhole_whole _) outW (Memref.isWhole_whole _) sIds (Memref.isWhole_whole _) sCnt (Memref.isWhole_whole _) cc0_scoped0 cc0_scoped1)
          fun _ => iprop((idsPart m d (jL L) ∗ ∃ f, ⌜RowOK (F := F) m d (jL L) f⌝ ∗ outRowPts d (jL L) f)
            ∗ scopedBufs (V d (cV L) (jV L)) ∗ scopedSems0 (V d (cV L) (jV L))
            ∗ ∃ W', ⌜∀ p ∈ W', p ∈ W ∨ p.2 = none⌝ ∗ owes (V d (cV L) (jV L)) O W') := by
  have hall : ∀ j, (m (idsLoc d) j).toNat < 256 := hpre d
  rw [cc0__hist_body_eq_skeleton]; unfold cc0__hist_body_skel
  rw [(K (F := F)).scopedBufs_V hF d (cV L) (jV L), SparseCore.Cfg.scopedSems0_V (Val := Elt F) d (cV L) (jV L), ownSems0_V, ownBufs_V]
  iintro ⟨#Hlv, -, ⟨Hi, Ho⟩, ⟨⟨%s0, Hs0⟩, ⟨%s1, Hs1⟩, Hbufs⟩, ⟨Hsem0, Hsem1, Hsems⟩, HO⟩
  ihave Hmw := ((K (F := F)).mayWaits_none (thr := V d (cV L) (jV L)) hO) $$ Hlv
  ihave Hi := (Entails.of_eq (pts_idsSlice (F := F) d L _).symm) $$ Hi
  ihave Ho := (Entails.of_eq (pts_outRow (F := F) d L _).symm) $$ Ho
  ihave Hs0 := (Entails.of_eq (pts_sIds (F := F) d L _).symm) $$ Hs0
  ihave Hs1 := (Entails.of_eq (pts_sCnt (F := F) d L _).symm) $$ Hs1
  sl_exec (disch := exact chk_ok d L (m (idsLoc d)) hall _ _ _)
  iterate 32 (rw [SparseCore.vectorStoreIdx_bind (V d (cV L) (jV L))]; sl_exec (disch := exact chk_ok d L (m (idsLoc d)) hall _ _ _))
  sl_step
  let x := wordsOf m d (jL L)
  have hx : ∀ t, (x t).toNat < 256 := wordsOf_lt m hpre d (jL L)
  have e0 : tile_body.sl.f (F := F) = histG x hx 0 := zero_read x hx
  have e1 : tile_body.sl.f_1 m d L hall s0 = histG x hx 1 :=
    (View.readCov_cons_toLoadRect _ (Rect.whole S256) _ _).trans (hist_step x hx 0 _ _ _ e0 (chunk_read m d L s0 _ _ 0 (by norm_num) rfl))
  have e2 : tile_body.sl.f_2 m d L hall s0 = histG x hx 2 :=
    (View.readCov_cons_toLoadRect _ (Rect.whole S256) _ _).trans (hist_step x hx 1 _ _ _ e1 (chunk_read m d L s0 _ _ 1 (by norm_num) rfl))
  have e3 : tile_body.sl.f_3 m d L hall s0 = histG x hx 3 :=
    (View.readCov_cons_toLoadRect _ (Rect.whole S256) _ _).trans (hist_step x hx 2 _ _ _ e2 (chunk_read m d L s0 _ _ 2 (by norm_num) rfl))
  have e4 : tile_body.sl.f_4 m d L hall s0 = histG x hx 4 :=
    (View.readCov_cons_toLoadRect _ (Rect.whole S256) _ _).trans (hist_step x hx 3 _ _ _ e3 (chunk_read m d L s0 _ _ 3 (by norm_num) rfl))
  have e5 : tile_body.sl.f_5 m d L hall s0 = histG x hx 5 :=
    (View.readCov_cons_toLoadRect _ (Rect.whole S256) _ _).trans (hist_step x hx 4 _ _ _ e4 (chunk_read m d L s0 _ _ 4 (by norm_num) rfl))
  have e6 : tile_body.sl.f_6 m d L hall s0 = histG x hx 6 :=
    (View.readCov_cons_toLoadRect _ (Rect.whole S256) _ _).trans (hist_step x hx 5 _ _ _ e5 (chunk_read m d L s0 _ _ 5 (by norm_num) rfl))
  have e7 : tile_body.sl.f_7 m d L hall s0 = histG x hx 7 :=
    (View.readCov_cons_toLoadRect _ (Rect.whole S256) _ _).trans (hist_step x hx 6 _ _ _ e6 (chunk_read m d L s0 _ _ 6 (by norm_num) rfl))
  have e8 : tile_body.sl.f_8 m d L hall s0 = histG x hx 8 :=
    (View.readCov_cons_toLoadRect _ (Rect.whole S256) _ _).trans (hist_step x hx 7 _ _ _ e7 (chunk_read m d L s0 _ _ 7 (by norm_num) rfl))
  have e9 : tile_body.sl.f_9 m d L hall s0 = histG x hx 9 :=
    (View.readCov_cons_toLoadRect _ (Rect.whole S256) _ _).trans (hist_step x hx 8 _ _ _ e8 (chunk_read m d L s0 _ _ 8 (by norm_num) rfl))
  have e10 : tile_body.sl.f_10 m d L hall s0 = histG x hx 10 :=
    (View.readCov_cons_toLoadRect _ (Rect.whole S256) _ _).trans (hist_step x hx 9 _ _ _ e9 (chunk_read m d L s0 _ _ 9 (by norm_num) rfl))
  have e11 : tile_body.sl.f_11 m d L hall s0 = histG x hx 11 :=
    (View.readCov_cons_toLoadRect _ (Rect.whole S256) _ _).trans (hist_step x hx 10 _ _ _ e10 (chunk_read m d L s0 _ _ 10 (by norm_num) rfl))
  have e12 : tile_body.sl.f_12 m d L hall s0 = histG x hx 12 :=
    (View.readCov_cons_toLoadRect _ (Rect.whole S256) _ _).trans (hist_step x hx 11 _ _ _ e11 (chunk_read m d L s0 _ _ 11 (by norm_num) rfl))
  have e13 : tile_body.sl.f_13 m d L hall s0 = histG x hx 13 :=
    (View.readCov_cons_toLoadRect _ (Rect.whole S256) _ _).trans (hist_step x hx 12 _ _ _ e12 (chunk_read m d L s0 _ _ 12 (by norm_num) rfl))
  have e14 : tile_body.sl.f_14 m d L hall s0 = histG x hx 14 :=
    (View.readCov_cons_toLoadRect _ (Rect.whole S256) _ _).trans (hist_step x hx 13 _ _ _ e13 (chunk_read m d L s0 _ _ 13 (by norm_num) rfl))
  have e15 : tile_body.sl.f_15 m d L hall s0 = histG x hx 15 :=
    (View.readCov_cons_toLoadRect _ (Rect.whole S256) _ _).trans (hist_step x hx 14 _ _ _ e14 (chunk_read m d L s0 _ _ 14 (by norm_num) rfl))
  have e16 : tile_body.sl.f_16 m d L hall s0 = histG x hx 16 :=
    (View.readCov_cons_toLoadRect _ (Rect.whole S256) _ _).trans (hist_step x hx 15 _ _ _ e15 (chunk_read m d L s0 _ _ 15 (by norm_num) rfl))
  have e17 : tile_body.sl.f_17 m d L hall s0 = histG x hx 17 :=
    (View.readCov_cons_toLoadRect _ (Rect.whole S256) _ _).trans (hist_step x hx 16 _ _ _ e16 (chunk_read m d L s0 _ _ 16 (by norm_num) rfl))
  have e18 : tile_body.sl.f_18 m d L hall s0 = histG x hx 18 :=
    (View.readCov_cons_toLoadRect _ (Rect.whole S256) _ _).trans (hist_step x hx 17 _ _ _ e17 (chunk_read m d L s0 _ _ 17 (by norm_num) rfl))
  have e19 : tile_body.sl.f_19 m d L hall s0 = histG x hx 19 :=
    (View.readCov_cons_toLoadRect _ (Rect.whole S256) _ _).trans (hist_step x hx 18 _ _ _ e18 (chunk_read m d L s0 _ _ 18 (by norm_num) rfl))
  have e20 : tile_body.sl.f_20 m d L hall s0 = histG x hx 20 :=
    (View.readCov_cons_toLoadRect _ (Rect.whole S256) _ _).trans (hist_step x hx 19 _ _ _ e19 (chunk_read m d L s0 _ _ 19 (by norm_num) rfl))
  have e21 : tile_body.sl.f_21 m d L hall s0 = histG x hx 21 :=
    (View.readCov_cons_toLoadRect _ (Rect.whole S256) _ _).trans (hist_step x hx 20 _ _ _ e20 (chunk_read m d L s0 _ _ 20 (by norm_num) rfl))
  have e22 : tile_body.sl.f_22 m d L hall s0 = histG x hx 22 :=
    (View.readCov_cons_toLoadRect _ (Rect.whole S256) _ _).trans (hist_step x hx 21 _ _ _ e21 (chunk_read m d L s0 _ _ 21 (by norm_num) rfl))
  have e23 : tile_body.sl.f_23 m d L hall s0 = histG x hx 23 :=
    (View.readCov_cons_toLoadRect _ (Rect.whole S256) _ _).trans (hist_step x hx 22 _ _ _ e22 (chunk_read m d L s0 _ _ 22 (by norm_num) rfl))
  have e24 : tile_body.sl.f_24 m d L hall s0 = histG x hx 24 :=
    (View.readCov_cons_toLoadRect _ (Rect.whole S256) _ _).trans (hist_step x hx 23 _ _ _ e23 (chunk_read m d L s0 _ _ 23 (by norm_num) rfl))
  have e25 : tile_body.sl.f_25 m d L hall s0 = histG x hx 25 :=
    (View.readCov_cons_toLoadRect _ (Rect.whole S256) _ _).trans (hist_step x hx 24 _ _ _ e24 (chunk_read m d L s0 _ _ 24 (by norm_num) rfl))
  have e26 : tile_body.sl.f_26 m d L hall s0 = histG x hx 26 :=
    (View.readCov_cons_toLoadRect _ (Rect.whole S256) _ _).trans (hist_step x hx 25 _ _ _ e25 (chunk_read m d L s0 _ _ 25 (by norm_num) rfl))
  have e27 : tile_body.sl.f_27 m d L hall s0 = histG x hx 27 :=
    (View.readCov_cons_toLoadRect _ (Rect.whole S256) _ _).trans (hist_step x hx 26 _ _ _ e26 (chunk_read m d L s0 _ _ 26 (by norm_num) rfl))
  have e28 : tile_body.sl.f_28 m d L hall s0 = histG x hx 28 :=
    (View.readCov_cons_toLoadRect _ (Rect.whole S256) _ _).trans (hist_step x hx 27 _ _ _ e27 (chunk_read m d L s0 _ _ 27 (by norm_num) rfl))
  have e29 : tile_body.sl.f_29 m d L hall s0 = histG x hx 29 :=
    (View.readCov_cons_toLoadRect _ (Rect.whole S256) _ _).trans (hist_step x hx 28 _ _ _ e28 (chunk_read m d L s0 _ _ 28 (by norm_num) rfl))
  have e30 : tile_body.sl.f_30 m d L hall s0 = histG x hx 30 :=
    (View.readCov_cons_toLoadRect _ (Rect.whole S256) _ _).trans (hist_step x hx 29 _ _ _ e29 (chunk_read m d L s0 _ _ 29 (by norm_num) rfl))
  have e31 : tile_body.sl.f_31 m d L hall s0 = histG x hx 31 :=
    (View.readCov_cons_toLoadRect _ (Rect.whole S256) _ _).trans (hist_step x hx 30 _ _ _ e30 (chunk_read m d L s0 _ _ 30 (by norm_num) rfl))
  have e32 : tile_body.sl.dma2 m d L hall s0 s1 = histG x hx 32 :=
    (read_writes_whole_cons _ _ _ _).trans (hist_step x hx 31 _ _ _ e31 (chunk_read m d L s0 _ _ 31 (by norm_num) rfl))
  have hrow : RowOK (F := F) m d (jL L)
      ((outRow L).view.writes (Elt F) (m (outLoc d)) [⟨Rect.whole S256, tile_body.sl.dma2 m d L hall s0 s1⟩]) :=
    fun _ b => (row_written d L _ _ b).trans (congrFun e32 (ValueIdx.ix1 b))
  isplitl [Hi Ho]
  · isplitl [Hi]
    · iapply (Entails.of_eq (pts_idsSlice (F := F) d L _)); iexact Hi
    iapply (row_intro (F := F) m d (jL L) _ hrow)
    iapply (Entails.of_eq (pts_outRow (F := F) d L _)); iexact Ho
  isplitl [Hs0 Hs1 Hbufs]
  · isplitl [Hs0]
    · iexists _; iapply (Entails.of_eq (pts_sIds (F := F) d L _)); iexact Hs0
    isplitl [Hs1]
    · iexists _; iapply (Entails.of_eq (pts_sCnt (F := F) d L _)); iexact Hs1
    iexact Hbufs
  isplitl [Hsem0 Hsem1 Hsems]
  · isplitl [Hsem0]; · iexact Hsem0
    isplitl [Hsem1]; · iexact Hsem1
    iexact Hsems
  iexists (insert (SemLoc.dma cc0_scoped1.sem, none) (insert (SemLoc.dma cc0_scoped0.sem, none) W)); isplitr
  · ipureintro; intro p hp
    rcases Finset.mem_insert.mp hp with rfl | hp
    · exact .inr rfl
    rcases Finset.mem_insert.mp hp with rfl | hp
    · exact .inr rfl
    · exact .inl hp
  · iexact HO

end Tile

end Cert.HistBits

end
-- ==== Proof.LaunchK.lean ====
/-
  The histogram call as the launch sees it. The TensorCore hands the call the index list and the result array whole;
  the one SparseCore deals worker `i` part `i` of the index list and row `i` of the result; each worker hands back its
  part unchanged and its row at what it computed; the sixteen rows make the result array again. Nothing else is shared:
  the sixteen parts are disjoint and cover the list, the sixteen rows are disjoint and cover the array.
-/
import proofs.«201856_g16750372454438_cont_week2b_1124_27_alg».proof.Proof.TileK

noncomputable section

namespace Cert.HistBits

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "idsW" => (Memref.whole Cert.Kernel.main_arg0_scv : Memref Cert.Kernel.sig Kind.scVector Space.hbm Cert.Kernel.S8192 EltTy.i32)
local notation "outW" => (Memref.whole Cert.Kernel.main_v0_scv : Memref Cert.Kernel.sig Kind.scVector Space.hbm Cert.Kernel.S16x256 EltTy.f32)
local notation "sIds" => (Memref.whole Cert.Kernel.cc0_scratch0 : Memref Cert.Kernel.sig Kind.scVector Space.vmem Cert.Kernel.S512 EltTy.i32)
local notation "sCnt" => (Memref.whole Cert.Kernel.cc0_scratch1 : Memref Cert.Kernel.sig Kind.scVector Space.vmem Cert.Kernel.S256 EltTy.f32)

variable (m : (ℓ : Loc nD τ sig) → Buf (Elt F) ℓ)
variable [FloatOps F]

abbrev idsPts (d : Dev nD) : sProp 𝕄 := idsLoc d ↦{fullShare} m (idsLoc d)
abbrev outPts (d : Dev nD) (f : Buf (Elt F) (outLoc d)) : sProp 𝕄 := outLoc d ↦{fullShare} f

/-- The one call takes the index list and the result array whole, each worker its part and its row, and brings them
    back, the result array at what the workers left. -/
def P : (K (F := F)).Pay (nD := nD) (Val := Elt F) (Name := ℕ) (U := UU) where
  st := fun q d _ => match q with | 0 => iprop(idsPts m d ∗ outPts d (m (outLoc d)))
  dn := fun q d _ => match q with | 0 => iprop(idsPts m d ∗ ∃ f, ⌜∀ i, RowOK (F := F) m d i f⌝ ∗ outPts d f)
  go := fun q d _ i => match q with
    | 0 => iprop(idsPart m d (Fin.cast nSub_zero i) ∗ outRowPts d (Fin.cast nSub_zero i) (m (outLoc d)))
  td := fun q d _ i => match q with
    | 0 => iprop(idsPart m d (Fin.cast nSub_zero i) ∗ ∃ f, ⌜RowOK (F := F) m d (Fin.cast nSub_zero i) f⌝ ∗ outRowPts d (Fin.cast nSub_zero i) f)
  x := fun _ _ => iprop(emp)

instance P_storable : (P (F := F) m).IsStorable where
  st q d _ := match q with
    | 0 => (inferInstance : BI.Storable (upEmb : UEmb _ 𝕄) iprop(idsPts m d ∗ outPts d (m (outLoc d))))
  dn q d _ := match q with
    | 0 => (inferInstance : BI.Storable (upEmb : UEmb _ 𝕄) iprop(idsPts m d ∗ ∃ f, ⌜∀ i, RowOK (F := F) m d i f⌝ ∗ outPts d f))
  go q d _ i := match q with
    | 0 => (inferInstance : BI.Storable (upEmb : UEmb _ 𝕄)
        iprop(idsPart m d (Fin.cast nSub_zero i) ∗ outRowPts d (Fin.cast nSub_zero i) (m (outLoc d))))
  td q d _ i := match q with
    | 0 => (inferInstance : BI.Storable (upEmb : UEmb _ 𝕄)
        iprop(idsPart m d (Fin.cast nSub_zero i) ∗ ∃ f, ⌜RowOK (F := F) m d (Fin.cast nSub_zero i) f⌝ ∗ outRowPts d (Fin.cast nSub_zero i) f))

/-! ## The worker's obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__hist_body (coordsV c s)
          idsW (Memref.isWhole_whole _) outW (Memref.isWhole_whole _) sIds (Memref.isWhole_whole _) sCnt (Memref.isWhole_whole _) cc0_scoped0 cc0_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) (hpre : PreOK m) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) hF hpre O W hO).trans (wp_mono frame _ _ fun _ => obl_post)

/-! ## The parts and the rows -/

omit [FloatOps F] in
theorem idsPts_parts (d : Dev nD) (f : Buf (Elt F) (idsLoc d)) :
    (idsLoc d ↦{fullShare} f : sProp 𝕄) = bigSep Finset.univ fun i : Fin 16 => idsLoc d ↦[partSet i]{fullShare} f := by
  rw [← pointsTo_biUnion Finset.univ (ℓ := idsLoc d) partSet parts_disjoint, parts_cover]; try rfl
omit [FloatOps F] in
theorem outPts_rows (d : Dev nD) (f : Buf (Elt F) (outLoc d)) :
    (outLoc d ↦{fullShare} f : sProp 𝕄) = bigSep Finset.univ fun i : Fin 16 => outLoc d ↦[rowSet i]{fullShare} f := by
  rw [← pointsTo_biUnion Finset.univ (ℓ := outLoc d) rowSet rows_disjoint, rows_cover]; try rfl

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-- The sixteen rows, each at what its worker left, are the result array at what the workers left. -/
theorem oRows_join (d : Dev nD) :
    (bigSep Finset.univ fun i : Fin 16 => iprop(∃ f, ⌜RowOK (F := F) m d i f⌝ ∗ outRowPts d i f))
      ⊢ (iprop(∃ f, ⌜∀ i, RowOK (F := F) m d i f⌝ ∗ outPts d f) : sProp 𝕄) := by
  refine (bigSep_exists_pi Finset.univ (fun i (f : Buf (Elt F) (outLoc d)) => iprop(⌜RowOK (F := F) m d i f⌝ ∗ outRowPts d i f))).trans ?_
  iintro ⟨%fs, H⟩
  ihave H2 := (bigSep_pure_sep Finset.univ (fun i => RowOK (F := F) m d i (fs i)) (fun i => outRowPts d i (fs i))) $$ H
  icases H2 with ⟨%hok, H⟩
  ihave H' := (pointsTo_biUnion_join Finset.univ rowSet fs (fs 0) rows_disjoint) $$ H
  icases H' with ⟨%g, %hg, Hg⟩
  rw [rows_cover]
  iexists g; isplitr
  · ipureintro; intro i
    exact RowOK_congr m d i (fun j hj => hg i (Finset.mem_univ i) j hj) (hok i (Finset.mem_univ i))
  · iexact Hg

theorem vecSplit : (K (F := F)).VecSplit' (P m) 0 := by
  intro d c
  show iprop(idsPts m d ∗ outPts d (m (outLoc d))) ⊢ |={Set.univ}=> iprop(
      (bigSep Finset.univ fun i : Fin ((K (F := F)).nSub 0) =>
        iprop(idsPart m d (Fin.cast nSub_zero i) ∗ outRowPts d (Fin.cast nSub_zero i) (m (outLoc d))))
      ∗ ((bigSep Finset.univ fun i : Fin ((K (F := F)).nSub 0) =>
          iprop(idsPart m d (Fin.cast nSub_zero i) ∗ ∃ f, ⌜RowOK (F := F) m d (Fin.cast nSub_zero i) f⌝ ∗ outRowPts d (Fin.cast nSub_zero i) f))
          -∗ iprop(idsPts m d ∗ ∃ f, ⌜∀ i, RowOK (F := F) m d i f⌝ ∗ outPts d f)))
  rw [bigSep_tasks (F := F) (fun i => iprop(idsPart m d i ∗ outRowPts d i (m (outLoc d)))),
    bigSep_tasks (F := F) (fun i => iprop(idsPart m d i ∗ ∃ f, ⌜RowOK (F := F) m d i f⌝ ∗ outRowPts d i f)), bigSep_sep', bigSep_sep']
  unfold idsPts outPts idsPart
  rw [idsPts_parts, outPts_rows]
  iintro H; imodintro
  isplitl [H]; · iexact H
  iintro ⟨Hi, Ho⟩
  isplitl [Hi]; · iexact Hi
  iapply (oRows_join m d); iexact Ho

end Cert.HistBits

end
-- ==== Proof.TcBodyK.lean ====
/-
  The matrix-unit call's body, run once at symbolic operands, and the call's proof data.

  The body loads its six input blocks, computes one value from them and stores it over the whole output block; nothing
  else is touched. Run from the seven staging buffers held whole, it returns them with the inputs unchanged and the
  output holding that value. The call has one grid point and every window is its whole array: an input's staging
  buffer holds the array when the body runs, the output's staging buffer holds afterwards the value computed from the
  six arrays, and that is what the write-back leaves in the output array.
-/
import proofs.«201856_g16750372454438_cont_week2b_1124_27_alg».proof.Proof.CommonK
import proofs.«201856_g16750372454438_cont_week2b_1124_27_alg».proof.Proof.Gen.Kernel.Launch
import proofs.«201856_g16750372454438_cont_week2b_1124_27_alg».proof.Proof.Gen.Kernel.Points
import Idealize.ShloMosaic.Lib.Pipeline.Regions
import Idealize.ShloMosaic.Lib.Pipeline.Value

noncomputable section

namespace Cert.HistBits

open Cert.Kernel Cert.Kernel.Gen

open Idealize.ShloMosaic
open Idealize.ShloMosaic.TcCoe Idealize.ShloMosaic.Tactic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-! ## The staging cells' ghost state inside the program's -/

/-- The staging cells' rounds state: the left factor of the right factor of the program's ghost state. -/
abbrev EP : Emb UP (MT nD τ sig (HIx 1) (Elt F) ℕ UU ℕ) := (Emb.inl : Emb UP (UP × Counters)).trans embR
instance EP_landsIn : (EP : Emb UP 𝕄).LandsIn (upEmb : UEmb _ 𝕄) := by unfold EP embR; infer_instance

/-! ## The body, run -/

abbrev Bf (c : Dev nD) {sp : Space} {Sh : Shape} {e : EltTy} (M : Memref sig .tc sp Sh e) : Type := Buf (Elt F) (M.view.loc (c : Thread nD τ))
abbrev pt (c : Dev nD) {sp : Space} {Sh : Shape} {e : EltTy} (M : Memref sig .tc sp Sh e) (f : Bf (F := F) c M) : sProp 𝕄 :=
  M.view.loc (c : Thread nD τ) ↦{fullShare} f

/-- The value the body stores, from the contents of the six input buffers as its loads read them. -/
abbrev outOf (c : Dev nD)
    (M0 : Memref sig .tc .vmem S16x256 .f32) (M1 : Memref sig .tc .vmem S256x64 .f32) (M2 : Memref sig .tc .vmem S64x64 .f32)
    (M3 : Memref sig .tc .vmem S1x64 .f32) (M4 : Memref sig .tc .vmem S8x64 .f32) (M5 : Memref sig .tc .vmem S1x8 .f32)
    (f0 : Bf (F := F) c M0) (f1 : Bf (F := F) c M1) (f2 : Bf (F := F) c M2) (f3 : Bf (F := F) c M3)
    (f4 : Bf (F := F) c M4) (f5 : Bf (F := F) c M5) : FVec F S1x8 .f32 :=
  k1_pay1 (View.readAt (Elt F) M0.view (Rect.unit (s := S16x256) ![0, 0] S16x256.size Facts₀.inb_S16x256_S16x256_0_0).toLoadRect f0)
    (View.readAt (Elt F) M1.view (Rect.unit (s := S256x64) ![0, 0] S256x64.size Facts₀.inb_S256x64_S256x64_0_0).toLoadRect f1)
    (View.readAt (Elt F) M2.view (Rect.unit (s := S64x64) ![0, 0] S64x64.size Facts₀.inb_S64x64_S64x64_0_0).toLoadRect f2)
    (View.readAt (Elt F) M3.view (Rect.unit (s := S1x64) ![0, 0] S1x64.size Facts₀.inb_S1x64_S1x64_0_0).toLoadRect f3)
    (View.readAt (Elt F) M4.view (Rect.unit (s := S8x64) ![0, 0] S8x64.size Facts₀.inb_S8x64_S8x64_0_0).toLoadRect f4)
    (View.readAt (Elt F) M5.view (Rect.unit (s := S1x8) ![0, 0] S1x8.size Facts₀.inb_S1x8_S1x8_0_0).toLoadRect f5)

/-- From the seven buffers held whole, the body runs to its return with the inputs as they were and the output
    rewritten, over all of it, with the value computed from the inputs. -/
theorem kernelRun (c : Dev nD)
    (M0 : Memref sig .tc .vmem S16x256 .f32) (h0 : M0.IsWhole) (M1 : Memref sig .tc .vmem S256x64 .f32) (h1 : M1.IsWhole)
    (M2 : Memref sig .tc .vmem S64x64 .f32) (h2 : M2.IsWhole) (M3 : Memref sig .tc .vmem S1x64 .f32) (h3 : M3.IsWhole)
    (M4 : Memref sig .tc .vmem S8x64 .f32) (h4 : M4.IsWhole) (M5 : Memref sig .tc .vmem S1x8 .f32) (h5 : M5.IsWhole)
    (M6 : Memref sig .tc .vmem S1x8 .f32) (h6 : M6.IsWhole)
    (f0 : Bf (F := F) c M0) (f1 : Bf (F := F) c M1) (f2 : Bf (F := F) c M2) (f3 : Bf (F := F) c M3)
    (f4 : Bf (F := F) c M4) (f5 : Bf (F := F) c M5) (f6 : Bf (F := F) c M6) (Q : PUnit → sProp 𝕄) :
    iprop(pt c M0 f0 ∗ pt c M1 f1 ∗ pt c M2 f2 ∗ pt c M3 f3 ∗ pt c M4 f4 ∗ pt c M5 f5 ∗ pt c M6 f6
      ∗ (iprop(pt c M0 f0 ∗ pt c M1 f1 ∗ pt c M2 f2 ∗ pt c M3 f3 ∗ pt c M4 f4 ∗ pt c M5 f5
          ∗ pt c M6 (M6.view.writes (Elt F) f6
              [⟨Rect.unit (s := S1x8) ![0, 0] S1x8.size Facts₀.inb_S1x8_S1x8_0_0, outOf c M0 M1 M2 M3 M4 M5 f0 f1 f2 f3 f4 f5⟩])) -∗ Q ⟨⟩))
    ⊢ wp frame (wpE (defs₀ (F := F)) Variants.none c none) Set.univ
        (cc1__mlp_body M0 h0 M1 h1 M2 h2 M3 h3 M4 h4 M5 h5 M6 h6) Q := by
  iintro ⟨H0, H1, H2, H3, H4, H5, H6, Hk⟩
  rw [cc1__mlp_body_eq_skeleton]
  unfold cc1__mlp_body_skel
  sl_exec
  sl_step
  iapply Hk
  isplitl [H0]; · iexact H0
  isplitl [H1]; · iexact H1
  isplitl [H2]; · iexact H2
  isplitl [H3]; · iexact H3
  isplitl [H4]; · iexact H4
  isplitl [H5]; · iexact H5
  iexact H6

/-! ## The call's proof data -/

/-- The arrays' contents when the call is entered, as buffers of core `c`. -/
abbrev Vb (V : Valuation τ sig (Elt F)) (c : Dev nD) (b : Ref sig .tc) : Buf (Elt F) ((c : Thread nD τ).loc b) := V (Proc.devRef .tc b)

/-- What window `w`'s fetch stages: its array's one block. -/
abbrev stg (V : Valuation τ sig (Elt F)) : (w : Fin 7) → (cfg1.win w).block.Idx → Elt F (cfg1.win w).elt
  | 0 => ((cfg1.win 0).blk t1_0).view.read (Elt F) (V (Proc.devRef .tc (Pipeline.arrRef spec1 0)))
  | 1 => ((cfg1.win 1).blk t1_0).view.read (Elt F) (V (Proc.devRef .tc (Pipeline.arrRef spec1 1)))
  | 2 => ((cfg1.win 2).blk t1_0).view.read (Elt F) (V (Proc.devRef .tc (Pipeline.arrRef spec1 2)))
  | 3 => ((cfg1.win 3).blk t1_0).view.read (Elt F) (V (Proc.devRef .tc (Pipeline.arrRef spec1 3)))
  | 4 => ((cfg1.win 4).blk t1_0).view.read (Elt F) (V (Proc.devRef .tc (Pipeline.arrRef spec1 4)))
  | 5 => ((cfg1.win 5).blk t1_0).view.read (Elt F) (V (Proc.devRef .tc (Pipeline.arrRef spec1 5)))
  | 6 => ((cfg1.win 6).blk t1_0).view.read (Elt F) (V (Proc.devRef .tc (Pipeline.arrRef spec1 6)))
  | ⟨_ + 7, h⟩ => absurd h (Nat.not_lt.2 (Nat.le_add_left _ _))

/-- The proof data on core `c`, entered with the arrays at `V`, the thread owing `O` with recorded pairs `W`: after the
    body an input's staging buffer holds its array's block and the output's the value computed from the six blocks;
    no invariant; the full share; the debts unchanged, the recorded pairs `W`'s or at the kernel's own index. -/
def dats (V : Valuation τ sig (Elt F)) (O : CellTallies nD τ sig (HIx 1)) (W : Waits sig (HIx 1)) (_ : Fin 1) (c : Dev nD) :
    Dat τ (Elt F) (HIx 1) ℕ UU ℕ cfg1 c where
  A w := Vb V c (Pipeline.arrRef spec1 w)
  after w _ := match w with
    | 0 => stg V 0
    | 1 => stg V 1
    | 2 => stg V 2
    | 3 => stg V 3
    | 4 => stg V 4
    | 5 => stg V 5
    | 6 => k1_pay1 (stg V 0) (stg V 1) (stg V 2) (stg V 3) (stg V 4) (stg V 5)
    | ⟨_ + 7, h⟩ => absurd h (Nat.not_lt.2 (Nat.le_add_left _ _))
  Φ _ := iprop(emp)
  q _ := fullShare
  owed _ := O
  recorded _ := {p | p ∈ W ∨ p.2 = none}

/-- The offsets of every access of the body are zero. -/
theorem off00 : (![0, 0] : Fin 2 → ℕ) = fun _ => 0 := by funext a; fin_cases a <;> rfl

/-- A load of all of a staging buffer reads its contents. -/
theorem rd0 (c : Dev nD) (f : Bf (F := F) c (stage1_0 0)) : View.readAt (Elt F) (stage1_0 0).view
    (Rect.unit (s := S16x256) ![0, 0] S16x256.size Facts₀.inb_S16x256_S16x256_0_0).toLoadRect f = f :=
  Memref.readAt_unit_zero (Elt F) cc1_stg0_0 off00 _ f
theorem rd1 (c : Dev nD) (f : Bf (F := F) c (stage1_1 0)) : View.readAt (Elt F) (stage1_1 0).view
    (Rect.unit (s := S256x64) ![0, 0] S256x64.size Facts₀.inb_S256x64_S256x64_0_0).toLoadRect f = f :=
  Memref.readAt_unit_zero (Elt F) cc1_stg1_0 off00 _ f
theorem rd2 (c : Dev nD) (f : Bf (F := F) c (stage1_2 0)) : View.readAt (Elt F) (stage1_2 0).view
    (Rect.unit (s := S64x64) ![0, 0] S64x64.size Facts₀.inb_S64x64_S64x64_0_0).toLoadRect f = f :=
  Memref.readAt_unit_zero (Elt F) cc1_stg2_0 off00 _ f
theorem rd3 (c : Dev nD) (f : Bf (F := F) c (stage1_3 0)) : View.readAt (Elt F) (stage1_3 0).view
    (Rect.unit (s := S1x64) ![0, 0] S1x64.size Facts₀.inb_S1x64_S1x64_0_0).toLoadRect f = f :=
  Memref.readAt_unit_zero (Elt F) cc1_stg3_0 off00 _ f
theorem rd4 (c : Dev nD) (f : Bf (F := F) c (stage1_4 0)) : View.readAt (Elt F) (stage1_4 0).view
    (Rect.unit (s := S8x64) ![0, 0] S8x64.size Facts₀.inb_S8x64_S8x64_0_0).toLoadRect f = f :=
  Memref.readAt_unit_zero (Elt F) cc1_stg4_0 off00 _ f
theorem rd5 (c : Dev nD) (f : Bf (F := F) c (stage1_5 0)) : View.readAt (Elt F) (stage1_5 0).view
    (Rect.unit (s := S1x8) ![0, 0] S1x8.size Facts₀.inb_S1x8_S1x8_0_0).toLoadRect f = f :=
  Memref.readAt_unit_zero (Elt F) cc1_stg5_0 off00 _ f

/-- At the staging buffers the stored value is the payload of their contents. -/
theorem outOf_stage (c : Dev nD) (f0 : Bf (F := F) c (stage1_0 0)) (f1 : Bf (F := F) c (stage1_1 0)) (f2 : Bf (F := F) c (stage1_2 0))
    (f3 : Bf (F := F) c (stage1_3 0)) (f4 : Bf (F := F) c (stage1_4 0)) (f5 : Bf (F := F) c (stage1_5 0)) :
    outOf c (stage1_0 0) (stage1_1 0) (stage1_2 0) (stage1_3 0) (stage1_4 0) (stage1_5 0) f0 f1 f2 f3 f4 f5
      = k1_pay1 f0 f1 f2 f3 f4 f5 := by
  dsimp only [outOf]
  rw [rd0, rd1, rd2, rd3, rd4, rd5]

/-- One store over all of a whole buffer, at zero offsets, leaves the stored value. -/
theorem writes_whole_unit_zero {κ : Kind} (b : Ref sig κ) (f : b.ty.Contents (Elt F)) {off : Fin b.ty.shape.rank → ℕ} (h : off = fun _ => 0)
    (inb : ∀ a, off a + b.ty.shape.size a ≤ b.ty.shape.size a) (v : b.ty.shape.Idx → Elt F b.ty.elt) :
    (View.whole b).writes (Elt F) f [⟨Rect.unit off b.ty.shape.size inb, v⟩] = v := by
  have e := View.read_writes_eq_canon (Val := Elt F) (View.whole b) f [⟨Rect.unit off b.ty.shape.size inb, v⟩]
    (fun y => ⟨_, List.mem_singleton_self _, View.mem_set_unit_zero h inb y⟩)
  rw [View.canon_unit_zero h inb v, View.read_whole] at e
  exact e

/-- One store over all of the output's staging buffer leaves the stored value. -/
theorem wr6 (c : Dev nD) (f6 : Bf (F := F) c (stage1_6 0)) (v : FVec F S1x8 .f32) :
    (stage1_6 0).view.writes (Elt F) f6 [⟨Rect.unit (s := S1x8) ![0, 0] S1x8.size Facts₀.inb_S1x8_S1x8_0_0, v⟩] = v :=
  writes_whole_unit_zero cc1_stg6_0 f6 off00 _ v

/-- An input's staging buffer holds its array's block when the body runs. -/
theorem before_in0 (V : Valuation τ sig (Elt F)) (O : CellTallies nD τ sig (HIx 1)) (W : Waits sig (HIx 1)) (c : Dev nD) (d) :
    (dats V O W 0 c).before 0 t1_0 d = stg V 0 := by unfold Dat.before; rw [if_pos (fetch1_0 t1_0)]; rfl
theorem before_in1 (V : Valuation τ sig (Elt F)) (O : CellTallies nD τ sig (HIx 1)) (W : Waits sig (HIx 1)) (c : Dev nD) (d) :
    (dats V O W 0 c).before 1 t1_0 d = stg V 1 := by unfold Dat.before; rw [if_pos (fetch1_1 t1_0)]; rfl
theorem before_in2 (V : Valuation τ sig (Elt F)) (O : CellTallies nD τ sig (HIx 1)) (W : Waits sig (HIx 1)) (c : Dev nD) (d) :
    (dats V O W 0 c).before 2 t1_0 d = stg V 2 := by unfold Dat.before; rw [if_pos (fetch1_2 t1_0)]; rfl
theorem before_in3 (V : Valuation τ sig (Elt F)) (O : CellTallies nD τ sig (HIx 1)) (W : Waits sig (HIx 1)) (c : Dev nD) (d) :
    (dats V O W 0 c).before 3 t1_0 d = stg V 3 := by unfold Dat.before; rw [if_pos (fetch1_3 t1_0)]; rfl
theorem before_in4 (V : Valuation τ sig (Elt F)) (O : CellTallies nD τ sig (HIx 1)) (W : Waits sig (HIx 1)) (c : Dev nD) (d) :
    (dats V O W 0 c).before 4 t1_0 d = stg V 4 := by unfold Dat.before; rw [if_pos (fetch1_4 t1_0)]; rfl
theorem before_in5 (V : Valuation τ sig (Elt F)) (O : CellTallies nD τ sig (HIx 1)) (W : Waits sig (HIx 1)) (c : Dev nD) (d) :
    (dats V O W 0 c).before 5 t1_0 d = stg V 5 := by unfold Dat.before; rw [if_pos (fetch1_5 t1_0)]; rfl

theorem body_obligation (V : Valuation τ sig (Elt F)) (O : CellTallies nD τ sig (HIx 1)) (W : Waits sig (HIx 1)) (c : Dev nD) :
    BodyObligation (dats V O W 0 c) (defs₀ (F := F)) 𝒱₀ none Set.univ := fun t => by
  obtain rfl := fin_N1 t
  rw [bigSep_W1, bigSep_W1]
  simp only [owns_whole_eq]
  rw [show (dats V O W 0 c).Φ t1_0.castSucc = iprop(emp) from rfl, show (dats V O W 0 c).Φ t1_0.succ = iprop(emp) from rfl]
  unfold Dat.owesAt Pipeline.owesWithin
  iintro ⟨-, ⟨%W', %hW, HO⟩, ⟨%d0, %f0, %hf0, H0⟩, ⟨%d1, %f1, %hf1, H1⟩, ⟨%d2, %f2, %hf2, H2⟩, ⟨%d3, %f3, %hf3, H3⟩,
    ⟨%d4, %f4, %hf4, H4⟩, ⟨%d5, %f5, %hf5, H5⟩, ⟨%d6, %f6, %hf6, H6⟩⟩
  iapply (kernelRun c (stage1_0 0) (Facts₀.hstage1_0 0) (stage1_1 0) (Facts₀.hstage1_1 0) (stage1_2 0) (Facts₀.hstage1_2 0)
    (stage1_3 0) (Facts₀.hstage1_3 0) (stage1_4 0) (Facts₀.hstage1_4 0) (stage1_5 0) (Facts₀.hstage1_5 0) (stage1_6 0) (Facts₀.hstage1_6 0)
    f0 f1 f2 f3 f4 f5 f6)
  isplitl [H0]; · iexact H0
  isplitl [H1]; · iexact H1
  isplitl [H2]; · iexact H2
  isplitl [H3]; · iexact H3
  isplitl [H4]; · iexact H4
  isplitl [H5]; · iexact H5
  isplitl [H6]; · iexact H6
  iintro ⟨H0, H1, H2, H3, H4, H5, H6⟩
  rw [outOf_stage, wr6]
  rw [before_in0] at hf0; rw [before_in1] at hf1; rw [before_in2] at hf2
  rw [before_in3] at hf3; rw [before_in4] at hf4; rw [before_in5] at hf5
  subst hf0 hf1 hf2 hf3 hf4 hf5
  isplitr; · iempintro
  isplitl [HO]
  · iexists W'; isplitr; · ipureintro; exact hW
    iexact HO
  isplitl [H0]; · iexists _; isplitr; swap; (· iexact H0); ipureintro; rfl
  isplitl [H1]; · iexists _; isplitr; swap; (· iexact H1); ipureintro; rfl
  isplitl [H2]; · iexists _; isplitr; swap; (· iexact H2); ipureintro; rfl
  isplitl [H3]; · iexists _; isplitr; swap; (· iexact H3); ipureintro; rfl
  isplitl [H4]; · iexists _; isplitr; swap; (· iexact H4); ipureintro; rfl
  isplitl [H5]; · iexists _; isplitr; swap; (· iexact H5); ipureintro; rfl
  iexists _; isplitr; swap; (· iexact H6); ipureintro; rfl

end Cert.HistBits

end
-- ==== Proof.TcTailK.lean ====
/-
  The tail of the program on the TensorCore: two reshapes, the matrix-unit call, one reshape.

  The tail is run as three segments. The reshapes are host operations over the eleven arrays the thread holds whole. The
  call is a region of one grid point whose seven windows are whole arrays: six operands staged in, the body run on the
  staging buffers, the result written back. Entering it, the seven windowed arrays go to the pipeline at the contents
  the reshapes left and the other four bypass it; leaving it, the result array holds what the write-back wrote and
  everything else what it held. The thread's debts ride along unchanged: the staging cells wait at the kernel's own
  index, which sits below every debt, and the waits record pairs at that index only.
-/
import proofs.«201856_g16750372454438_cont_week2b_1124_27_alg».proof.Proof.TcBodyK

noncomputable section

namespace Cert.HistBits

open Cert.Kernel Cert.Kernel.Gen

open Idealize.ShloMosaic
open Idealize.ShloMosaic.TcCoe Idealize.ShloMosaic.Tactic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-! ## The tail of the program: two reshapes, the matrix-unit call, one reshape -/

abbrev op1 : HloOp τ sig (Elt F) := StableHlo.reshape main_arg3 main_v1 rfl Facts₀.shapeCasts_S64_S1x64
abbrev op2 : HloOp τ sig (Elt F) := StableHlo.reshape main_arg5 main_v2 rfl Facts₀.shapeCasts_S8_S1x8
abbrev op3 : HloOp τ sig (Elt F) := StableHlo.reshape main_v3 main_v4 rfl Facts₀.shapeCasts_S1x8_S8

/-- What the program runs after the histogram kernel, at the matrix-unit call's label signature. -/
def tailProg : Prog (TpuEff nD τ sig (Elt F) (ΛP (F := F)) .tc) PUnit := do
  hlo rfl (op1 : HloOp τ sig (Elt F)) (fun _ => .ret ⟨⟩)
  hlo rfl (op2 : HloOp τ sig (Elt F)) (fun _ => .ret ⟨⟩)
  Prog.lift (.customCall (Pipeline.entry 0) ())
  hlo rfl (op3 : HloOp τ sig (Elt F)) (fun _ => .ret ⟨⟩)
  pure ⟨⟩

theorem main_eq (d : Dev nD) :
    Cert.Kernel.main (F := F) d = (K (F := F)).run d 0 >>= fun _ => SparseCore.liftProg (tailProg (F := F)) := rfl

/-- The TensorCore's eleven arrays. -/
def S11 : Finset (DevRef τ sig) :=
  {Proc.devRef .tc main_arg0, Proc.devRef .tc main_arg1, Proc.devRef .tc main_arg2, Proc.devRef .tc main_arg3,
   Proc.devRef .tc main_arg4, Proc.devRef .tc main_arg5, Proc.devRef .tc main_v0, Proc.devRef .tc main_v1,
   Proc.devRef .tc main_v2, Proc.devRef .tc main_v3, Proc.devRef .tc main_v4}

/-- Array `b` of core `c` held whole at contents `f`. -/
abbrev ptb (c : Dev nD) (b : Ref sig .tc) (f : Buf (Elt F) ((c : Thread nD τ).loc b)) : sProp 𝕄 := ((c : Thread nD τ).loc b) ↦{fullShare} f

theorem held_S11 (c : Dev nD) (Wv : Valuation τ sig (Elt F)) : (StableHlo.held (c : Thread nD τ) S11 Wv : sProp 𝕄)
    = iprop(ptb c main_arg0 (Wv (Proc.devRef .tc main_arg0)) ∗ ptb c main_arg1 (Wv (Proc.devRef .tc main_arg1)) ∗ ptb c main_arg2 (Wv (Proc.devRef .tc main_arg2))
      ∗ ptb c main_arg3 (Wv (Proc.devRef .tc main_arg3)) ∗ ptb c main_arg4 (Wv (Proc.devRef .tc main_arg4)) ∗ ptb c main_arg5 (Wv (Proc.devRef .tc main_arg5))
      ∗ ptb c main_v0 (Wv (Proc.devRef .tc main_v0)) ∗ ptb c main_v1 (Wv (Proc.devRef .tc main_v1)) ∗ ptb c main_v2 (Wv (Proc.devRef .tc main_v2))
      ∗ ptb c main_v3 (Wv (Proc.devRef .tc main_v3)) ∗ ptb c main_v4 (Wv (Proc.devRef .tc main_v4))) := by
  unfold StableHlo.held S11
  rw [bigSep_eq_bigSepL_of_eq [Proc.devRef .tc main_arg0, Proc.devRef .tc main_arg1, Proc.devRef .tc main_arg2, Proc.devRef .tc main_arg3,
   Proc.devRef .tc main_arg4, Proc.devRef .tc main_arg5, Proc.devRef .tc main_v0, Proc.devRef .tc main_v1,
   Proc.devRef .tc main_v2, Proc.devRef .tc main_v3, Proc.devRef .tc main_v4] (by decide) (by decide)]
  rfl

/-! ## The thread states and the segments -/

abbrev Lh : GSem nD τ sig → Finset (HIx 1) := (K (F := F)).L
abbrev lvh : GSem nD τ sig → HIx 1 → ℕ := (K (F := F)).lev
/-- No pipeline has a prefetched table. -/
abbrev adm : (p : Fin 1) → (pcfgs (F := F) p).Adm := fun p => (cfgs p).toPCfg_adm

/-- What rides beside the arrays: the thread's debts, its recorded pairs those of `W` or at the kernel's own index. -/
abbrev Rr (O : CellTallies nD τ sig (HIx 1)) (W : Waits sig (HIx 1)) (c : Dev nD) : sProp 𝕄 :=
  iprop(∃ W', ⌜∀ p ∈ W', p ∈ W ∨ p.2 = none⌝ ∗ owes (c : Thread nD τ) O W')

/-- The arrays when the call is entered: the two reshapes have run. -/
abbrev V1 (Vl : Valuation τ sig (Elt F)) : Valuation τ sig (Elt F) := StableHlo.after [op1, op2] Vl

/-- What the call's write-back leaves in the result array, from the arrays at its entry. -/
def out3 (V : Valuation τ sig (Elt F)) : (Proc.devRef (τ := τ) .tc main_v3).ty.Contents (Elt F) :=
  ((cfg1.win 6).blk t1_0).view.write (Elt F) (V (Proc.devRef .tc main_v3))
    (k1_pay1 (stg V 0) (stg V 1) (stg V 2) (stg V 3) (stg V 4) (stg V 5)) Finset.univ

/-- The arrays after the call. -/
abbrev V3 (Vl : Valuation τ sig (Elt F)) : Valuation τ sig (Elt F) :=
  Function.update (V1 Vl) (Proc.devRef .tc main_v3) (out3 (V1 Vl))

/-- The arrays after the tail. -/
def tailVal (Vl : Valuation τ sig (Elt F)) : Valuation τ sig (Elt F) := StableHlo.after [op3] (V3 Vl)

theorem ops12_sub : ∀ op ∈ [(op1 : HloOp τ sig (Elt F)), op2], op.bufs ⊆ S11 := fun op h => by
  simp only [List.mem_cons, List.mem_nil_iff, or_false] at h
  rcases h with rfl | rfl
  · show ({Proc.devRef .tc main_arg3, Proc.devRef .tc main_v1} : Finset (DevRef τ sig)) ⊆ S11; decide
  · show ({Proc.devRef .tc main_arg5, Proc.devRef .tc main_v2} : Finset (DevRef τ sig)) ⊆ S11; decide
theorem ops3_sub : ∀ op ∈ [(op3 : HloOp τ sig (Elt F))], op.bufs ⊆ S11 := fun op h => by
  simp only [List.mem_singleton] at h; subst h
  show ({Proc.devRef .tc main_v3, Proc.devRef .tc main_v4} : Finset (DevRef τ sig)) ⊆ S11; decide
theorem ops12_fresh : ∀ op ∈ [(op1 : HloOp τ sig (Elt F)), op2], op.fresh = ∅ := fun op h => by
  simp only [List.mem_cons, List.mem_nil_iff, or_false] at h
  rcases h with rfl | rfl <;> rfl
theorem ops3_fresh : ∀ op ∈ [(op3 : HloOp τ sig (Elt F))], op.fresh = ∅ := fun op h => by
  simp only [List.mem_singleton] at h; subst h; rfl

local notation "ℍ" => Pipeline.HostSeg (Name := ℕ) (U := UU) (pcfgs (F := F)) defs₀ 𝒱₀ (Lh (F := F)) (lvh (F := F))

/-- The two reshapes before the call. -/
def seg0 (Vl : Valuation τ sig (Elt F)) (O : CellTallies nD τ sig (HIx 1)) (W : Waits sig (HIx 1)) : ℍ :=
  Pipeline.HostSeg.ofOps _ _ _ _ _ S11 [op1, op2] ops12_sub ops12_fresh (fun _ => Vl) (Rr O W)

/-- The reshape after it. -/
def seg2 (Vl : Valuation τ sig (Elt F)) (O : CellTallies nD τ sig (HIx 1)) (W : Waits sig (HIx 1)) : ℍ :=
  Pipeline.HostSeg.ofOps _ _ _ _ _ S11 [op3] ops3_sub ops3_fresh (fun _ => V3 Vl) (Rr O W)

/-- The arrays the call does not stage. -/
abbrev Zr (Vl : Valuation τ sig (Elt F)) (c : Dev nD) : sProp 𝕄 :=
  iprop(ptb c main_arg0 (V1 Vl (Proc.devRef .tc main_arg0)) ∗ ptb c main_arg3 (V1 Vl (Proc.devRef .tc main_arg3))
    ∗ ptb c main_arg5 (V1 Vl (Proc.devRef .tc main_arg5)) ∗ ptb c main_v4 (V1 Vl (Proc.devRef .tc main_v4)))

theorem V3_ne (Vl : Valuation τ sig (Elt F)) (b : Ref sig .tc) (h : Proc.devRef (τ := τ) .tc b ≠ Proc.devRef .tc main_v3) :
    V3 Vl (Proc.devRef .tc b) = V1 Vl (Proc.devRef .tc b) := Function.update_of_ne h _ _
theorem V3_v3 (Vl : Valuation τ sig (Elt F)) : V3 Vl (Proc.devRef .tc main_v3) = out3 (V1 Vl) := Function.update_self ..

/-- The write-back at the one point leaves the result array at `out3`. -/
theorem arrAt6 (V : Valuation τ sig (Elt F)) (O : CellTallies nD τ sig (HIx 1)) (W : Waits sig (HIx 1)) (c : Dev nD) :
    (dats V O W 0 c).arrAt 6 cfg1.N = out3 V := by
  show (dats V O W 0 c).arrAt 6 (0 + 1) = out3 V
  unfold Dat.arrAt
  simp only [Dat.arrAt]
  rw [dif_pos (by decide : 0 < cfg1.N), if_pos (flush1_6 _)]
  rfl

set_option maxHeartbeats 1600000 in
/-- The matrix-unit call as a region of the tail: the generated layout, no semaphore of its own, the body obligation, the
    wait evidence from the level facts (the staging cells wait at the kernel's own index, below every debt); entered from
    the eleven arrays after the two reshapes — seven staged, four bypassing — and left with the result array rewritten. -/
def reg (Vl : Valuation τ sig (Elt F)) (O : CellTallies nD τ sig (HIx 1)) (W : Waits sig (HIx 1)) (hO : ∀ g, O g none = 0) :
    Pipeline.RegionSeg (pcfgs (F := F)) adm (dats (V1 Vl) O W) none defs₀ 𝒱₀ (Lh (F := F)) (lvh (F := F)) 0 where
  win := launch1.win.to₀
  block_pos := launch1.block_pos
  stage_whole := launch1.stage_whole
  K := PEmpty
  osem k := k.elim
  ho := Pipeline.OwnSemFacts.none _
  hbody c := (body_obligation (V1 Vl) O W c).loose
  hwaits c := Pipeline.cellsWaits_intro _ _ _ 0 c fun w s t => (K (F := F)).mayWait_none _ hO
  pre c := iprop(StableHlo.held (c : Thread nD τ) S11 (V1 Vl) ∗ Rr O W c)
  post c := iprop(StableHlo.held (c : Thread nD τ) S11 (V3 Vl) ∗ Rr O W c)
  X _ := iprop(emp)
  Y _ := iprop(emp)
  Z c := Zr Vl c
  hentry c := by
    rw [held_S11, Pipeline.ownSems0_none,
      Pipeline.arrays_eq _ (dats (V1 Vl) O W) 0 c launch1.arr_whole ((dats (V1 Vl) O W 0 c).share_full fun _ => rfl), bigSep_W1]
    iintro ⟨⟨⟨Ha0, Ha1, Ha2, Ha3, Ha4, Ha5, Hv0, Hv1, Hv2, Hv3, Hv4⟩, HO⟩, -, -⟩
    imodintro
    isplitl [Ha1 Ha2 Ha4 Hv0 Hv1 Hv2 Hv3]
    · isplitl [Hv0]; · iexact Hv0
      isplitl [Ha1]; · iexact Ha1
      isplitl [Ha2]; · iexact Ha2
      isplitl [Hv1]; · iexact Hv1
      isplitl [Ha4]; · iexact Ha4
      isplitl [Hv2]; · iexact Hv2
      iexact Hv3
    isplitr
    · unfold Pipeline.prefHeld; rw [show (Finset.univ : Finset (Fin 0)) = ∅ from rfl, BI.bigSep_empty]; iempintro
    isplitl [HO]
    · unfold Pipeline.Dat.owesAt Pipeline.owesWithin
      icases HO with ⟨%W', %hW', HO⟩
      iexists W'; isplitr; · ipureintro; exact fun p hp => Or.inl (hW' p hp)
      iexact HO
    isplitr; · iempintro
    isplitl [Ha0]; · iexact Ha0
    isplitl [Ha3]; · iexact Ha3
    isplitl [Ha5]; · iexact Ha5
    iexact Hv4
  hin c := by
    iintro -; iempintro
  hout c := by
    rw [Pipeline.ownSems0_none, scopedRest1_eq]
    iintro -
    isplitr; · iempintro
    isplitr <;> iempintro
  hexit c := by
    rw [held_S11, Pipeline.arrays_eq _ (dats (V1 Vl) O W) 0 c launch1.arr_whole ((dats (V1 Vl) O W 0 c).share_full fun _ => rfl), bigSep_W1,
      (dats (V1 Vl) O W 0 c).arrAt_in 0 rfl, (dats (V1 Vl) O W 0 c).arrAt_in 1 rfl, (dats (V1 Vl) O W 0 c).arrAt_in 2 rfl,
      (dats (V1 Vl) O W 0 c).arrAt_in 3 rfl, (dats (V1 Vl) O W 0 c).arrAt_in 4 rfl, (dats (V1 Vl) O W 0 c).arrAt_in 5 rfl,
      arrAt6,
      V3_ne Vl main_arg0 (by decide), V3_ne Vl main_arg1 (by decide), V3_ne Vl main_arg2 (by decide), V3_ne Vl main_arg3 (by decide),
      V3_ne Vl main_arg4 (by decide), V3_ne Vl main_arg5 (by decide), V3_ne Vl main_v0 (by decide), V3_ne Vl main_v1 (by decide),
      V3_ne Vl main_v2 (by decide), V3_v3, V3_ne Vl main_v4 (by decide)]
    iintro ⟨⟨Hv0, Ha1, Ha2, Hv1, Ha4, Hv2, Hv3⟩, HO, -, ⟨Ha0, Ha3, Ha5, Hv4⟩⟩
    imodintro
    isplitr [HO]
    · isplitl [Ha0]; · iexact Ha0
      isplitl [Ha1]; · iexact Ha1
      isplitl [Ha2]; · iexact Ha2
      isplitl [Ha3]; · iexact Ha3
      isplitl [Ha4]; · iexact Ha4
      isplitl [Ha5]; · iexact Ha5
      isplitl [Hv0]; · iexact Hv0
      isplitl [Hv1]; · iexact Hv1
      isplitl [Hv2]; · iexact Hv2
      isplitl [Hv3]; · iexact Hv3
      iexact Hv4
    · unfold Pipeline.Dat.owesAt Pipeline.owesWithin
      icases HO with ⟨%W', %hW', HO⟩
      iexists W'; isplitr
      · ipureintro
        intro p hp
        rcases hW' hp with h | ⟨w, s, rfl⟩
        · exact h
        · exact Or.inr rfl
      iexact HO

/-- The tail as the list of its three segments. -/
abbrev segs (Vl : Valuation τ sig (Elt F)) (O : CellTallies nD τ sig (HIx 1)) (W : Waits sig (HIx 1)) (hO : ∀ g, O g none = 0) :
    List (Pipeline.Seg (pcfgs (F := F)) adm (dats (V1 Vl) O W) none defs₀ 𝒱₀ (Lh (F := F)) (lvh (F := F))) :=
  [.host (seg0 Vl O W), .region (reg Vl O W hO), .host (seg2 Vl O W)]

theorem tail_eq (Vl : Valuation τ sig (Elt F)) (O : CellTallies nD τ sig (HIx 1)) (W : Waits sig (HIx 1)) (hO : ∀ g, O g none = 0) :
    tailProg (F := F) = Pipeline.Seg.run (segs Vl O W hO) := by
  simp only [tailProg, segs, Pipeline.Seg.run, seg0, seg2, Pipeline.HostSeg.ofOps, StableHlo.seq, Prog.lift, Prog.bind_op, Prog.bind_ret,
    bind_pure_comp]
  rfl

/-- The tail, run: from the region boundary, the eleven arrays at `Vl`, the thread's debts, the level facts and the call's
    launch ghost state, the tail runs to the boundary, the arrays at `tailVal Vl`, and the debts unchanged with only
    pairs at the kernel's own index recorded beside `W`'s. -/
theorem tail_wp (d : Dev nD) (Vl : Valuation τ sig (Elt F)) (O : CellTallies nD τ sig (HIx 1)) (W : Waits sig (HIx 1))
    (hO : ∀ g, O g none = 0) :
    iprop(boundary (T d) ∗ StableHlo.held (T d) S11 Vl ∗ owes (T d) O W ∗ levAts (Lh (F := F)) (lvh (F := F))
        ∗ Pipeline.cellsGhost (Pipeline.pin (pcfgs (F := F)) adm) EP 0 d ∗ Pipeline.toksInit (Pipeline.pin (pcfgs (F := F)) adm) EP 0 d)
      ⊢ wp frame (wpE (D (F := F)) 𝒱 (T d) none) Set.univ (tailProg (F := F)) fun _ =>
          (iprop(boundary (T d) ∗ StableHlo.held (T d) S11 (tailVal Vl) ∗ ∃ W', ⌜∀ p ∈ W', p ∈ W ∨ p.2 = none⌝ ∗ owes (T d) O W') : sProp 𝕄) := by
  rw [tail_eq Vl O W hO]
  have h := Pipeline.wp_segs (pcfgs (F := F)) adm (dats (V1 Vl) O W) none cellOf_inj EP defs₀ 𝒱₀ (Lh (F := F)) (lvh (F := F)) d
    (Q := fun _ => (iprop(boundary (T d) ∗ StableHlo.held (T d) S11 (tailVal Vl) ∗ ∃ W', ⌜∀ p ∈ W', p ∈ W ∨ p.2 = none⌝ ∗ owes (T d) O W') : sProp 𝕄))
    (segs Vl O W hO) {0}
    (fun c => iprop(StableHlo.held (c : Thread nD τ) S11 Vl ∗ Rr O W c))
    (fun c => iprop(StableHlo.held (c : Thread nD τ) S11 (tailVal Vl) ∗ Rr O W c))
    (by simp only [segs, Pipeline.Seg.pipes_host, Pipeline.Seg.pipes_region, Pipeline.Seg.pipes_nil]; decide)
    (by simp only [segs, Pipeline.Seg.pipes_host, Pipeline.Seg.pipes_region, Pipeline.Seg.pipes_nil]; decide)
    ⟨fun _ => .rfl, fun _ => .rfl, fun _ => .rfl, fun _ => .rfl⟩
  refine BIBase.Entails.trans ?_ h
  iintro ⟨Hbd, Hh, HO, Hla, Hcg, Hti⟩
  isplitr [Hbd Hh HO Hla Hcg Hti]
  · iintro ⟨Hbd, Hh, HR⟩
    isplitl [Hbd]; · iexact Hbd
    isplitl [Hh]; · iexact Hh
    iexact HR
  isplitl [Hbd]; · iexact Hbd
  isplitl [Hh HO]
  · isplitl [Hh]; · iexact Hh
    iexists W; isplitr; · ipureintro; exact fun p hp => Or.inl hp
    iexact HO
  isplitl [Hla]; · iexact Hla
  unfold Pipeline.ghostOn Pipeline.PerCore.ghostOn
  rw [BI.bigSep_singleton]
  isplitl [Hcg] <;> iassumption

end Cert.HistBits

end
-- ==== Proof.LaunchElemK.lean ====
/-
  The launch element of the ghost state: the launch's handshakes take the left component; the middle one funds, per
  device, the launch state of the matrix-unit call's seven staging cells and the tokens of its seven transfers; the
  local copies' counters start at the unit. The histogram kernel keeps no ghost state of its own.
-/
import proofs.«201856_g16750372454438_cont_week2b_1124_27_alg».proof.Proof.LaunchK
import proofs.«201856_g16750372454438_cont_week2b_1124_27_alg».proof.Proof.TcTailK

noncomputable section

namespace Cert.HistBits

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "idsW" => (Memref.whole Cert.Kernel.main_arg0_scv : Memref Cert.Kernel.sig Kind.scVector Space.hbm Cert.Kernel.S8192 EltTy.i32)
local notation "outW" => (Memref.whole Cert.Kernel.main_v0_scv : Memref Cert.Kernel.sig Kind.scVector Space.hbm Cert.Kernel.S16x256 EltTy.f32)
local notation "sIds" => (Memref.whole Cert.Kernel.cc0_scratch0 : Memref Cert.Kernel.sig Kind.scVector Space.vmem Cert.Kernel.S512 EltTy.i32)
local notation "sCnt" => (Memref.whole Cert.Kernel.cc0_scratch1 : Memref Cert.Kernel.sig Kind.scVector Space.vmem Cert.Kernel.S256 EltTy.f32)

variable (m : (ℓ : Loc nD τ sig) → Buf (Elt F) ℓ)
variable [FloatOps F]

def u₀ : UU :=
  (initOf (K (F := F)).hsCells (K (F := F)).hsToks, (initOf (Pipeline.cells (Pipeline.pin (pcfgs (F := F)) adm) cellOf_inj) (Pipeline.launchToks (Pipeline.pin (pcfgs (F := F)) adm) cellOf_inj), 1))

/-- What @main's proof starts from on device `d`, beside what the launch deals it: the staging cells' launch state. -/
abbrev G (d : Dev nD) : sProp 𝕄 := iprop(Pipeline.cellsGhost (Pipeline.pin (pcfgs (F := F)) adm) EP 0 d ∗ Pipeline.toksInit (Pipeline.pin (pcfgs (F := F)) adm) EP 0 d)

omit [FloatOps F] in
theorem bigSep_emp' {I : Type} (s : Finset I) : (bigSep s fun _ => iprop(emp)) = (iprop(emp) : sProp 𝕄) := bigSep_emp_const s

omit [FloatOps F] in
theorem own_EP (b : UP) : (BI.own ((embR : Emb (UP × Counters) 𝕄) (b, 1)) : sProp 𝕄) = BI.own (EP (F := F) b) := rfl

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m).x q thr) := by
  have e1 : (bigSep Finset.univ fun c : Dev nD => bigSep Finset.univ fun p : Fin 1 => (Pipeline.cellsGhost (Pipeline.pin (pcfgs (F := F)) adm) EP p c : sProp 𝕄))
      = bigSep Finset.univ fun c : Dev nD => (Pipeline.cellsGhost (Pipeline.pin (pcfgs (F := F)) adm) EP 0 c : sProp 𝕄) :=
    bigSep_congr fun c _ => bigSep_univ_of_subsingleton (0 : Fin 1)
  have e2 : (bigSep Finset.univ fun c : Dev nD => bigSep Finset.univ fun p : Fin 1 => (Pipeline.toksInit (Pipeline.pin (pcfgs (F := F)) adm) EP p c : sProp 𝕄))
      = bigSep Finset.univ fun c : Dev nD => (Pipeline.toksInit (Pipeline.pin (pcfgs (F := F)) adm) EP 0 c : sProp 𝕄) :=
    bigSep_congr fun c _ => bigSep_univ_of_subsingleton (0 : Fin 1)
  unfold u₀
  iintro Hu
  ihave H := (ownU_pair _ _) $$ Hu
  icases H with ⟨HH, HP⟩
  ihave HP2 := (Entails.of_eq (own_EP (F := F) _)) $$ HP
  imod (Pipeline.fund_ghost (Pipeline.pin (pcfgs (F := F)) adm) (EP (F := F)) cellOf_inj) $$ HP2 with ⟨Hg, Ht⟩
  imodintro
  isplitl [HH]; · iexact HH
  isplitl [Hg Ht]
  · unfold G; rw [bigSep_sep', ← e1, ← e2]
    isplitl [Hg]; · iexact Hg
    iexact Ht
  · unfold P; dsimp only
    rw [show (bigSep Finset.univ fun _ : Thread nD τ => bigSep Finset.univ fun _ : Fin 1 => (iprop(emp) : sProp 𝕄)) = iprop(emp) from by
      rw [bigSep_congr fun _ _ => bigSep_emp' _, bigSep_emp']]
    iempintro

end Cert.HistBits

end
-- ==== Proof.HeldReadK.lean ====
/-
  Arrays held whole read the final memory: if a thread holds a set of its device's arrays, each whole, at contents `V`,
  then the memory the logic speaks of holds `V` at every one of them.
-/
import proofs.«201856_g16750372454438_cont_week2b_1124_27_alg».proof.Proof.CommonK

noncomputable section

namespace Cert.HistBits

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "idsW" => (Memref.whole Cert.Kernel.main_arg0_scv : Memref Cert.Kernel.sig Kind.scVector Space.hbm Cert.Kernel.S8192 EltTy.i32)
local notation "outW" => (Memref.whole Cert.Kernel.main_v0_scv : Memref Cert.Kernel.sig Kind.scVector Space.hbm Cert.Kernel.S16x256 EltTy.f32)
local notation "sIds" => (Memref.whole Cert.Kernel.cc0_scratch0 : Memref Cert.Kernel.sig Kind.scVector Space.vmem Cert.Kernel.S512 EltTy.i32)
local notation "sCnt" => (Memref.whole Cert.Kernel.cc0_scratch1 : Memref Cert.Kernel.sig Kind.scVector Space.vmem Cert.Kernel.S256 EltTy.f32)

open Idealize.ShloMosaic.StableHlo (held)

theorem held_read (thr : Thread nD τ) (V : Valuation τ sig (Elt F)) (s' : Phys nD τ sig (Elt F)) (S : Finset (DevRef τ sig)) :
    iprop(held thr S V ∗ SI s') ⊢ (⌜∀ b ∈ S, s'.mem.mem (thr.1, b) = V b⌝ : sProp 𝕄) := by
  classical
  induction S using Finset.induction_on with
  | empty =>
    iintro -; ipureintro; intro b hb; exact absurd hb (Finset.notMem_empty _)
  | insert a S ha ih =>
    unfold held at ih ⊢
    rw [SparseCore.bigSep_insert' ha]
    iintro ⟨⟨Ha, HS⟩, HSI⟩
    ihave H := (persistent_entails_right (SI_pointsTo_agree (st := s') (ℓ := ((thr.1, a) : Loc nD τ sig)) (I := Finset.univ) (q := fullShare) (f := V a))) $$ [HSI Ha]
    · isplitl [HSI] <;> iassumption
    icases H with ⟨%h1, HSI, -⟩
    ihave H2 := ih $$ [HS HSI]
    · isplitl [HS] <;> iassumption
    icases H2 with %h2
    ipureintro; intro b hb
    rcases Finset.mem_insert.mp hb with rfl | hb
    · exact funext fun i => h1 i (Finset.mem_univ i)
    · exact h2 b hb

end Cert.HistBits

end
-- ==== Proof.MainK.lean ====
/-
  The whole program's run. On each device the TensorCore starts the histogram call and waits for it — the index list
  and the result array go to the SparseCore's sixteen workers and come back, the array at the workers' counts — and then
  runs the tail of @main: two reshapes, the matrix-unit call, one more reshape. Every weakly fair execution of the
  thirty-five threads terminates without a fault, with the eleven arrays at the tail's values of the launch contents
  and the counts: in particular the six argument arrays as they were.
-/
import proofs.«201856_g16750372454438_cont_week2b_1124_27_alg».proof.Proof.LaunchElemK
import proofs.«201856_g16750372454438_cont_week2b_1124_27_alg».proof.Proof.HeldReadK
import proofs.«201856_g16750372454438_cont_week2b_1124_27_alg».proof.Proof.TcTailK

noncomputable section

namespace Cert.HistBits

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "idsW" => (Memref.whole Cert.Kernel.main_arg0_scv : Memref Cert.Kernel.sig Kind.scVector Space.hbm Cert.Kernel.S8192 EltTy.i32)
local notation "outW" => (Memref.whole Cert.Kernel.main_v0_scv : Memref Cert.Kernel.sig Kind.scVector Space.hbm Cert.Kernel.S16x256 EltTy.f32)
local notation "sIds" => (Memref.whole Cert.Kernel.cc0_scratch0 : Memref Cert.Kernel.sig Kind.scVector Space.vmem Cert.Kernel.S512 EltTy.i32)
local notation "sCnt" => (Memref.whole Cert.Kernel.cc0_scratch1 : Memref Cert.Kernel.sig Kind.scVector Space.vmem Cert.Kernel.S256 EltTy.f32)

open Idealize.ShloMosaic.StableHlo (held)

variable (m : (ℓ : Loc nD τ sig) → Buf (Elt F) ℓ) (ρ : Dev nD → PrngReg)
variable [FloatOps F]

theorem st0_eq (d : Dev nD) : (bigSep Finset.univ fun c : Fin ((K (F := F)).nCore 0) => (P m).st 0 d c) = iprop(idsPts m d ∗ outPts d (m (outLoc d))) :=
  bigSep_univ_of_subsingleton (0 : Fin 1)
theorem dn0_eq (d : Dev nD) : (bigSep Finset.univ fun c : Fin ((K (F := F)).nCore 0) => (P m).dn 0 d c)
    = iprop(idsPts m d ∗ ∃ f, ⌜∀ i, RowOK (F := F) m d i f⌝ ∗ outPts d f) :=
  bigSep_univ_of_subsingleton (0 : Fin 1)

/-- The launch valuation; after the call, the result array at what the workers left. -/
def V0 (d : Dev nD) : Valuation τ sig (Elt F) := fun b => m (d, b)
abbrev out' : DevRef τ sig := Proc.devRef .tc (main_v0 : Ref sig .tc)
def Vcall (d : Dev nD) (f : Buf (Elt F) (outLoc d)) : Valuation τ sig (Elt F) := Function.update (V0 m d) out' f

theorem Vcall_out (d : Dev nD) (f : Buf (Elt F) (outLoc d)) : Vcall m d f out' = f := Function.update_self _ _ _
theorem Vcall_ne (d : Dev nD) (f : Buf (Elt F) (outLoc d)) {b : DevRef τ sig} (h : b ≠ out') : Vcall m d f b = m (d, b) := Function.update_of_ne h _ _

omit [FloatOps F] in
/-- The TensorCore's unscoped arrays are the eleven. -/
theorem unscoped_held (d : Dev nD) : (unscopedBufs d (fun b => m ((SparseCore.T d).loc b)) : sProp 𝕄) = held (SparseCore.T d) S11 (V0 m d) := by
  unfold unscopedBufs held S11
  rw [show (Finset.univ.filter fun b : Ref sig .tc => ¬ b.isScoped)
      = ({main_arg0, main_arg1, main_arg2, main_arg3, main_arg4, main_arg5, main_v0, main_v1, main_v2, main_v3, main_v4} : Finset (Ref sig .tc)) by decide]
  rw [bigSep_eq_bigSepL_of_eq [main_arg0, main_arg1, main_arg2, main_arg3, main_arg4, main_arg5, main_v0, main_v1, main_v2, main_v3, main_v4] (by decide) (by decide),
    bigSep_eq_bigSepL_of_eq [Proc.devRef .tc main_arg0, Proc.devRef .tc main_arg1, Proc.devRef .tc main_arg2, Proc.devRef .tc main_arg3,
      Proc.devRef .tc main_arg4, Proc.devRef .tc main_arg5, Proc.devRef .tc main_v0, Proc.devRef .tc main_v1,
      Proc.devRef .tc main_v2, Proc.devRef .tc main_v3, Proc.devRef .tc main_v4] (by decide) (by decide)]
  rfl

/-- What @main leaves the claim on device `d`: the eleven arrays at the tail's values, from counts every worker's row of
    which is what that worker computes. -/
def FIN (d : Dev nD) : sProp 𝕄 := iprop(∃ f, ⌜∀ i, RowOK (F := F) m d i f⌝ ∗ held (SparseCore.T d) S11 (tailVal (Vcall m d f)))

/-- The TensorCore's debts after the one call, opened: its recorded pairs lie at or below the call's levels. -/
theorem tcSt_open (d : Dev nD) :
    ((K (F := F)).tcSt EH d 1 : sProp 𝕄) ⊢ iprop(∃ W, ⌜(K (F := F)).WBelow (SparseCore.T d) W (8 * 1)⌝ ∗ owes (SparseCore.T d) ((K (F := F)).Otc d 1) W
      ∗ (∀ W', ⌜(K (F := F)).WBelow (SparseCore.T d) W' (8 * 1)⌝ -∗ owes (SparseCore.T d) ((K (F := F)).Otc d 1) W' -∗ (K (F := F)).tcSt EH d 1)) := by
  unfold SparseCore.Cfg.tcSt
  iintro ⟨⟨%W, %hW, HO⟩, Hrest⟩
  iexists W; isplitr
  · ipureintro; exact hW
  isplitl [HO]; · iexact HO
  iintro %W' %hW' HO'
  isplitl [HO']
  · iexists W'; isplitr
    · ipureintro; exact hW'
    · iexact HO'
  · iexact Hrest

/-- @main on device `d`'s TensorCore. -/
theorem hmain (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d) := by
  have hO : ∀ g, (K (F := F)).Otc d 1 g none = 0 := fun g => by rw [(K (F := F)).Otc_end d (le_refl 1)]; rfl
  unfold SparseCore.Cfg.tcRes
  rw [unscoped_held, main_eq, wp_bind]
  iintro ⟨#Hctx, Hst, ⟨Hb, Hheld, -, -⟩, ⟨Hg, Ht⟩⟩
  ihave Hlev := (SparseCore.Cfg.ctx_levAts κ) $$ Hctx
  ihave Hh := (Entails.of_eq (held_S11 (F := F) d _)) $$ Hheld
  icases Hh with ⟨H0, H1, H2, H3, H4, H5, Hv0, Hv1, Hv2, Hv3, Hv4⟩
  iapply ((K (F := F)).wp_run (D (F := F)) 𝒱 (EH := EH) (P := P m) κ d 0) $$ [Hst H0 Hv0 Hb H1 H2 H3 H4 H5 Hv1 Hv2 Hv3 Hv4 Hg Ht]
  isplitr; · iexact Hctx
  isplitl [Hst]; · iexact Hst
  isplitl [H0 Hv0]
  · rw [st0_eq]
    isplitl [H0]; · iexact H0
    iexact Hv0
  iintro ⟨Hst, Hdn⟩
  ihave Hdn' := (Entails.of_eq (dn0_eq m d)) $$ Hdn
  icases Hdn' with ⟨H0, %f, %hf, Hv0⟩
  ihave Hst1 := (Entails.of_eq (show ((K (F := F)).tcSt EH d ((0 : Fin 1).val + 1) : sProp 𝕄) = (K (F := F)).tcSt EH d 1 from rfl)) $$ Hst
  ihave Hst' := (tcSt_open (F := F) d) $$ Hst1
  icases Hst' with ⟨%W, %hW, HO, Hclose⟩
  -- the tail, at the pipeline's signature
  iapply ((K (F := F)).wp_liftProg (D (F := F)) 𝒱 (SparseCore.T d) Set.univ none (tailProg (F := F)) _)
  iapply (wp_wand_r frame _ Set.univ)
  isplitl [Hb H0 H1 H2 H3 H4 H5 Hv0 Hv1 Hv2 Hv3 Hv4 HO Hg Ht]
  · iapply (tail_wp (F := F) d (Vcall m d f) ((K (F := F)).Otc d 1) W hO)
    isplitl [Hb]; · iexact Hb
    isplitl [H0 H1 H2 H3 H4 H5 Hv0 Hv1 Hv2 Hv3 Hv4]
    · rw [held_S11]
      isplitl [H0]; · iexact H0
      isplitl [H1]; · iexact H1
      isplitl [H2]; · iexact H2
      isplitl [H3]; · iexact H3
      isplitl [H4]; · iexact H4
      isplitl [H5]; · iexact H5
      isplitl [Hv0]; · iexact Hv0
      isplitl [Hv1]; · iexact Hv1
      isplitl [Hv2]; · iexact Hv2
      isplitl [Hv3]; · iexact Hv3
      iexact Hv4
    isplitl [HO]; · iexact HO
    isplitr; · iexact Hlev
    isplitl [Hg]; · iexact Hg
    iexact Ht
  · iintro %_ ⟨-, Hheld, %W', %hW', HO⟩
    isplitl [HO Hclose]
    · ispecialize Hclose $$ %W'
      iapply Hclose
      · ipureintro
        intro p hp
        rcases hW' p hp with h | h
        · exact hW p h
        · rw [show p = (p.1, p.2) from rfl, h]; exact Nat.zero_le _
      · iexact HO
    · unfold FIN
      iexists f; isplitr
      · ipureintro; exact hf
      · iexact Hheld

/-! ## The final memory and the run -/

/-- What the claim reads off the final memory on device `d`. -/
def fq (d : Dev nD) (s' : Phys nD τ sig (Elt F)) : Prop :=
  ∃ f, (∀ i, RowOK (F := F) m d i f) ∧ ∀ b ∈ S11, s'.mem.mem (d, b) = tailVal (Vcall m d f) b

theorem hfin (d : Dev nD) (s' : Phys nD τ sig (Elt F)) : iprop(FIN m d ∗ SI s') ⊢ (⌜fq m d s'⌝ : sProp 𝕄) := by
  unfold FIN
  iintro ⟨⟨%f, %hf, Hheld⟩, HSI⟩
  ihave H := (held_read (F := F) (SparseCore.T d) (tailVal (Vcall m d f)) s' S11) $$ [Hheld HSI]
  · isplitl [Hheld] <;> iassumption
  icases H with %h
  ipureintro; exact ⟨f, hf, h⟩

def QC : PUnit × MemSt nD τ sig (Elt F) → Prop := fun r => ∀ c : Dev nD,
  ∃ f, (∀ i, RowOK (F := F) m c i f) ∧ ∀ b ∈ S11, r.2.mem (c, b) = tailVal (Vcall m c f) b

theorem run_main [∀ e, Nonempty (Elt F e)] (hpre : PreOK m) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts hpre)
    (fun q _ => match q with | 0 => SparseCore.Cfg.VecSplit.of_plain (vecSplit m))
    m ρ main (G (F := F)) (FIN m) (u₀ (F := F)) (sep_elim_left.trans (hu₀ m)) (hmain m ρ) (fq m) (hfin m) (QC m) (fun _ h => h)

end Cert.HistBits

end
-- ==== Proof.TcTailValK.lean ====
/-
  What the tail leaves in the arrays.

  The tail writes four arrays: the two reshaped operands, the call's result, and the reshaped result. Every other array
  keeps its contents. The result of the call is the body's payload of the six operand arrays as they stand when the
  call is entered — the histogram, the table, the first layer's weights, the reshaped first bias, the second layer's
  weights, the reshaped second bias —, staged and written back whole; the tail's last array is that, reshaped.
-/
import proofs.«201856_g16750372454438_cont_week2b_1124_27_alg».proof.Proof.TcTailK

noncomputable section

namespace Cert.HistBits

open Cert.Kernel Cert.Kernel.Gen

open Idealize.ShloMosaic
open Idealize.ShloMosaic.TcCoe Idealize.ShloMosaic.Tactic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-- An array the tail does not write keeps its contents. -/
theorem tailVal_of_ne (Vl : Valuation τ sig (Elt F)) (b : Ref sig .tc) (h1 : b ≠ main_v1) (h2 : b ≠ main_v2) (h3 : b ≠ main_v3) (h4 : b ≠ main_v4) :
    tailVal Vl (Proc.devRef .tc b) = Vl (Proc.devRef .tc b) := by
  unfold tailVal
  rw [StableHlo.after_cons, StableHlo.after_nil, StableHlo.reshape_result_ne _ _ _ _ _ _ _ h4, V3_ne Vl b (StableHlo.devRef_ne_of_ne h3)]
  show StableHlo.after [op1, op2] Vl (Proc.devRef .tc b) = _
  rw [StableHlo.after_cons, StableHlo.after_cons, StableHlo.after_nil, StableHlo.reshape_result_ne _ _ _ _ _ _ _ h2,
    StableHlo.reshape_result_ne _ _ _ _ _ _ _ h1]

theorem tailVal_arg0 (Vl : Valuation τ sig (Elt F)) : tailVal Vl (Proc.devRef .tc main_arg0) = Vl (Proc.devRef .tc main_arg0) :=
  tailVal_of_ne Vl main_arg0 (by decide) (by decide) (by decide) (by decide)
theorem tailVal_arg1 (Vl : Valuation τ sig (Elt F)) : tailVal Vl (Proc.devRef .tc main_arg1) = Vl (Proc.devRef .tc main_arg1) :=
  tailVal_of_ne Vl main_arg1 (by decide) (by decide) (by decide) (by decide)
theorem tailVal_arg2 (Vl : Valuation τ sig (Elt F)) : tailVal Vl (Proc.devRef .tc main_arg2) = Vl (Proc.devRef .tc main_arg2) :=
  tailVal_of_ne Vl main_arg2 (by decide) (by decide) (by decide) (by decide)
theorem tailVal_arg3 (Vl : Valuation τ sig (Elt F)) : tailVal Vl (Proc.devRef .tc main_arg3) = Vl (Proc.devRef .tc main_arg3) :=
  tailVal_of_ne Vl main_arg3 (by decide) (by decide) (by decide) (by decide)
theorem tailVal_arg4 (Vl : Valuation τ sig (Elt F)) : tailVal Vl (Proc.devRef .tc main_arg4) = Vl (Proc.devRef .tc main_arg4) :=
  tailVal_of_ne Vl main_arg4 (by decide) (by decide) (by decide) (by decide)
theorem tailVal_arg5 (Vl : Valuation τ sig (Elt F)) : tailVal Vl (Proc.devRef .tc main_arg5) = Vl (Proc.devRef .tc main_arg5) :=
  tailVal_of_ne Vl main_arg5 (by decide) (by decide) (by decide) (by decide)
theorem tailVal_v0 (Vl : Valuation τ sig (Elt F)) : tailVal Vl (Proc.devRef .tc main_v0) = Vl (Proc.devRef .tc main_v0) :=
  tailVal_of_ne Vl main_v0 (by decide) (by decide) (by decide) (by decide)

/-- When the call is entered, an array the two reshapes do not write holds what it held. -/
theorem V1_of_ne (Vl : Valuation τ sig (Elt F)) (b : Ref sig .tc) (h1 : b ≠ main_v1) (h2 : b ≠ main_v2) :
    V1 Vl (Proc.devRef .tc b) = Vl (Proc.devRef .tc b) := by
  show StableHlo.after [op1, op2] Vl (Proc.devRef .tc b) = _
  rw [StableHlo.after_cons, StableHlo.after_cons, StableHlo.after_nil, StableHlo.reshape_result_ne _ _ _ _ _ _ _ h2,
    StableHlo.reshape_result_ne _ _ _ _ _ _ _ h1]

/-- The first bias, reshaped. -/
theorem V1_v1 (Vl : Valuation τ sig (Elt F)) :
    V1 Vl (Proc.devRef .tc main_v1) = fun i => shapeCast S1x64 (Vl (Proc.devRef .tc main_arg3)) Facts₀.shapeCasts_S64_S1x64 i := by
  show StableHlo.after [op1, op2] Vl (Proc.devRef .tc main_v1) = _
  rw [StableHlo.after_cons, StableHlo.after_cons, StableHlo.after_nil,
    StableHlo.reshape_result_ne _ _ _ _ _ _ _ (by decide : main_v1 ≠ main_v2)]
  exact StableHlo.reshape_result main_arg3 main_v1 rfl Facts₀.shapeCasts_S64_S1x64 ⟨by decide, rfl⟩ ⟨by decide, rfl⟩ Vl

/-- The second bias, reshaped. -/
theorem V1_v2 (Vl : Valuation τ sig (Elt F)) :
    V1 Vl (Proc.devRef .tc main_v2) = fun i => shapeCast S1x8 (Vl (Proc.devRef .tc main_arg5)) Facts₀.shapeCasts_S8_S1x8 i := by
  show StableHlo.after [op1, op2] Vl (Proc.devRef .tc main_v2) = _
  rw [StableHlo.after_cons, StableHlo.after_cons, StableHlo.after_nil]
  refine (StableHlo.reshape_result main_arg5 main_v2 rfl Facts₀.shapeCasts_S8_S1x8 ⟨by decide, rfl⟩ ⟨by decide, rfl⟩ _).trans ?_
  rw [StableHlo.reshape_result_ne _ _ _ _ _ _ _ (by decide : main_arg5 ≠ main_v1)]
  rfl

/-- The tail's last array: the call's result, reshaped. -/
theorem tailVal_v4 (Vl : Valuation τ sig (Elt F)) :
    tailVal Vl (Proc.devRef .tc main_v4) = fun i => shapeCast S8 (out3 (V1 Vl)) Facts₀.shapeCasts_S1x8_S8 i := by
  unfold tailVal
  rw [StableHlo.after_cons, StableHlo.after_nil]
  refine (StableHlo.reshape_result main_v3 main_v4 rfl Facts₀.shapeCasts_S1x8_S8 ⟨by decide, rfl⟩ ⟨by decide, rfl⟩ _).trans ?_
  rw [V3_v3]
  rfl

/-- A whole-array window's one block sits in its array at the same indices. -/
theorem blk_emb0 (y : ((cfg1.win 0).xblock (cfg1.grid.coords t1_0)).Idx) : ((cfg1.win 0).blk t1_0).view.emb y = y := by
  funext a; apply Fin.ext
  exact (cfg1.win 0).rect_emb_val_of_index_zero t1_0 a rfl y

theorem stg0_eq (V : Valuation τ sig (Elt F)) : stg V 0 = V (Proc.devRef .tc main_v0) := by
  funext y
  show ((cfg1.win 0).blk t1_0).view.read (Elt F) (V (Proc.devRef .tc main_v0)) y = _
  rw [View.read_apply, blk_emb0]
  rfl
theorem blk_emb1 (y : ((cfg1.win 1).xblock (cfg1.grid.coords t1_0)).Idx) : ((cfg1.win 1).blk t1_0).view.emb y = y := by
  funext a; apply Fin.ext
  exact (cfg1.win 1).rect_emb_val_of_index_zero t1_0 a rfl y
theorem blk_emb2 (y : ((cfg1.win 2).xblock (cfg1.grid.coords t1_0)).Idx) : ((cfg1.win 2).blk t1_0).view.emb y = y := by
  funext a; apply Fin.ext
  exact (cfg1.win 2).rect_emb_val_of_index_zero t1_0 a rfl y
theorem blk_emb3 (y : ((cfg1.win 3).xblock (cfg1.grid.coords t1_0)).Idx) : ((cfg1.win 3).blk t1_0).view.emb y = y := by
  funext a; apply Fin.ext
  exact (cfg1.win 3).rect_emb_val_of_index_zero t1_0 a rfl y
theorem blk_emb4 (y : ((cfg1.win 4).xblock (cfg1.grid.coords t1_0)).Idx) : ((cfg1.win 4).blk t1_0).view.emb y = y := by
  funext a; apply Fin.ext
  exact (cfg1.win 4).rect_emb_val_of_index_zero t1_0 a rfl y
theorem blk_emb5 (y : ((cfg1.win 5).xblock (cfg1.grid.coords t1_0)).Idx) : ((cfg1.win 5).blk t1_0).view.emb y = y := by
  funext a; apply Fin.ext
  exact (cfg1.win 5).rect_emb_val_of_index_zero t1_0 a rfl y
theorem blk_emb6 (y : ((cfg1.win 6).xblock (cfg1.grid.coords t1_0)).Idx) : ((cfg1.win 6).blk t1_0).view.emb y = y := by
  funext a; apply Fin.ext
  exact (cfg1.win 6).rect_emb_val_of_index_zero t1_0 a rfl y
theorem stg1_eq (V : Valuation τ sig (Elt F)) : stg V 1 = V (Proc.devRef .tc main_arg1) := by
  funext y
  show ((cfg1.win 1).blk t1_0).view.read (Elt F) (V (Proc.devRef .tc main_arg1)) y = _
  rw [View.read_apply, blk_emb1]
  rfl
theorem stg2_eq (V : Valuation τ sig (Elt F)) : stg V 2 = V (Proc.devRef .tc main_arg2) := by
  funext y
  show ((cfg1.win 2).blk t1_0).view.read (Elt F) (V (Proc.devRef .tc main_arg2)) y = _
  rw [View.read_apply, blk_emb2]
  rfl
theorem stg3_eq (V : Valuation τ sig (Elt F)) : stg V 3 = V (Proc.devRef .tc main_v1) := by
  funext y
  show ((cfg1.win 3).blk t1_0).view.read (Elt F) (V (Proc.devRef .tc main_v1)) y = _
  rw [View.read_apply, blk_emb3]
  rfl
theorem stg4_eq (V : Valuation τ sig (Elt F)) : stg V 4 = V (Proc.devRef .tc main_arg4) := by
  funext y
  show ((cfg1.win 4).blk t1_0).view.read (Elt F) (V (Proc.devRef .tc main_arg4)) y = _
  rw [View.read_apply, blk_emb4]
  rfl
theorem stg5_eq (V : Valuation τ sig (Elt F)) : stg V 5 = V (Proc.devRef .tc main_v2) := by
  funext y
  show ((cfg1.win 5).blk t1_0).view.read (Elt F) (V (Proc.devRef .tc main_v2)) y = _
  rw [View.read_apply, blk_emb5]
  rfl

/-- The write-back of the whole block over the whole array leaves the block. -/
theorem out3_eq (V : Valuation τ sig (Elt F)) :
    out3 V = k1_pay1 (V (Proc.devRef .tc main_v0)) (V (Proc.devRef .tc main_arg1)) (V (Proc.devRef .tc main_arg2))
      (V (Proc.devRef .tc main_v1)) (V (Proc.devRef .tc main_arg4)) (V (Proc.devRef .tc main_v2)) := by
  unfold out3
  rw [stg0_eq, stg1_eq, stg2_eq, stg3_eq, stg4_eq, stg5_eq]
  funext i
  have h := View.write_emb_of_mem (v := ((cfg1.win 6).blk t1_0).view) (Val := Elt F) (V (Proc.devRef .tc main_v3))
    (k1_pay1 (V (Proc.devRef .tc main_v0)) (V (Proc.devRef .tc main_arg1)) (V (Proc.devRef .tc main_arg2))
      (V (Proc.devRef .tc main_v1)) (V (Proc.devRef .tc main_arg4)) (V (Proc.devRef .tc main_v2)))
    (M := Finset.univ) (x := i) (Finset.mem_univ _)
  rw [blk_emb6] at h
  exact h

/-- The call's result array after the tail. -/
theorem tailVal_v3 (Vl : Valuation τ sig (Elt F)) : tailVal Vl (Proc.devRef .tc main_v3) = out3 (V1 Vl) := by
  unfold tailVal
  rw [StableHlo.after_cons, StableHlo.after_nil, StableHlo.reshape_result_ne _ _ _ _ _ _ _ (by decide : main_v3 ≠ main_v4), V3_v3]

/-- The value the tail leaves in the call's result array: the payload of the histogram, the table, the first layer's
    weights, the reshaped first bias, the second layer's weights and the reshaped second bias. -/
def tailOut (Vl : Valuation τ sig (Elt F)) : FVec F S1x8 .f32 :=
  k1_pay1 (Vl (Proc.devRef .tc main_v0)) (Vl (Proc.devRef .tc main_arg1)) (Vl (Proc.devRef .tc main_arg2))
    (fun i => shapeCast S1x64 (Vl (Proc.devRef .tc main_arg3)) Facts₀.shapeCasts_S64_S1x64 i) (Vl (Proc.devRef .tc main_arg4))
    (fun i => shapeCast S1x8 (Vl (Proc.devRef .tc main_arg5)) Facts₀.shapeCasts_S8_S1x8 i)

theorem out3_V1 (Vl : Valuation τ sig (Elt F)) : out3 (V1 Vl) = tailOut Vl := by
  rw [out3_eq, V1_of_ne Vl main_v0 (by decide) (by decide), V1_of_ne Vl main_arg1 (by decide) (by decide),
    V1_of_ne Vl main_arg2 (by decide) (by decide), V1_of_ne Vl main_arg4 (by decide) (by decide), V1_v1, V1_v2]
  rfl

/-- The tail's last array is that value, reshaped. -/
theorem tailVal_v4_eq (Vl : Valuation τ sig (Elt F)) :
    tailVal Vl (Proc.devRef .tc main_v4) = fun i => shapeCast S8 (tailOut Vl) Facts₀.shapeCasts_S1x8_S8 i := by
  rw [tailVal_v4, out3_V1]

/-- The two reshaped operands after the tail. -/
theorem tailVal_v1 (Vl : Valuation τ sig (Elt F)) :
    tailVal Vl (Proc.devRef .tc main_v1) = fun i => shapeCast S1x64 (Vl (Proc.devRef .tc main_arg3)) Facts₀.shapeCasts_S64_S1x64 i := by
  unfold tailVal
  rw [StableHlo.after_cons, StableHlo.after_nil, StableHlo.reshape_result_ne _ _ _ _ _ _ _ (by decide : main_v1 ≠ main_v4),
    V3_ne Vl main_v1 (by decide), V1_v1]
theorem tailVal_v2 (Vl : Valuation τ sig (Elt F)) :
    tailVal Vl (Proc.devRef .tc main_v2) = fun i => shapeCast S1x8 (Vl (Proc.devRef .tc main_arg5)) Facts₀.shapeCasts_S8_S1x8 i := by
  unfold tailVal
  rw [StableHlo.after_cons, StableHlo.after_nil, StableHlo.reshape_result_ne _ _ _ _ _ _ _ (by decide : main_v2 ≠ main_v4),
    V3_ne Vl main_v2 (by decide), V1_v2]
theorem tailVal_v3_eq (Vl : Valuation τ sig (Elt F)) : tailVal Vl (Proc.devRef .tc main_v3) = tailOut Vl := by
  rw [tailVal_v3, out3_V1]

/-- The same with the reshapes written as plain shape casts. -/
theorem tailVal_v4_plain (Vl : Valuation τ sig (Elt F)) :
    tailVal Vl (Proc.devRef .tc main_v4)
      = shapeCast S8 (k1_pay1 (Vl (Proc.devRef .tc main_v0)) (Vl (Proc.devRef .tc main_arg1)) (Vl (Proc.devRef .tc main_arg2))
          (shapeCast S1x64 (Vl (Proc.devRef .tc main_arg3)) Facts₀.shapeCasts_S64_S1x64) (Vl (Proc.devRef .tc main_arg4))
          (shapeCast S1x8 (Vl (Proc.devRef .tc main_arg5)) Facts₀.shapeCasts_S8_S1x8)) Facts₀.shapeCasts_S1x8_S8 :=
  tailVal_v4_eq Vl

end Cert.HistBits

end
-- ==== Proof.FrameK.lean ====
/-
  The frame: in every final memory of the run the six argument arrays are as the launch found them. The tail's values
  leave every array but its four results alone, and the histogram call rewrote only the counts array.
-/
import proofs.«201856_g16750372454438_cont_week2b_1124_27_alg».proof.Proof.MainK
import proofs.«201856_g16750372454438_cont_week2b_1124_27_alg».proof.Proof.TcTailValK

noncomputable section

namespace Cert.HistBits

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "idsW" => (Memref.whole Cert.Kernel.main_arg0_scv : Memref Cert.Kernel.sig Kind.scVector Space.hbm Cert.Kernel.S8192 EltTy.i32)
local notation "outW" => (Memref.whole Cert.Kernel.main_v0_scv : Memref Cert.Kernel.sig Kind.scVector Space.hbm Cert.Kernel.S16x256 EltTy.f32)
local notation "sIds" => (Memref.whole Cert.Kernel.cc0_scratch0 : Memref Cert.Kernel.sig Kind.scVector Space.vmem Cert.Kernel.S512 EltTy.i32)
local notation "sCnt" => (Memref.whole Cert.Kernel.cc0_scratch1 : Memref Cert.Kernel.sig Kind.scVector Space.vmem Cert.Kernel.S256 EltTy.f32)

variable (m : (ℓ : Loc nD τ sig) → Buf (Elt F) ℓ) (ρ : Dev nD → PrngReg)
variable [FloatOps F]

omit [FloatOps F] in
/-- The arguments and the result are among the eleven. -/
theorem mem_S11 : (Proc.devRef .tc main_arg0 : DevRef τ sig) ∈ S11 ∧ (Proc.devRef .tc main_arg1 : DevRef τ sig) ∈ S11
    ∧ (Proc.devRef .tc main_arg2 : DevRef τ sig) ∈ S11 ∧ (Proc.devRef .tc main_arg3 : DevRef τ sig) ∈ S11
    ∧ (Proc.devRef .tc main_arg4 : DevRef τ sig) ∈ S11 ∧ (Proc.devRef .tc main_arg5 : DevRef τ sig) ∈ S11
    ∧ (Proc.devRef .tc main_v4 : DevRef τ sig) ∈ S11 := by
  unfold S11; decide

theorem QC_args (r : PUnit × MemSt nD τ sig (Elt F)) (h : QC m r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5) := by
  obtain ⟨f, -, hb⟩ := h c
  refine ⟨?_, ?_, ?_, ?_, ?_, ?_⟩
  · exact (hb (Proc.devRef .tc main_arg0) mem_S11.1).trans ((tailVal_arg0 _).trans (Vcall_ne m c f (by decide)))
  · exact (hb (Proc.devRef .tc main_arg1) mem_S11.2.1).trans ((tailVal_arg1 _).trans (Vcall_ne m c f (by decide)))
  · exact (hb (Proc.devRef .tc main_arg2) mem_S11.2.2.1).trans ((tailVal_arg2 _).trans (Vcall_ne m c f (by decide)))
  · exact (hb (Proc.devRef .tc main_arg3) mem_S11.2.2.2.1).trans ((tailVal_arg3 _).trans (Vcall_ne m c f (by decide)))
  · exact (hb (Proc.devRef .tc main_arg4) mem_S11.2.2.2.2.1).trans ((tailVal_arg4 _).trans (Vcall_ne m c f (by decide)))
  · exact (hb (Proc.devRef .tc main_arg5) mem_S11.2.2.2.2.2.1).trans ((tailVal_arg5 _).trans (Vcall_ne m c f (by decide)))

/-- The result array in a final memory: the tail's value of the launch contents with the counts array at counts every
    worker's row of which is what that worker computes. -/
theorem QC_result (r : PUnit × MemSt nD τ sig (Elt F)) (h : QC m r) (c : Dev nD) :
    ∃ f, (∀ i, RowOK (F := F) m c i f) ∧ r.2.mem ((c.tc : Thread nD τ).loc main_v4) = tailVal (Vcall m c f) (Proc.devRef .tc main_v4) := by
  obtain ⟨f, hf, hb⟩ := h c
  exact ⟨f, hf, hb (Proc.devRef .tc main_v4) mem_S11.2.2.2.2.2.2⟩

end Cert.HistBits

end
-- ==== Proof.Common.lean ====
/-
  The histogram kernel as its launch sees it: sixteen workers of one SparseCore, each with 512 consecutive words of the
  index list and one row of the 16 × 256 result. This module fixes the names the later ones share: the program's
  configuration, the ghost state (the launch's handshakes beside the matrix-unit call's staging cells and the local
  copies' counters), the arrays' locations, the slice of the index list and the row of the result a worker addresses,
  and that these slices are the sixteen equal parts of their arrays.
-/
import proofs.«201856_g16750372454438_cont_week2b_1124_27_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«201856_g16750372454438_cont_week2b_1124_27_alg».proof.Proof.Gen.KernelIdeal
import proofs.«201856_g16750372454438_cont_week2b_1124_27_alg».proof.Proof.Gen.KernelIdeal.Skeleton

noncomputable section

namespace Cert.HistIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state: the launch's handshakes, the staging cells of the matrix-unit call, the local copies' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ
local notation "idsW" => (Memref.whole Cert.KernelIdeal.main_arg0_scv : Memref Cert.KernelIdeal.sig Kind.scVector Space.hbm Cert.KernelIdeal.S8192 EltTy.i32)
local notation "outW" => (Memref.whole Cert.KernelIdeal.main_v0_scv : Memref Cert.KernelIdeal.sig Kind.scVector Space.hbm Cert.KernelIdeal.S16x256 EltTy.f32)
local notation "sIds" => (Memref.whole Cert.KernelIdeal.cc0_scratch0 : Memref Cert.KernelIdeal.sig Kind.scVector Space.vmem Cert.KernelIdeal.S512 EltTy.i32)
local notation "sCnt" => (Memref.whole Cert.KernelIdeal.cc0_scratch1 : Memref Cert.KernelIdeal.sig Kind.scVector Space.vmem Cert.KernelIdeal.S256 EltTy.f32)

abbrev EH : Emb UH (MT nD τ sig (HIx 1) (Elt F) ℕ UU ℕ) := embL

/-! ## The arrays and the workers' slices -/

abbrev idsLoc (d : Dev nD) : Loc nD τ sig := (SparseCore.T d).loc main_arg0
abbrev outLoc (d : Dev nD) : Loc nD τ sig := (SparseCore.T d).loc main_v0

abbrev cV (L : grid0.Coords) : Fin τ.nSC := (L 0).castLE hcore0
abbrev jV (L : grid0.Coords) : Fin τ.nSub := (L 1).castLE hsub0
theorem bound_one : grid0.bound 1 = 16 := rfl
abbrev jL (L : grid0.Coords) : Fin 16 := Fin.cast bound_one (L 1)

/-- Worker `L 1`'s 512 words of the index list, and its row of the result, as the body slices them. -/
abbrev idsSlice (L : grid0.Coords) : Memref sig .scVector .hbm S512 .i32 :=
  (idsW).slice (Rect.unit (s := S8192) (k0_off1 L) S512.size (k0_off1_inb L)) (fun _ => rfl)
abbrev outRow (L : grid0.Coords) : Memref sig .scVector .hbm S256 .f32 :=
  ((outW).slice (Rect.unit (s := S16x256) (k0_off2 L) S1x256.size (k0_off2_inb L)) (fun _ => rfl)).squeeze S256 squeezes_S1x256_S256

theorem hdivI : 16 ∣ S8192.size 0 := ⟨512, rfl⟩
theorem hdivO : 16 ∣ S16x256.size 0 := ⟨1, rfl⟩
/-- The sixteen equal parts of the index list, and the sixteen rows of the result. -/
abbrev partI (i : Fin 16) : Rect S8192 := Rect.part (s := S8192) (a₀ := 0) hdivI i
abbrev partO (i : Fin 16) : Rect S16x256 := Rect.part (s := S16x256) (a₀ := 0) hdivO i
abbrev partSet (i : Fin 16) : Finset S8192.Idx := ((idsW).view.slice (partI i)).set
abbrev rowSet (i : Fin 16) : Finset S16x256.Idx := ((outW).view.slice (partO i)).set

theorem sliceI_eq (L : grid0.Coords) : Rect.unit (s := S8192) (k0_off1 L) S512.size (k0_off1_inb L) = partI (jL L) := by
  unfold partI Rect.part Rect.block
  congr 1 <;> funext a
  · rw [k0_off1_eq]
    match a with
    | 0 => simp [Shape.partIx, Shape.partSize]; omega
  · match a with
    | 0 => simp [Shape.partSize]
theorem sliceO_eq (L : grid0.Coords) : Rect.unit (s := S16x256) (k0_off2 L) S1x256.size (k0_off2_inb L) = partO (jL L) := by
  unfold partO Rect.part Rect.block
  congr 1 <;> funext a
  · rw [k0_off2_eq]
    match a with
    | 0 => simp [Shape.partIx, Shape.partSize]
    | 1 => simp [Shape.partIx, Shape.partSize]
  · match a with
    | 0 => simp [Shape.partSize]
    | 1 => simp [Shape.partSize]

theorem set_idsSlice (L : grid0.Coords) : (idsSlice L).view.set = partSet (jL L) := by
  show ((idsW).view.slice (Rect.unit (s := S8192) (k0_off1 L) S512.size (k0_off1_inb L))).set = ((idsW).view.slice (partI (jL L))).set
  rw [sliceI_eq]
theorem set_outRow (L : grid0.Coords) : (outRow L).view.set = rowSet (jL L) := by
  show (((outW).view.slice (Rect.unit (s := S16x256) (k0_off2 L) S1x256.size (k0_off2_inb L))).reshape S256 squeezes_S1x256_S256.numel_eq).set
    = ((outW).view.slice (partO (jL L))).set
  rw [View.set_reshape]
  exact sliceO_eq L ▸ rfl

theorem partSet_eq (i : Fin 16) : partSet i = (partI i).set := by
  show ((View.whole (main_arg0_scv : Ref sig .scVector)).slice (partI i)).set = _
  rw [View.set_slice]; exact Finset.map_refl
theorem rowSet_eq (i : Fin 16) : rowSet i = (partO i).set := by
  show ((View.whole (main_v0_scv : Ref sig .scVector)).slice (partO i)).set = _
  rw [View.set_slice]; exact Finset.map_refl
theorem parts_disjoint : ∀ i ∈ (Finset.univ : Finset (Fin 16)), ∀ j ∈ (Finset.univ : Finset (Fin 16)), i ≠ j → Disjoint (partSet i) (partSet j) :=
  fun i _ j _ h => by rw [partSet_eq, partSet_eq]; exact Rect.part_disjoint hdivI h
theorem parts_cover : (Finset.univ : Finset (Fin 16)).biUnion partSet = Finset.univ :=
  (Finset.biUnion_congr rfl fun i _ => partSet_eq i).trans (Rect.biUnion_part hdivI)
theorem rows_disjoint : ∀ i ∈ (Finset.univ : Finset (Fin 16)), ∀ j ∈ (Finset.univ : Finset (Fin 16)), i ≠ j → Disjoint (rowSet i) (rowSet j) :=
  fun i _ j _ h => by rw [rowSet_eq, rowSet_eq]; exact Rect.part_disjoint hdivO h
theorem rows_cover : (Finset.univ : Finset (Fin 16)).biUnion rowSet = Finset.univ :=
  (Finset.biUnion_congr rfl fun i _ => rowSet_eq i).trans (Rect.biUnion_part hdivO)

end Cert.HistIdeal

end
-- ==== Proof.Tile.lean ====
/-
  One worker's task of the histogram kernel, at a symbolic worker: it copies its 512 words of the index list into its
  own memory and waits for them, clears its 256 counts sixteen at a time, adds one to the count each word names —
  thirty-two passes of sixteen words, every word below 256 because every word of the index list is —, copies the counts
  into its row of the result and waits for that copy. It reads nothing but its own part of the index list and writes
  nothing but its own row, so it ends holding both again, the part unchanged.
-/
import proofs.«201856_g16750372454438_cont_week2b_1124_27_alg».proof.Proof.Common
import Idealize.ShloMosaic.Lib.Pipeline.FrameBody
import Idealize.ShloMosaic.Lib.Pipeline.Value
import Idealize.ShloMosaic.Lib.Writes
import Idealize.ShloMosaic.Lib.Exec.Geometry
import Idealize.ShloMosaic.Lib.ValueIdx

noncomputable section

namespace Cert.HistIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/- the ghost state and the memrefs, as Common spells them -/
local notation "𝕄" => MT nD τ sig (HIx 1) (Elt F) ℕ UU ℕ
local notation "idsW" => (Memref.whole Cert.KernelIdeal.main_arg0_scv : Memref Cert.KernelIdeal.sig Kind.scVector Space.hbm Cert.KernelIdeal.S8192 EltTy.i32)
local notation "outW" => (Memref.whole Cert.KernelIdeal.main_v0_scv : Memref Cert.KernelIdeal.sig Kind.scVector Space.hbm Cert.KernelIdeal.S16x256 EltTy.f32)
local notation "sIds" => (Memref.whole Cert.KernelIdeal.cc0_scratch0 : Memref Cert.KernelIdeal.sig Kind.scVector Space.vmem Cert.KernelIdeal.S512 EltTy.i32)
local notation "sCnt" => (Memref.whole Cert.KernelIdeal.cc0_scratch1 : Memref Cert.KernelIdeal.sig Kind.scVector Space.vmem Cert.KernelIdeal.S256 EltTy.f32)

variable (m : (ℓ : Loc nD τ sig) → Buf (Elt F) ℓ)

/-- What the proof asks of the launch memory: every word of the index list is below 256. -/
def PreOK : Prop := ∀ (d : Dev nD) (j : (idsLoc d).ty.Idx), (m (idsLoc d) j).toNat < 256

/-! ## What a worker's row holds -/

/-- Worker i's 512 words of the index list. -/
def wordsOf (d : Dev nD) (i : Fin 16) : S512.Idx → BitVec 32 :=
  fun t => m (idsLoc d) (ValueIdx.ix1 (⟨512 * i.val + (t 0).val, by
    have h1 := i.isLt
    have h2 : (t 0).val < 512 := (t 0).isLt
    omega⟩ : Fin 8192))

theorem wordsOf_lt (hpre : PreOK m) (d : Dev nD) (i : Fin 16) : ∀ t, (wordsOf m d i t).toNat < 256 :=
  fun _ => hpre d _

omit m in
/-- Pass c's sixteen words of a 512-word list: words 16c … 16c+15 (the position taken modulo 512, which changes
    nothing for c below 32). -/
def chunkOf (x : S512.Idx → BitVec 32) (c : ℕ) : IVec S16 32 :=
  fun l => x (ValueIdx.ix1 (⟨(16 * c + (l 0).val) % 512, Nat.mod_lt _ (by norm_num)⟩ : Fin 512))

omit m in
/-- Words below 256 are in range as indices into the 256 counts. -/
theorem chunkOf_lt (x : S512.Idx → BitVec 32) (hx : ∀ t, (x t).toNat < 256) (c : ℕ) :
    ∀ a l, ((![chunkOf x c] : Fin 1 → IVec S16 32) a l).toNat < S256.size a := by
  intro a l
  match a with
  | ⟨0, _⟩ => exact hx _

omit m in
/-- The counts after c passes: the zero word everywhere, then one scatter-add of the one word per pass. -/
def histG [FloatOps F] (x : S512.Idx → BitVec 32) (hx : ∀ t, (x t).toNat < 256) : ℕ → (S256.Idx → Elt F .f32)
  | 0 => fun _ => Scalar.ofBits .f32 0x00000000#32
  | c + 1 => storeIdx (F := F) (s := S256) (e := .f32) (d := ![16]) (histG x hx c) ![chunkOf x c] (k0_pay2 (F := F))
      (fun _ => 1#1) true (chunkOf_lt x hx c)

omit m in
/-- One pass: a scatter-add of the one word at a pass's words onto the counts so far is the counts after it. -/
theorem hist_step [FloatOps F] (x : S512.Idx → BitVec 32) (hx : ∀ t, (x t).toNat < 256) (k : ℕ)
    (g : S256.Idx → Elt F .f32) (ck : IVec S16 32) (hck : ∀ a l, ((![ck] : Fin 1 → IVec S16 32) a l).toNat < S256.size a)
    (hg : g = histG x hx k) (hc : ck = chunkOf x k) :
    storeIdx (F := F) (s := S256) (e := .f32) (d := ![16]) g ![ck] (k0_pay2 (F := F)) (fun _ => 1#1) true hck
      = histG x hx (k + 1) := by
  subst hg hc; rfl

/-- What a worker leaves in its row of the result: when every word of the index list is below 256, entry b of its row is
    the count after all thirty-two passes over its own 512 words. -/
def RowOK [FloatOps F] (d : Dev nD) (i : Fin 16) (f : Buf (Elt F) (outLoc d)) : Prop :=
  ∀ (hpre : PreOK m) (b : Fin 256),
    f (ValueIdx.ix2 i b) = histG (wordsOf m d i) (wordsOf_lt m hpre d i) 32 (ValueIdx.ix1 b)

abbrev idsPart (d : Dev nD) (i : Fin 16) : sProp 𝕄 := idsLoc d ↦[partSet i]{fullShare} m (idsLoc d)
abbrev outRowPts (d : Dev nD) (i : Fin 16) (f : Buf (Elt F) (outLoc d)) : sProp 𝕄 := outLoc d ↦[rowSet i]{fullShare} f

/-- A worker's row, at contents that are what a worker leaves, is a row some worker left. -/
theorem row_intro [FloatOps F] (d : Dev nD) (i : Fin 16) (f : Buf (Elt F) (outLoc d)) (h : RowOK (F := F) m d i f) :
    (outRowPts d i f : sProp 𝕄) ⊢ iprop(∃ f, ⌜RowOK (F := F) m d i f⌝ ∗ outRowPts d i f) := by
  iintro H; iexists f; isplitr
  · ipureintro; exact h
  · iexact H

omit m in
/-- Entry (i, b) of the result lies in worker i's row. -/
theorem mem_rowSet (i : Fin 16) (b : Fin 256) : ValueIdx.ix2 i b ∈ rowSet i := by
  rw [rowSet_eq]
  refine (partO i).mem_set.mpr fun a => ?_
  match a with
  | ⟨0, _⟩ =>
    refine ⟨0, ?_, ?_⟩
    · simp [partO, Rect.part, Rect.block, Shape.partSize]
    · simp [partO, Rect.part, Rect.block, Shape.partIx, Shape.partSize]
  | ⟨1, _⟩ =>
    refine ⟨b.val, ?_, ?_⟩
    · simp [partO, Rect.part, Rect.block, Shape.partSize]
    · simp [partO, Rect.part, Rect.block, Shape.partIx, Shape.partSize]

/-- What a worker leaves in its row is a statement about that row's elements only. -/
theorem RowOK_congr [FloatOps F] (d : Dev nD) (i : Fin 16) {f g : Buf (Elt F) (outLoc d)} (_h : ∀ j ∈ rowSet i, g j = f j) :
    RowOK (F := F) m d i f → RowOK (F := F) m d i g :=
  fun hf hpre b => (_h _ (mem_rowSet i b)).trans (hf hpre b)

section Tile

variable (d : Dev nD) (L : grid0.Coords)

abbrev c0cell : GSem nD τ sig := (V d (cV L) (jV L), .dma cc0_scoped0.sem)
abbrev c1cell : GSem nD τ sig := (V d (cV L) (jV L), .dma cc0_scoped1.sem)

theorem pts_idsSlice (f : Buf (Elt F) (idsLoc d)) :
    ((idsSlice L).view.loc (V d (cV L) (jV L)) ↦[(idsSlice L).view.set]{fullShare} f : sProp 𝕄) = idsLoc d ↦[partSet (jL L)]{fullShare} f := by
  rw [set_idsSlice]
theorem pts_outRow (f : Buf (Elt F) (outLoc d)) :
    ((outRow L).view.loc (V d (cV L) (jV L)) ↦[(outRow L).view.set]{fullShare} f : sProp 𝕄) = outLoc d ↦[rowSet (jL L)]{fullShare} f := by
  rw [set_outRow]
theorem pts_sIds (f : Buf (Elt F) ((V d (cV L) (jV L)).loc cc0_scratch0)) :
    ((sIds).view.loc (V d (cV L) (jV L)) ↦{fullShare} f : sProp 𝕄) = (V d (cV L) (jV L)).loc cc0_scratch0 ↦{fullShare} f := rfl
theorem pts_sCnt (f : Buf (Elt F) ((V d (cV L) (jV L)).loc cc0_scratch1)) :
    ((sCnt).view.loc (V d (cV L) (jV L)) ↦{fullShare} f : sProp 𝕄) = (V d (cV L) (jV L)).loc cc0_scratch1 ↦{fullShare} f := rfl

theorem ownSems0_V :
    (ownSems0 (V d (cV L) (jV L)) : sProp 𝕄)
      = iprop(semVal (c0cell d L) 0 ∗ semVal (c1cell d L) 0
          ∗ bigSep (((ownCells (V d (cV L) (jV L))).erase (c0cell d L)).erase (c1cell d L)) fun g => semVal g 0) := by
  unfold SparseCore.Cfg.ownSems0
  rw [SparseCore.bigSep_erase' ((mem_ownCells (g := c0cell d L)).mpr ⟨rfl, by
      show (SemLoc.dma cc0_scoped0.sem : SemLoc sig).isScoped .scVector = true; decide⟩),
    SparseCore.bigSep_erase' (Finset.mem_erase.mpr ⟨by simp [c0cell, c1cell]; decide, (mem_ownCells (g := c1cell d L)).mpr ⟨rfl, by
      show (SemLoc.dma cc0_scoped1.sem : SemLoc sig).isScoped .scVector = true; decide⟩⟩)]

/-- The two scratch buffers are among the worker's own: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-- Every word the worker loads from its copy of its 512 words is a word of the index list: below 256 when they all are. -/
theorem chk_ok (fi : Buf (Elt F) (idsLoc d)) (hall : ∀ j, (fi j).toNat < 256)
    (s0 : Buf (Elt F) ((V d (cV L) (jV L)).loc cc0_scratch0)) (off : Fin 1 → Nat) (hin : ∀ a, off a + S16.size a ≤ S512.size a) :
    ∀ a x, ((![View.readAt (Elt F) (sIds).view (Rect.unit (s := S512) off S16.size hin).toLoadRect
        (View.write (Elt F) (sIds).view s0 (ReadAs.same.apply (View.read (Elt F) (idsSlice L).view fi)) Finset.univ)] : Fin 1 → IVec S16 32) a x).toNat < S256.size a := by
  intro a x
  obtain rfl : a = 0 := Subsingleton.elim _ _
  have e : View.readAt (Elt F) (sIds).view (Rect.unit (s := S512) off S16.size hin).toLoadRect
        (View.write (Elt F) (sIds).view s0 (ReadAs.same.apply (View.read (Elt F) (idsSlice L).view fi)) Finset.univ) x
      = fi ((idsSlice L).view.emb ((Rect.unit (s := S512) off S16.size hin).toLoadRect.idx x)) := by
    rw [View.readAt_apply]
    simp only [Memref.view_whole, View.write_whole_univ, View.read_whole]
    exact (View.read_apply _ _).trans (cast_eq _ _)
  exact lt_of_eq_of_lt (congrArg BitVec.toNat e) (hall _)

/-! ## Reading the run's terms -/

omit m in
/-- Position t of worker (L 1)'s slice of the index list is position 512 (L 1) + t of the list. -/
theorem emb_idsSlice (L : grid0.Coords) (t : S512.Idx) :
    (idsSlice L).view.emb t = ValueIdx.ix1 (⟨512 * (jL L).val + (t 0).val, by
      have h1 := (jL L).isLt
      have h2 : (t 0).val < 512 := (t 0).isLt
      omega⟩ : Fin 8192) := by
  funext a
  refine Fin.ext ?_
  match a with
  | ⟨0, _⟩ =>
    show (k0_off1 L) 0 + 1 * (t 0).val = 512 * (jL L).val + (t 0).val
    rw [k0_off1_eq, Nat.one_mul]
    rfl

/-- Sixteen words loaded from the worker's copy of its words, at offset 16 k, are pass k's words. -/
theorem chunk_read (d : Dev nD) (L : grid0.Coords) (s0 : Buf (Elt F) ((V d (cV L) (jV L)).loc cc0_scratch0))
    (off : Fin 1 → Nat) (hin : ∀ a, off a + S16.size a ≤ S512.size a) (k : ℕ) (hk : k < 32) (hoff : off 0 = 16 * k) :
    View.readAt (Elt F) (sIds).view (Rect.unit (s := S512) off S16.size hin).toLoadRect
        (View.write (Elt F) (sIds).view s0 (ReadAs.same.apply (View.read (Elt F) (idsSlice L).view (m (idsLoc d)))) Finset.univ)
      = chunkOf (wordsOf m d (jL L)) k := by
  funext l
  have e : View.readAt (Elt F) (sIds).view (Rect.unit (s := S512) off S16.size hin).toLoadRect
        (View.write (Elt F) (sIds).view s0 (ReadAs.same.apply (View.read (Elt F) (idsSlice L).view (m (idsLoc d)))) Finset.univ) l
      = m (idsLoc d) ((idsSlice L).view.emb ((Rect.unit (s := S512) off S16.size hin).toLoadRect.idx l)) := by
    rw [View.readAt_apply]
    simp only [Memref.view_whole, View.write_whole_univ, View.read_whole]
    exact (View.read_apply _ _).trans (cast_eq _ _)
  refine e.trans ?_
  rw [emb_idsSlice]
  show m (idsLoc d) _ = m (idsLoc d) _
  refine congrArg (m (idsLoc d)) (congrArg ValueIdx.ix1 (Fin.ext ?_))
  have hl : (l 0).val < 16 := (l 0).isLt
  have hi := LoadRect.idx_apply (Rect.unit (s := S512) off S16.size hin).toLoadRect l 0
  show 512 * (jL L).val + ((Rect.unit (s := S512) off S16.size hin).toLoadRect.idx l 0).val
      = 512 * (jL L).val + (16 * k + (l 0).val) % 512
  rw [hi]
  show 512 * (jL L).val + (off 0 + 1 * (l 0).val) = _
  rw [hoff]
  omega

omit m in
/-- The sixteen clearing stores, in the order the run lists them (the last first). -/
abbrev zeroPieces [FloatOps F] : List (View.Piece (Elt F) S256 .f32) :=
  [ ⟨Rect.unit (s := S256) ![240] S16.size inb_S256_S16_240, k0_pay1 (F := F)⟩,
    ⟨Rect.unit (s := S256) ![224] S16.size inb_S256_S16_224, k0_pay1 (F := F)⟩,
    ⟨Rect.unit (s := S256) ![208] S16.size inb_S256_S16_208, k0_pay1 (F := F)⟩,
    ⟨Rect.unit (s := S256) ![192] S16.size inb_S256_S16_192, k0_pay1 (F := F)⟩,
    ⟨Rect.unit (s := S256) ![176] S16.size inb_S256_S16_176, k0_pay1 (F := F)⟩,
    ⟨Rect.unit (s := S256) ![160] S16.size inb_S256_S16_160, k0_pay1 (F := F)⟩,
    ⟨Rect.unit (s := S256) ![144] S16.size inb_S256_S16_144, k0_pay1 (F := F)⟩,
    ⟨Rect.unit (s := S256) ![128] S16.size inb_S256_S16_128, k0_pay1 (F := F)⟩,
    ⟨Rect.unit (s := S256) ![112] S16.size inb_S256_S16_112, k0_pay1 (F := F)⟩,
    ⟨Rect.unit (s := S256) ![96] S16.size inb_S256_S16_96, k0_pay1 (F := F)⟩,
    ⟨Rect.unit (s := S256) ![80] S16.size inb_S256_S16_80, k0_pay1 (F := F)⟩,
    ⟨Rect.unit (s := S256) ![64] S16.size inb_S256_S16_64, k0_pay1 (F := F)⟩,
    ⟨Rect.unit (s := S256) ![48] S16.size inb_S256_S16_48, k0_pay1 (F := F)⟩,
    ⟨Rect.unit (s := S256) ![32] S16.size inb_S256_S16_32, k0_pay1 (F := F)⟩,
    ⟨Rect.unit (s := S256) ![16] S16.size inb_S256_S16_16, k0_pay1 (F := F)⟩,
    ⟨Rect.unit (s := S256) ![0] S16.size inb_S256_S16_0, k0_pay1 (F := F)⟩ ]

omit m in
/-- After the sixteen clearing stores every count reads the zero word. -/
theorem zero_read [FloatOps F] (x : S512.Idx → BitVec 32) (hx : ∀ t, (x t).toNat < 256) :
    (sCnt).view.readCov (zeroPieces (F := F)) (LoadRect.whole S256) = histG x hx 0 := by
  rw [View.readCov_eq_canon']
  funext j
  exact View.canon_apply_of_pieces (fun _ => Scalar.ofBits .f32 0x00000000#32) _
    (List.forall_iff_forall_mem.1 (show (zeroPieces (F := F)).Forall _ from
      ⟨fun _ => rfl, fun _ => rfl, fun _ => rfl, fun _ => rfl, fun _ => rfl, fun _ => rfl, fun _ => rfl, fun _ => rfl, fun _ => rfl, fun _ => rfl, fun _ => rfl, fun _ => rfl, fun _ => rfl, fun _ => rfl, fun _ => rfl, fun _ => rfl⟩)) _
    (View.cover_of_tiled (s := S256) (zeroPieces (F := F)) ![16] rfl _)

omit m in
/-- Reading back contents whose last write covers the whole view gives that write's payload. -/
theorem read_writes_whole_cons {sig' : RefSig} {κ : Kind} {sp : Space} {s : Shape} {e : EltTy} {Val : EltTy → Type}
    (v : View sig' κ sp s e) (f : v.ty.Contents Val) (x : s.Idx → Val e) (P : List (View.Piece Val s e)) :
    ReadAs.same.apply (View.read Val v (v.writes Val f (⟨Rect.whole s, x⟩ :: P))) = x := by
  funext y
  have h := View.read_writes_cons_emb v f (Rect.whole s) x P y
  rwa [Rect.emb_whole_apply] at h

omit m in
/-- Entry b of worker (L 1)'s row is entry (L 1, b) of the result. -/
theorem emb_outRow (L : grid0.Coords) (b : Fin 256) :
    (outRow L).view.emb (ValueIdx.ix1 b) = ValueIdx.ix2 (jL L) b := by
  show ((outW).view.slice (Rect.unit (s := S16x256) (k0_off2 L) S1x256.size (k0_off2_inb L))).emb
      (Shape.reshapeEquiv squeezes_S1x256_S256.numel_eq (ValueIdx.ix1 b)) = _
  rw [Shape.reshapeEquiv_cons_one]
  funext a
  refine Fin.ext ?_
  match a with
  | ⟨0, _⟩ =>
    show (k0_off2 L) 0 + 1 * 0 = (jL L).val
    rw [k0_off2_eq]; rfl
  | ⟨1, _⟩ =>
    show (k0_off2 L) 1 + 1 * b.val = b.val
    rw [k0_off2_eq, Nat.one_mul]
    show 0 + b.val = b.val
    rw [Nat.zero_add]

omit m in
/-- A row written whole reads, at entry (L 1, b) of the result, the written row at b. -/
theorem row_written (d : Dev nD) (L : grid0.Coords) (g : Buf (Elt F) (outLoc d)) (P : S256.Idx → Elt F .f32) (b : Fin 256) :
    ((outRow L).view.writes (Elt F) g [⟨Rect.whole S256, P⟩]) (ValueIdx.ix2 (jL L) b) = P (ValueIdx.ix1 b) := by
  have h := congrFun (View.read_writes_whole (outRow L).view g P) (ValueIdx.ix1 b)
  rw [View.read_apply, emb_outRow] at h
  exact (cast_eq _ _).symm.trans h

variable [FloatOps F]

set_option maxHeartbeats 40000000 in
/-- The task on worker `(L 0, L 1)` of device `d`. -/
theorem tile_body (hF : (K (F := F)).Facts) (hpre : PreOK m) (O : CellTallies nD τ sig (HIx 1)) (W : Waits sig (HIx 1)) (hO : ∀ g, O g none = 0) :
    iprop(levAts (K (F := F)).L (K (F := F)).lev ∗ emp
        ∗ (idsPart m d (jL L) ∗ outRowPts d (jL L) (m (outLoc d)))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__hist_body L idsW (Memref.isWhole_whole _) outW (Memref.isWhole_whole _) sIds (Memref.isWhole_whole _) sCnt (Memref.isWhole_whole _) cc0_scoped0 cc0_scoped1)
          fun _ => iprop((idsPart m d (jL L) ∗ ∃ f, ⌜RowOK (F := F) m d (jL L) f⌝ ∗ outRowPts d (jL L) f)
            ∗ scopedBufs (V d (cV L) (jV L)) ∗ scopedSems0 (V d (cV L) (jV L))
            ∗ ∃ W', ⌜∀ p ∈ W', p ∈ W ∨ p.2 = none⌝ ∗ owes (V d (cV L) (jV L)) O W') := by
  have hall : ∀ j, (m (idsLoc d) j).toNat < 256 := hpre d
  rw [cc0__hist_body_eq_skeleton]; unfold cc0__hist_body_skel
  rw [(K (F := F)).scopedBufs_V hF d (cV L) (jV L), SparseCore.Cfg.scopedSems0_V (Val := Elt F) d (cV L) (jV L), ownSems0_V, ownBufs_V]
  iintro ⟨#Hlv, -, ⟨Hi, Ho⟩, ⟨⟨%s0, Hs0⟩, ⟨%s1, Hs1⟩, Hbufs⟩, ⟨Hsem0, Hsem1, Hsems⟩, HO⟩
  ihave Hmw := ((K (F := F)).mayWaits_none (thr := V d (cV L) (jV L)) hO) $$ Hlv
  ihave Hi := (Entails.of_eq (pts_idsSlice (F := F) d L _).symm) $$ Hi
  ihave Ho := (Entails.of_eq (pts_outRow (F := F) d L _).symm) $$ Ho
  ihave Hs0 := (Entails.of_eq (pts_sIds (F := F) d L _).symm) $$ Hs0
  ihave Hs1 := (Entails.of_eq (pts_sCnt (F := F) d L _).symm) $$ Hs1
  sl_exec (disch := exact chk_ok d L (m (idsLoc d)) hall _ _ _)
  iterate 32 (rw [SparseCore.vectorStoreIdx_bind (V d (cV L) (jV L))]; sl_exec (disch := exact chk_ok d L (m (idsLoc d)) hall _ _ _))
  sl_step
  let x := wordsOf m d (jL L)
  have hx : ∀ t, (x t).toNat < 256 := wordsOf_lt m hpre d (jL L)
  have e0 : tile_body.sl.f (F := F) = histG x hx 0 := zero_read x hx
  have e1 : tile_body.sl.f_1 m d L hall s0 = histG x hx 1 :=
    (View.readCov_cons_toLoadRect _ (Rect.whole S256) _ _).trans (hist_step x hx 0 _ _ _ e0 (chunk_read m d L s0 _ _ 0 (by norm_num) rfl))
  have e2 : tile_body.sl.f_2 m d L hall s0 = histG x hx 2 :=
    (View.readCov_cons_toLoadRect _ (Rect.whole S256) _ _).trans (hist_step x hx 1 _ _ _ e1 (chunk_read m d L s0 _ _ 1 (by norm_num) rfl))
  have e3 : tile_body.sl.f_3 m d L hall s0 = histG x hx 3 :=
    (View.readCov_cons_toLoadRect _ (Rect.whole S256) _ _).trans (hist_step x hx 2 _ _ _ e2 (chunk_read m d L s0 _ _ 2 (by norm_num) rfl))
  have e4 : tile_body.sl.f_4 m d L hall s0 = histG x hx 4 :=
    (View.readCov_cons_toLoadRect _ (Rect.whole S256) _ _).trans (hist_step x hx 3 _ _ _ e3 (chunk_read m d L s0 _ _ 3 (by norm_num) rfl))
  have e5 : tile_body.sl.f_5 m d L hall s0 = histG x hx 5 :=
    (View.readCov_cons_toLoadRect _ (Rect.whole S256) _ _).trans (hist_step x hx 4 _ _ _ e4 (chunk_read m d L s0 _ _ 4 (by norm_num) rfl))
  have e6 : tile_body.sl.f_6 m d L hall s0 = histG x hx 6 :=
    (View.readCov_cons_toLoadRect _ (Rect.whole S256) _ _).trans (hist_step x hx 5 _ _ _ e5 (chunk_read m d L s0 _ _ 5 (by norm_num) rfl))
  have e7 : tile_body.sl.f_7 m d L hall s0 = histG x hx 7 :=
    (View.readCov_cons_toLoadRect _ (Rect.whole S256) _ _).trans (hist_step x hx 6 _ _ _ e6 (chunk_read m d L s0 _ _ 6 (by norm_num) rfl))
  have e8 : tile_body.sl.f_8 m d L hall s0 = histG x hx 8 :=
    (View.readCov_cons_toLoadRect _ (Rect.whole S256) _ _).trans (hist_step x hx 7 _ _ _ e7 (chunk_read m d L s0 _ _ 7 (by norm_num) rfl))
  have e9 : tile_body.sl.f_9 m d L hall s0 = histG x hx 9 :=
    (View.readCov_cons_toLoadRect _ (Rect.whole S256) _ _).trans (hist_step x hx 8 _ _ _ e8 (chunk_read m d L s0 _ _ 8 (by norm_num) rfl))
  have e10 : tile_body.sl.f_10 m d L hall s0 = histG x hx 10 :=
    (View.readCov_cons_toLoadRect _ (Rect.whole S256) _ _).trans (hist_step x hx 9 _ _ _ e9 (chunk_read m d L s0 _ _ 9 (by norm_num) rfl))
  have e11 : tile_body.sl.f_11 m d L hall s0 = histG x hx 11 :=
    (View.readCov_cons_toLoadRect _ (Rect.whole S256) _ _).trans (hist_step x hx 10 _ _ _ e10 (chunk_read m d L s0 _ _ 10 (by norm_num) rfl))
  have e12 : tile_body.sl.f_12 m d L hall s0 = histG x hx 12 :=
    (View.readCov_cons_toLoadRect _ (Rect.whole S256) _ _).trans (hist_step x hx 11 _ _ _ e11 (chunk_read m d L s0 _ _ 11 (by norm_num) rfl))
  have e13 : tile_body.sl.f_13 m d L hall s0 = histG x hx 13 :=
    (View.readCov_cons_toLoadRect _ (Rect.whole S256) _ _).trans (hist_step x hx 12 _ _ _ e12 (chunk_read m d L s0 _ _ 12 (by norm_num) rfl))
  have e14 : tile_body.sl.f_14 m d L hall s0 = histG x hx 14 :=
    (View.readCov_cons_toLoadRect _ (Rect.whole S256) _ _).trans (hist_step x hx 13 _ _ _ e13 (chunk_read m d L s0 _ _ 13 (by norm_num) rfl))
  have e15 : tile_body.sl.f_15 m d L hall s0 = histG x hx 15 :=
    (View.readCov_cons_toLoadRect _ (Rect.whole S256) _ _).trans (hist_step x hx 14 _ _ _ e14 (chunk_read m d L s0 _ _ 14 (by norm_num) rfl))
  have e16 : tile_body.sl.f_16 m d L hall s0 = histG x hx 16 :=
    (View.readCov_cons_toLoadRect _ (Rect.whole S256) _ _).trans (hist_step x hx 15 _ _ _ e15 (chunk_read m d L s0 _ _ 15 (by norm_num) rfl))
  have e17 : tile_body.sl.f_17 m d L hall s0 = histG x hx 17 :=
    (View.readCov_cons_toLoadRect _ (Rect.whole S256) _ _).trans (hist_step x hx 16 _ _ _ e16 (chunk_read m d L s0 _ _ 16 (by norm_num) rfl))
  have e18 : tile_body.sl.f_18 m d L hall s0 = histG x hx 18 :=
    (View.readCov_cons_toLoadRect _ (Rect.whole S256) _ _).trans (hist_step x hx 17 _ _ _ e17 (chunk_read m d L s0 _ _ 17 (by norm_num) rfl))
  have e19 : tile_body.sl.f_19 m d L hall s0 = histG x hx 19 :=
    (View.readCov_cons_toLoadRect _ (Rect.whole S256) _ _).trans (hist_step x hx 18 _ _ _ e18 (chunk_read m d L s0 _ _ 18 (by norm_num) rfl))
  have e20 : tile_body.sl.f_20 m d L hall s0 = histG x hx 20 :=
    (View.readCov_cons_toLoadRect _ (Rect.whole S256) _ _).trans (hist_step x hx 19 _ _ _ e19 (chunk_read m d L s0 _ _ 19 (by norm_num) rfl))
  have e21 : tile_body.sl.f_21 m d L hall s0 = histG x hx 21 :=
    (View.readCov_cons_toLoadRect _ (Rect.whole S256) _ _).trans (hist_step x hx 20 _ _ _ e20 (chunk_read m d L s0 _ _ 20 (by norm_num) rfl))
  have e22 : tile_body.sl.f_22 m d L hall s0 = histG x hx 22 :=
    (View.readCov_cons_toLoadRect _ (Rect.whole S256) _ _).trans (hist_step x hx 21 _ _ _ e21 (chunk_read m d L s0 _ _ 21 (by norm_num) rfl))
  have e23 : tile_body.sl.f_23 m d L hall s0 = histG x hx 23 :=
    (View.readCov_cons_toLoadRect _ (Rect.whole S256) _ _).trans (hist_step x hx 22 _ _ _ e22 (chunk_read m d L s0 _ _ 22 (by norm_num) rfl))
  have e24 : tile_body.sl.f_24 m d L hall s0 = histG x hx 24 :=
    (View.readCov_cons_toLoadRect _ (Rect.whole S256) _ _).trans (hist_step x hx 23 _ _ _ e23 (chunk_read m d L s0 _ _ 23 (by norm_num) rfl))
  have e25 : tile_body.sl.f_25 m d L hall s0 = histG x hx 25 :=
    (View.readCov_cons_toLoadRect _ (Rect.whole S256) _ _).trans (hist_step x hx 24 _ _ _ e24 (chunk_read m d L s0 _ _ 24 (by norm_num) rfl))
  have e26 : tile_body.sl.f_26 m d L hall s0 = histG x hx 26 :=
    (View.readCov_cons_toLoadRect _ (Rect.whole S256) _ _).trans (hist_step x hx 25 _ _ _ e25 (chunk_read m d L s0 _ _ 25 (by norm_num) rfl))
  have e27 : tile_body.sl.f_27 m d L hall s0 = histG x hx 27 :=
    (View.readCov_cons_toLoadRect _ (Rect.whole S256) _ _).trans (hist_step x hx 26 _ _ _ e26 (chunk_read m d L s0 _ _ 26 (by norm_num) rfl))
  have e28 : tile_body.sl.f_28 m d L hall s0 = histG x hx 28 :=
    (View.readCov_cons_toLoadRect _ (Rect.whole S256) _ _).trans (hist_step x hx 27 _ _ _ e27 (chunk_read m d L s0 _ _ 27 (by norm_num) rfl))
  have e29 : tile_body.sl.f_29 m d L hall s0 = histG x hx 29 :=
    (View.readCov_cons_toLoadRect _ (Rect.whole S256) _ _).trans (hist_step x hx 28 _ _ _ e28 (chunk_read m d L s0 _ _ 28 (by norm_num) rfl))
  have e30 : tile_body.sl.f_30 m d L hall s0 = histG x hx 30 :=
    (View.readCov_cons_toLoadRect _ (Rect.whole S256) _ _).trans (hist_step x hx 29 _ _ _ e29 (chunk_read m d L s0 _ _ 29 (by norm_num) rfl))
  have e31 : tile_body.sl.f_31 m d L hall s0 = histG x hx 31 :=
    (View.readCov_cons_toLoadRect _ (Rect.whole S256) _ _).trans (hist_step x hx 30 _ _ _ e30 (chunk_read m d L s0 _ _ 30 (by norm_num) rfl))
  have e32 : tile_body.sl.dma2 m d L hall s0 s1 = histG x hx 32 :=
    (read_writes_whole_cons _ _ _ _).trans (hist_step x hx 31 _ _ _ e31 (chunk_read m d L s0 _ _ 31 (by norm_num) rfl))
  have hrow : RowOK (F := F) m d (jL L)
      ((outRow L).view.writes (Elt F) (m (outLoc d)) [⟨Rect.whole S256, tile_body.sl.dma2 m d L hall s0 s1⟩]) :=
    fun _ b => (row_written d L _ _ b).trans (congrFun e32 (ValueIdx.ix1 b))
  isplitl [Hi Ho]
  · isplitl [Hi]
    · iapply (Entails.of_eq (pts_idsSlice (F := F) d L _)); iexact Hi
    iapply (row_intro (F := F) m d (jL L) _ hrow)
    iapply (Entails.of_eq (pts_outRow (F := F) d L _)); iexact Ho
  isplitl [Hs0 Hs1 Hbufs]
  · isplitl [Hs0]
    · iexists _; iapply (Entails.of_eq (pts_sIds (F := F) d L _)); iexact Hs0
    isplitl [Hs1]
    · iexists _; iapply (Entails.of_eq (pts_sCnt (F := F) d L _)); iexact Hs1
    iexact Hbufs
  isplitl [Hsem0 Hsem1 Hsems]
  · isplitl [Hsem0]; · iexact Hsem0
    isplitl [Hsem1]; · iexact Hsem1
    iexact Hsems
  iexists (insert (SemLoc.dma cc0_scoped1.sem, none) (insert (SemLoc.dma cc0_scoped0.sem, none) W)); isplitr
  · ipureintro; intro p hp
    rcases Finset.mem_insert.mp hp with rfl | hp
    · exact .inr rfl
    rcases Finset.mem_insert.mp hp with rfl | hp
    · exact .inr rfl
    · exact .inl hp
  · iexact HO

end Tile

end Cert.HistIdeal

end
-- ==== Proof.Launch.lean ====
/-
  The histogram call as the launch sees it. The TensorCore hands the call the index list and the result array whole;
  the one SparseCore deals worker `i` part `i` of the index list and row `i` of the result; each worker hands back its
  part unchanged and its row at what it computed; the sixteen rows make the result array again. Nothing else is shared:
  the sixteen parts are disjoint and cover the list, the sixteen rows are disjoint and cover the array.
-/
import proofs.«201856_g16750372454438_cont_week2b_1124_27_alg».proof.Proof.Tile

noncomputable section

namespace Cert.HistIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "idsW" => (Memref.whole Cert.KernelIdeal.main_arg0_scv : Memref Cert.KernelIdeal.sig Kind.scVector Space.hbm Cert.KernelIdeal.S8192 EltTy.i32)
local notation "outW" => (Memref.whole Cert.KernelIdeal.main_v0_scv : Memref Cert.KernelIdeal.sig Kind.scVector Space.hbm Cert.KernelIdeal.S16x256 EltTy.f32)
local notation "sIds" => (Memref.whole Cert.KernelIdeal.cc0_scratch0 : Memref Cert.KernelIdeal.sig Kind.scVector Space.vmem Cert.KernelIdeal.S512 EltTy.i32)
local notation "sCnt" => (Memref.whole Cert.KernelIdeal.cc0_scratch1 : Memref Cert.KernelIdeal.sig Kind.scVector Space.vmem Cert.KernelIdeal.S256 EltTy.f32)

variable (m : (ℓ : Loc nD τ sig) → Buf (Elt F) ℓ)
variable [FloatOps F]

abbrev idsPts (d : Dev nD) : sProp 𝕄 := idsLoc d ↦{fullShare} m (idsLoc d)
abbrev outPts (d : Dev nD) (f : Buf (Elt F) (outLoc d)) : sProp 𝕄 := outLoc d ↦{fullShare} f

/-- The one call takes the index list and the result array whole, each worker its part and its row, and brings them
    back, the result array at what the workers left. -/
def P : (K (F := F)).Pay (nD := nD) (Val := Elt F) (Name := ℕ) (U := UU) where
  st := fun q d _ => match q with | 0 => iprop(idsPts m d ∗ outPts d (m (outLoc d)))
  dn := fun q d _ => match q with | 0 => iprop(idsPts m d ∗ ∃ f, ⌜∀ i, RowOK (F := F) m d i f⌝ ∗ outPts d f)
  go := fun q d _ i => match q with
    | 0 => iprop(idsPart m d (Fin.cast nSub_zero i) ∗ outRowPts d (Fin.cast nSub_zero i) (m (outLoc d)))
  td := fun q d _ i => match q with
    | 0 => iprop(idsPart m d (Fin.cast nSub_zero i) ∗ ∃ f, ⌜RowOK (F := F) m d (Fin.cast nSub_zero i) f⌝ ∗ outRowPts d (Fin.cast nSub_zero i) f)
  x := fun _ _ => iprop(emp)

instance P_storable : (P (F := F) m).IsStorable where
  st q d _ := match q with
    | 0 => (inferInstance : BI.Storable (upEmb : UEmb _ 𝕄) iprop(idsPts m d ∗ outPts d (m (outLoc d))))
  dn q d _ := match q with
    | 0 => (inferInstance : BI.Storable (upEmb : UEmb _ 𝕄) iprop(idsPts m d ∗ ∃ f, ⌜∀ i, RowOK (F := F) m d i f⌝ ∗ outPts d f))
  go q d _ i := match q with
    | 0 => (inferInstance : BI.Storable (upEmb : UEmb _ 𝕄)
        iprop(idsPart m d (Fin.cast nSub_zero i) ∗ outRowPts d (Fin.cast nSub_zero i) (m (outLoc d))))
  td q d _ i := match q with
    | 0 => (inferInstance : BI.Storable (upEmb : UEmb _ 𝕄)
        iprop(idsPart m d (Fin.cast nSub_zero i) ∗ ∃ f, ⌜RowOK (F := F) m d (Fin.cast nSub_zero i) f⌝ ∗ outRowPts d (Fin.cast nSub_zero i) f))

/-! ## The worker's obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__hist_body (coordsV c s)
          idsW (Memref.isWhole_whole _) outW (Memref.isWhole_whole _) sIds (Memref.isWhole_whole _) sCnt (Memref.isWhole_whole _) cc0_scoped0 cc0_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) (hpre : PreOK m) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) hF hpre O W hO).trans (wp_mono frame _ _ fun _ => obl_post)

/-! ## The parts and the rows -/

omit [FloatOps F] in
theorem idsPts_parts (d : Dev nD) (f : Buf (Elt F) (idsLoc d)) :
    (idsLoc d ↦{fullShare} f : sProp 𝕄) = bigSep Finset.univ fun i : Fin 16 => idsLoc d ↦[partSet i]{fullShare} f := by
  rw [← pointsTo_biUnion Finset.univ (ℓ := idsLoc d) partSet parts_disjoint, parts_cover]; try rfl
omit [FloatOps F] in
theorem outPts_rows (d : Dev nD) (f : Buf (Elt F) (outLoc d)) :
    (outLoc d ↦{fullShare} f : sProp 𝕄) = bigSep Finset.univ fun i : Fin 16 => outLoc d ↦[rowSet i]{fullShare} f := by
  rw [← pointsTo_biUnion Finset.univ (ℓ := outLoc d) rowSet rows_disjoint, rows_cover]; try rfl

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-- The sixteen rows, each at what its worker left, are the result array at what the workers left. -/
theorem oRows_join (d : Dev nD) :
    (bigSep Finset.univ fun i : Fin 16 => iprop(∃ f, ⌜RowOK (F := F) m d i f⌝ ∗ outRowPts d i f))
      ⊢ (iprop(∃ f, ⌜∀ i, RowOK (F := F) m d i f⌝ ∗ outPts d f) : sProp 𝕄) := by
  refine (bigSep_exists_pi Finset.univ (fun i (f : Buf (Elt F) (outLoc d)) => iprop(⌜RowOK (F := F) m d i f⌝ ∗ outRowPts d i f))).trans ?_
  iintro ⟨%fs, H⟩
  ihave H2 := (bigSep_pure_sep Finset.univ (fun i => RowOK (F := F) m d i (fs i)) (fun i => outRowPts d i (fs i))) $$ H
  icases H2 with ⟨%hok, H⟩
  ihave H' := (pointsTo_biUnion_join Finset.univ rowSet fs (fs 0) rows_disjoint) $$ H
  icases H' with ⟨%g, %hg, Hg⟩
  rw [rows_cover]
  iexists g; isplitr
  · ipureintro; intro i
    exact RowOK_congr m d i (fun j hj => hg i (Finset.mem_univ i) j hj) (hok i (Finset.mem_univ i))
  · iexact Hg

theorem vecSplit : (K (F := F)).VecSplit' (P m) 0 := by
  intro d c
  show iprop(idsPts m d ∗ outPts d (m (outLoc d))) ⊢ |={Set.univ}=> iprop(
      (bigSep Finset.univ fun i : Fin ((K (F := F)).nSub 0) =>
        iprop(idsPart m d (Fin.cast nSub_zero i) ∗ outRowPts d (Fin.cast nSub_zero i) (m (outLoc d))))
      ∗ ((bigSep Finset.univ fun i : Fin ((K (F := F)).nSub 0) =>
          iprop(idsPart m d (Fin.cast nSub_zero i) ∗ ∃ f, ⌜RowOK (F := F) m d (Fin.cast nSub_zero i) f⌝ ∗ outRowPts d (Fin.cast nSub_zero i) f))
          -∗ iprop(idsPts m d ∗ ∃ f, ⌜∀ i, RowOK (F := F) m d i f⌝ ∗ outPts d f)))
  rw [bigSep_tasks (F := F) (fun i => iprop(idsPart m d i ∗ outRowPts d i (m (outLoc d)))),
    bigSep_tasks (F := F) (fun i => iprop(idsPart m d i ∗ ∃ f, ⌜RowOK (F := F) m d i f⌝ ∗ outRowPts d i f)), bigSep_sep', bigSep_sep']
  unfold idsPts outPts idsPart
  rw [idsPts_parts, outPts_rows]
  iintro H; imodintro
  isplitl [H]; · iexact H
  iintro ⟨Hi, Ho⟩
  isplitl [Hi]; · iexact Hi
  iapply (oRows_join m d); iexact Ho

end Cert.HistIdeal

end
-- ==== Proof.TcBody.lean ====
/-
  The matrix-unit call's body, run once at symbolic operands, and the call's proof data.

  The body loads its six input blocks, computes one value from them and stores it over the whole output block; nothing
  else is touched. Run from the seven staging buffers held whole, it returns them with the inputs unchanged and the
  output holding that value. The call has one grid point and every window is its whole array: an input's staging
  buffer holds the array when the body runs, the output's staging buffer holds afterwards the value computed from the
  six arrays, and that is what the write-back leaves in the output array.
-/
import proofs.«201856_g16750372454438_cont_week2b_1124_27_alg».proof.Proof.Common
import proofs.«201856_g16750372454438_cont_week2b_1124_27_alg».proof.Proof.Gen.KernelIdeal.Launch
import proofs.«201856_g16750372454438_cont_week2b_1124_27_alg».proof.Proof.Gen.KernelIdeal.Points
import Idealize.ShloMosaic.Lib.Pipeline.Regions
import Idealize.ShloMosaic.Lib.Pipeline.Value

noncomputable section

namespace Cert.HistIdeal

open Cert.KernelIdeal Cert.KernelIdeal.Gen

open Idealize.ShloMosaic
open Idealize.ShloMosaic.TcCoe Idealize.ShloMosaic.Tactic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-! ## The staging cells' ghost state inside the program's -/

/-- The staging cells' rounds state: the left factor of the right factor of the program's ghost state. -/
abbrev EP : Emb UP (MT nD τ sig (HIx 1) (Elt F) ℕ UU ℕ) := (Emb.inl : Emb UP (UP × Counters)).trans embR
instance EP_landsIn : (EP : Emb UP 𝕄).LandsIn (upEmb : UEmb _ 𝕄) := by unfold EP embR; infer_instance

/-! ## The body, run -/

abbrev Bf (c : Dev nD) {sp : Space} {Sh : Shape} {e : EltTy} (M : Memref sig .tc sp Sh e) : Type := Buf (Elt F) (M.view.loc (c : Thread nD τ))
abbrev pt (c : Dev nD) {sp : Space} {Sh : Shape} {e : EltTy} (M : Memref sig .tc sp Sh e) (f : Bf (F := F) c M) : sProp 𝕄 :=
  M.view.loc (c : Thread nD τ) ↦{fullShare} f

/-- The value the body stores, from the contents of the six input buffers as its loads read them. -/
abbrev outOf (c : Dev nD)
    (M0 : Memref sig .tc .vmem S16x256 .f32) (M1 : Memref sig .tc .vmem S256x64 .f32) (M2 : Memref sig .tc .vmem S64x64 .f32)
    (M3 : Memref sig .tc .vmem S1x64 .f32) (M4 : Memref sig .tc .vmem S8x64 .f32) (M5 : Memref sig .tc .vmem S1x8 .f32)
    (f0 : Bf (F := F) c M0) (f1 : Bf (F := F) c M1) (f2 : Bf (F := F) c M2) (f3 : Bf (F := F) c M3)
    (f4 : Bf (F := F) c M4) (f5 : Bf (F := F) c M5) : FVec F S1x8 .f32 :=
  k1_pay1 (View.readAt (Elt F) M0.view (Rect.unit (s := S16x256) ![0, 0] S16x256.size Facts₀.inb_S16x256_S16x256_0_0).toLoadRect f0)
    (View.readAt (Elt F) M1.view (Rect.unit (s := S256x64) ![0, 0] S256x64.size Facts₀.inb_S256x64_S256x64_0_0).toLoadRect f1)
    (View.readAt (Elt F) M2.view (Rect.unit (s := S64x64) ![0, 0] S64x64.size Facts₀.inb_S64x64_S64x64_0_0).toLoadRect f2)
    (View.readAt (Elt F) M3.view (Rect.unit (s := S1x64) ![0, 0] S1x64.size Facts₀.inb_S1x64_S1x64_0_0).toLoadRect f3)
    (View.readAt (Elt F) M4.view (Rect.unit (s := S8x64) ![0, 0] S8x64.size Facts₀.inb_S8x64_S8x64_0_0).toLoadRect f4)
    (View.readAt (Elt F) M5.view (Rect.unit (s := S1x8) ![0, 0] S1x8.size Facts₀.inb_S1x8_S1x8_0_0).toLoadRect f5)

/-- From the seven buffers held whole, the body runs to its return with the inputs as they were and the output
    rewritten, over all of it, with the value computed from the inputs. -/
theorem kernelRun (c : Dev nD)
    (M0 : Memref sig .tc .vmem S16x256 .f32) (h0 : M0.IsWhole) (M1 : Memref sig .tc .vmem S256x64 .f32) (h1 : M1.IsWhole)
    (M2 : Memref sig .tc .vmem S64x64 .f32) (h2 : M2.IsWhole) (M3 : Memref sig .tc .vmem S1x64 .f32) (h3 : M3.IsWhole)
    (M4 : Memref sig .tc .vmem S8x64 .f32) (h4 : M4.IsWhole) (M5 : Memref sig .tc .vmem S1x8 .f32) (h5 : M5.IsWhole)
    (M6 : Memref sig .tc .vmem S1x8 .f32) (h6 : M6.IsWhole)
    (f0 : Bf (F := F) c M0) (f1 : Bf (F := F) c M1) (f2 : Bf (F := F) c M2) (f3 : Bf (F := F) c M3)
    (f4 : Bf (F := F) c M4) (f5 : Bf (F := F) c M5) (f6 : Bf (F := F) c M6) (Q : PUnit → sProp 𝕄) :
    iprop(pt c M0 f0 ∗ pt c M1 f1 ∗ pt c M2 f2 ∗ pt c M3 f3 ∗ pt c M4 f4 ∗ pt c M5 f5 ∗ pt c M6 f6
      ∗ (iprop(pt c M0 f0 ∗ pt c M1 f1 ∗ pt c M2 f2 ∗ pt c M3 f3 ∗ pt c M4 f4 ∗ pt c M5 f5
          ∗ pt c M6 (M6.view.writes (Elt F) f6
              [⟨Rect.unit (s := S1x8) ![0, 0] S1x8.size Facts₀.inb_S1x8_S1x8_0_0, outOf c M0 M1 M2 M3 M4 M5 f0 f1 f2 f3 f4 f5⟩])) -∗ Q ⟨⟩))
    ⊢ wp frame (wpE (defs₀ (F := F)) Variants.none c none) Set.univ
        (cc1__mlp_body M0 h0 M1 h1 M2 h2 M3 h3 M4 h4 M5 h5 M6 h6) Q := by
  iintro ⟨H0, H1, H2, H3, H4, H5, H6, Hk⟩
  rw [cc1__mlp_body_eq_skeleton]
  unfold cc1__mlp_body_skel
  sl_exec
  sl_step
  iapply Hk
  isplitl [H0]; · iexact H0
  isplitl [H1]; · iexact H1
  isplitl [H2]; · iexact H2
  isplitl [H3]; · iexact H3
  isplitl [H4]; · iexact H4
  isplitl [H5]; · iexact H5
  iexact H6

/-! ## The call's proof data -/

/-- The arrays' contents when the call is entered, as buffers of core `c`. -/
abbrev Vb (V : Valuation τ sig (Elt F)) (c : Dev nD) (b : Ref sig .tc) : Buf (Elt F) ((c : Thread nD τ).loc b) := V (Proc.devRef .tc b)

/-- What window `w`'s fetch stages: its array's one block. -/
abbrev stg (V : Valuation τ sig (Elt F)) : (w : Fin 7) → (cfg1.win w).block.Idx → Elt F (cfg1.win w).elt
  | 0 => ((cfg1.win 0).blk t1_0).view.read (Elt F) (V (Proc.devRef .tc (Pipeline.arrRef spec1 0)))
  | 1 => ((cfg1.win 1).blk t1_0).view.read (Elt F) (V (Proc.devRef .tc (Pipeline.arrRef spec1 1)))
  | 2 => ((cfg1.win 2).blk t1_0).view.read (Elt F) (V (Proc.devRef .tc (Pipeline.arrRef spec1 2)))
  | 3 => ((cfg1.win 3).blk t1_0).view.read (Elt F) (V (Proc.devRef .tc (Pipeline.arrRef spec1 3)))
  | 4 => ((cfg1.win 4).blk t1_0).view.read (Elt F) (V (Proc.devRef .tc (Pipeline.arrRef spec1 4)))
  | 5 => ((cfg1.win 5).blk t1_0).view.read (Elt F) (V (Proc.devRef .tc (Pipeline.arrRef spec1 5)))
  | 6 => ((cfg1.win 6).blk t1_0).view.read (Elt F) (V (Proc.devRef .tc (Pipeline.arrRef spec1 6)))
  | ⟨_ + 7, h⟩ => absurd h (Nat.not_lt.2 (Nat.le_add_left _ _))

/-- The proof data on core `c`, entered with the arrays at `V`, the thread owing `O` with recorded pairs `W`: after the
    body an input's staging buffer holds its array's block and the output's the value computed from the six blocks;
    no invariant; the full share; the debts unchanged, the recorded pairs `W`'s or at the kernel's own index. -/
def dats (V : Valuation τ sig (Elt F)) (O : CellTallies nD τ sig (HIx 1)) (W : Waits sig (HIx 1)) (_ : Fin 1) (c : Dev nD) :
    Dat τ (Elt F) (HIx 1) ℕ UU ℕ cfg1 c where
  A w := Vb V c (Pipeline.arrRef spec1 w)
  after w _ := match w with
    | 0 => stg V 0
    | 1 => stg V 1
    | 2 => stg V 2
    | 3 => stg V 3
    | 4 => stg V 4
    | 5 => stg V 5
    | 6 => k1_pay1 (stg V 0) (stg V 1) (stg V 2) (stg V 3) (stg V 4) (stg V 5)
    | ⟨_ + 7, h⟩ => absurd h (Nat.not_lt.2 (Nat.le_add_left _ _))
  Φ _ := iprop(emp)
  q _ := fullShare
  owed _ := O
  recorded _ := {p | p ∈ W ∨ p.2 = none}

/-- The offsets of every access of the body are zero. -/
theorem off00 : (![0, 0] : Fin 2 → ℕ) = fun _ => 0 := by funext a; fin_cases a <;> rfl

/-- A load of all of a staging buffer reads its contents. -/
theorem rd0 (c : Dev nD) (f : Bf (F := F) c (stage1_0 0)) : View.readAt (Elt F) (stage1_0 0).view
    (Rect.unit (s := S16x256) ![0, 0] S16x256.size Facts₀.inb_S16x256_S16x256_0_0).toLoadRect f = f :=
  Memref.readAt_unit_zero (Elt F) cc1_stg0_0 off00 _ f
theorem rd1 (c : Dev nD) (f : Bf (F := F) c (stage1_1 0)) : View.readAt (Elt F) (stage1_1 0).view
    (Rect.unit (s := S256x64) ![0, 0] S256x64.size Facts₀.inb_S256x64_S256x64_0_0).toLoadRect f = f :=
  Memref.readAt_unit_zero (Elt F) cc1_stg1_0 off00 _ f
theorem rd2 (c : Dev nD) (f : Bf (F := F) c (stage1_2 0)) : View.readAt (Elt F) (stage1_2 0).view
    (Rect.unit (s := S64x64) ![0, 0] S64x64.size Facts₀.inb_S64x64_S64x64_0_0).toLoadRect f = f :=
  Memref.readAt_unit_zero (Elt F) cc1_stg2_0 off00 _ f
theorem rd3 (c : Dev nD) (f : Bf (F := F) c (stage1_3 0)) : View.readAt (Elt F) (stage1_3 0).view
    (Rect.unit (s := S1x64) ![0, 0] S1x64.size Facts₀.inb_S1x64_S1x64_0_0).toLoadRect f = f :=
  Memref.readAt_unit_zero (Elt F) cc1_stg3_0 off00 _ f
theorem rd4 (c : Dev nD) (f : Bf (F := F) c (stage1_4 0)) : View.readAt (Elt F) (stage1_4 0).view
    (Rect.unit (s := S8x64) ![0, 0] S8x64.size Facts₀.inb_S8x64_S8x64_0_0).toLoadRect f = f :=
  Memref.readAt_unit_zero (Elt F) cc1_stg4_0 off00 _ f
theorem rd5 (c : Dev nD) (f : Bf (F := F) c (stage1_5 0)) : View.readAt (Elt F) (stage1_5 0).view
    (Rect.unit (s := S1x8) ![0, 0] S1x8.size Facts₀.inb_S1x8_S1x8_0_0).toLoadRect f = f :=
  Memref.readAt_unit_zero (Elt F) cc1_stg5_0 off00 _ f

/-- At the staging buffers the stored value is the payload of their contents. -/
theorem outOf_stage (c : Dev nD) (f0 : Bf (F := F) c (stage1_0 0)) (f1 : Bf (F := F) c (stage1_1 0)) (f2 : Bf (F := F) c (stage1_2 0))
    (f3 : Bf (F := F) c (stage1_3 0)) (f4 : Bf (F := F) c (stage1_4 0)) (f5 : Bf (F := F) c (stage1_5 0)) :
    outOf c (stage1_0 0) (stage1_1 0) (stage1_2 0) (stage1_3 0) (stage1_4 0) (stage1_5 0) f0 f1 f2 f3 f4 f5
      = k1_pay1 f0 f1 f2 f3 f4 f5 := by
  dsimp only [outOf]
  rw [rd0, rd1, rd2, rd3, rd4, rd5]

/-- One store over all of a whole buffer, at zero offsets, leaves the stored value. -/
theorem writes_whole_unit_zero {κ : Kind} (b : Ref sig κ) (f : b.ty.Contents (Elt F)) {off : Fin b.ty.shape.rank → ℕ} (h : off = fun _ => 0)
    (inb : ∀ a, off a + b.ty.shape.size a ≤ b.ty.shape.size a) (v : b.ty.shape.Idx → Elt F b.ty.elt) :
    (View.whole b).writes (Elt F) f [⟨Rect.unit off b.ty.shape.size inb, v⟩] = v := by
  have e := View.read_writes_eq_canon (Val := Elt F) (View.whole b) f [⟨Rect.unit off b.ty.shape.size inb, v⟩]
    (fun y => ⟨_, List.mem_singleton_self _, View.mem_set_unit_zero h inb y⟩)
  rw [View.canon_unit_zero h inb v, View.read_whole] at e
  exact e

/-- One store over all of the output's staging buffer leaves the stored value. -/
theorem wr6 (c : Dev nD) (f6 : Bf (F := F) c (stage1_6 0)) (v : FVec F S1x8 .f32) :
    (stage1_6 0).view.writes (Elt F) f6 [⟨Rect.unit (s := S1x8) ![0, 0] S1x8.size Facts₀.inb_S1x8_S1x8_0_0, v⟩] = v :=
  writes_whole_unit_zero cc1_stg6_0 f6 off00 _ v

/-- An input's staging buffer holds its array's block when the body runs. -/
theorem before_in0 (V : Valuation τ sig (Elt F)) (O : CellTallies nD τ sig (HIx 1)) (W : Waits sig (HIx 1)) (c : Dev nD) (d) :
    (dats V O W 0 c).before 0 t1_0 d = stg V 0 := by unfold Dat.before; rw [if_pos (fetch1_0 t1_0)]; rfl
theorem before_in1 (V : Valuation τ sig (Elt F)) (O : CellTallies nD τ sig (HIx 1)) (W : Waits sig (HIx 1)) (c : Dev nD) (d) :
    (dats V O W 0 c).before 1 t1_0 d = stg V 1 := by unfold Dat.before; rw [if_pos (fetch1_1 t1_0)]; rfl
theorem before_in2 (V : Valuation τ sig (Elt F)) (O : CellTallies nD τ sig (HIx 1)) (W : Waits sig (HIx 1)) (c : Dev nD) (d) :
    (dats V O W 0 c).before 2 t1_0 d = stg V 2 := by unfold Dat.before; rw [if_pos (fetch1_2 t1_0)]; rfl
theorem before_in3 (V : Valuation τ sig (Elt F)) (O : CellTallies nD τ sig (HIx 1)) (W : Waits sig (HIx 1)) (c : Dev nD) (d) :
    (dats V O W 0 c).before 3 t1_0 d = stg V 3 := by unfold Dat.before; rw [if_pos (fetch1_3 t1_0)]; rfl
theorem before_in4 (V : Valuation τ sig (Elt F)) (O : CellTallies nD τ sig (HIx 1)) (W : Waits sig (HIx 1)) (c : Dev nD) (d) :
    (dats V O W 0 c).before 4 t1_0 d = stg V 4 := by unfold Dat.before; rw [if_pos (fetch1_4 t1_0)]; rfl
theorem before_in5 (V : Valuation τ sig (Elt F)) (O : CellTallies nD τ sig (HIx 1)) (W : Waits sig (HIx 1)) (c : Dev nD) (d) :
    (dats V O W 0 c).before 5 t1_0 d = stg V 5 := by unfold Dat.before; rw [if_pos (fetch1_5 t1_0)]; rfl

theorem body_obligation (V : Valuation τ sig (Elt F)) (O : CellTallies nD τ sig (HIx 1)) (W : Waits sig (HIx 1)) (c : Dev nD) :
    BodyObligation (dats V O W 0 c) (defs₀ (F := F)) 𝒱₀ none Set.univ := fun t => by
  obtain rfl := fin_N1 t
  rw [bigSep_W1, bigSep_W1]
  simp only [owns_whole_eq]
  rw [show (dats V O W 0 c).Φ t1_0.castSucc = iprop(emp) from rfl, show (dats V O W 0 c).Φ t1_0.succ = iprop(emp) from rfl]
  unfold Dat.owesAt Pipeline.owesWithin
  iintro ⟨-, ⟨%W', %hW, HO⟩, ⟨%d0, %f0, %hf0, H0⟩, ⟨%d1, %f1, %hf1, H1⟩, ⟨%d2, %f2, %hf2, H2⟩, ⟨%d3, %f3, %hf3, H3⟩,
    ⟨%d4, %f4, %hf4, H4⟩, ⟨%d5, %f5, %hf5, H5⟩, ⟨%d6, %f6, %hf6, H6⟩⟩
  iapply (kernelRun c (stage1_0 0) (Facts₀.hstage1_0 0) (stage1_1 0) (Facts₀.hstage1_1 0) (stage1_2 0) (Facts₀.hstage1_2 0)
    (stage1_3 0) (Facts₀.hstage1_3 0) (stage1_4 0) (Facts₀.hstage1_4 0) (stage1_5 0) (Facts₀.hstage1_5 0) (stage1_6 0) (Facts₀.hstage1_6 0)
    f0 f1 f2 f3 f4 f5 f6)
  isplitl [H0]; · iexact H0
  isplitl [H1]; · iexact H1
  isplitl [H2]; · iexact H2
  isplitl [H3]; · iexact H3
  isplitl [H4]; · iexact H4
  isplitl [H5]; · iexact H5
  isplitl [H6]; · iexact H6
  iintro ⟨H0, H1, H2, H3, H4, H5, H6⟩
  rw [outOf_stage, wr6]
  rw [before_in0] at hf0; rw [before_in1] at hf1; rw [before_in2] at hf2
  rw [before_in3] at hf3; rw [before_in4] at hf4; rw [before_in5] at hf5
  subst hf0 hf1 hf2 hf3 hf4 hf5
  isplitr; · iempintro
  isplitl [HO]
  · iexists W'; isplitr; · ipureintro; exact hW
    iexact HO
  isplitl [H0]; · iexists _; isplitr; swap; (· iexact H0); ipureintro; rfl
  isplitl [H1]; · iexists _; isplitr; swap; (· iexact H1); ipureintro; rfl
  isplitl [H2]; · iexists _; isplitr; swap; (· iexact H2); ipureintro; rfl
  isplitl [H3]; · iexists _; isplitr; swap; (· iexact H3); ipureintro; rfl
  isplitl [H4]; · iexists _; isplitr; swap; (· iexact H4); ipureintro; rfl
  isplitl [H5]; · iexists _; isplitr; swap; (· iexact H5); ipureintro; rfl
  iexists _; isplitr; swap; (· iexact H6); ipureintro; rfl

end Cert.HistIdeal

end
-- ==== Proof.TcTail.lean ====
/-
  The tail of the program on the TensorCore: two reshapes, the matrix-unit call, one reshape.

  The tail is run as three segments. The reshapes are host operations over the eleven arrays the thread holds whole. The
  call is a region of one grid point whose seven windows are whole arrays: six operands staged in, the body run on the
  staging buffers, the result written back. Entering it, the seven windowed arrays go to the pipeline at the contents
  the reshapes left and the other four bypass it; leaving it, the result array holds what the write-back wrote and
  everything else what it held. The thread's debts ride along unchanged: the staging cells wait at the kernel's own
  index, which sits below every debt, and the waits record pairs at that index only.
-/
import proofs.«201856_g16750372454438_cont_week2b_1124_27_alg».proof.Proof.TcBody

noncomputable section

namespace Cert.HistIdeal

open Cert.KernelIdeal Cert.KernelIdeal.Gen

open Idealize.ShloMosaic
open Idealize.ShloMosaic.TcCoe Idealize.ShloMosaic.Tactic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-! ## The tail of the program: two reshapes, the matrix-unit call, one reshape -/

abbrev op1 : HloOp τ sig (Elt F) := StableHlo.reshape main_arg3 main_v1 rfl Facts₀.shapeCasts_S64_S1x64
abbrev op2 : HloOp τ sig (Elt F) := StableHlo.reshape main_arg5 main_v2 rfl Facts₀.shapeCasts_S8_S1x8
abbrev op3 : HloOp τ sig (Elt F) := StableHlo.reshape main_v3 main_v4 rfl Facts₀.shapeCasts_S1x8_S8

/-- What the program runs after the histogram kernel, at the matrix-unit call's label signature. -/
def tailProg : Prog (TpuEff nD τ sig (Elt F) (ΛP (F := F)) .tc) PUnit := do
  hlo rfl (op1 : HloOp τ sig (Elt F)) (fun _ => .ret ⟨⟩)
  hlo rfl (op2 : HloOp τ sig (Elt F)) (fun _ => .ret ⟨⟩)
  Prog.lift (.customCall (Pipeline.entry 0) ())
  hlo rfl (op3 : HloOp τ sig (Elt F)) (fun _ => .ret ⟨⟩)
  pure ⟨⟩

theorem main_eq (d : Dev nD) :
    Cert.KernelIdeal.main (F := F) d = (K (F := F)).run d 0 >>= fun _ => SparseCore.liftProg (tailProg (F := F)) := rfl

/-- The TensorCore's eleven arrays. -/
def S11 : Finset (DevRef τ sig) :=
  {Proc.devRef .tc main_arg0, Proc.devRef .tc main_arg1, Proc.devRef .tc main_arg2, Proc.devRef .tc main_arg3,
   Proc.devRef .tc main_arg4, Proc.devRef .tc main_arg5, Proc.devRef .tc main_v0, Proc.devRef .tc main_v1,
   Proc.devRef .tc main_v2, Proc.devRef .tc main_v3, Proc.devRef .tc main_v4}

/-- Array `b` of core `c` held whole at contents `f`. -/
abbrev ptb (c : Dev nD) (b : Ref sig .tc) (f : Buf (Elt F) ((c : Thread nD τ).loc b)) : sProp 𝕄 := ((c : Thread nD τ).loc b) ↦{fullShare} f

theorem held_S11 (c : Dev nD) (Wv : Valuation τ sig (Elt F)) : (StableHlo.held (c : Thread nD τ) S11 Wv : sProp 𝕄)
    = iprop(ptb c main_arg0 (Wv (Proc.devRef .tc main_arg0)) ∗ ptb c main_arg1 (Wv (Proc.devRef .tc main_arg1)) ∗ ptb c main_arg2 (Wv (Proc.devRef .tc main_arg2))
      ∗ ptb c main_arg3 (Wv (Proc.devRef .tc main_arg3)) ∗ ptb c main_arg4 (Wv (Proc.devRef .tc main_arg4)) ∗ ptb c main_arg5 (Wv (Proc.devRef .tc main_arg5))
      ∗ ptb c main_v0 (Wv (Proc.devRef .tc main_v0)) ∗ ptb c main_v1 (Wv (Proc.devRef .tc main_v1)) ∗ ptb c main_v2 (Wv (Proc.devRef .tc main_v2))
      ∗ ptb c main_v3 (Wv (Proc.devRef .tc main_v3)) ∗ ptb c main_v4 (Wv (Proc.devRef .tc main_v4))) := by
  unfold StableHlo.held S11
  rw [bigSep_eq_bigSepL_of_eq [Proc.devRef .tc main_arg0, Proc.devRef .tc main_arg1, Proc.devRef .tc main_arg2, Proc.devRef .tc main_arg3,
   Proc.devRef .tc main_arg4, Proc.devRef .tc main_arg5, Proc.devRef .tc main_v0, Proc.devRef .tc main_v1,
   Proc.devRef .tc main_v2, Proc.devRef .tc main_v3, Proc.devRef .tc main_v4] (by decide) (by decide)]
  rfl

/-! ## The thread states and the segments -/

abbrev Lh : GSem nD τ sig → Finset (HIx 1) := (K (F := F)).L
abbrev lvh : GSem nD τ sig → HIx 1 → ℕ := (K (F := F)).lev
/-- No pipeline has a prefetched table. -/
abbrev adm : (p : Fin 1) → (pcfgs (F := F) p).Adm := fun p => (cfgs p).toPCfg_adm

/-- What rides beside the arrays: the thread's debts, its recorded pairs those of `W` or at the kernel's own index. -/
abbrev Rr (O : CellTallies nD τ sig (HIx 1)) (W : Waits sig (HIx 1)) (c : Dev nD) : sProp 𝕄 :=
  iprop(∃ W', ⌜∀ p ∈ W', p ∈ W ∨ p.2 = none⌝ ∗ owes (c : Thread nD τ) O W')

/-- The arrays when the call is entered: the two reshapes have run. -/
abbrev V1 (Vl : Valuation τ sig (Elt F)) : Valuation τ sig (Elt F) := StableHlo.after [op1, op2] Vl

/-- What the call's write-back leaves in the result array, from the arrays at its entry. -/
def out3 (V : Valuation τ sig (Elt F)) : (Proc.devRef (τ := τ) .tc main_v3).ty.Contents (Elt F) :=
  ((cfg1.win 6).blk t1_0).view.write (Elt F) (V (Proc.devRef .tc main_v3))
    (k1_pay1 (stg V 0) (stg V 1) (stg V 2) (stg V 3) (stg V 4) (stg V 5)) Finset.univ

/-- The arrays after the call. -/
abbrev V3 (Vl : Valuation τ sig (Elt F)) : Valuation τ sig (Elt F) :=
  Function.update (V1 Vl) (Proc.devRef .tc main_v3) (out3 (V1 Vl))

/-- The arrays after the tail. -/
def tailVal (Vl : Valuation τ sig (Elt F)) : Valuation τ sig (Elt F) := StableHlo.after [op3] (V3 Vl)

theorem ops12_sub : ∀ op ∈ [(op1 : HloOp τ sig (Elt F)), op2], op.bufs ⊆ S11 := fun op h => by
  simp only [List.mem_cons, List.mem_nil_iff, or_false] at h
  rcases h with rfl | rfl
  · show ({Proc.devRef .tc main_arg3, Proc.devRef .tc main_v1} : Finset (DevRef τ sig)) ⊆ S11; decide
  · show ({Proc.devRef .tc main_arg5, Proc.devRef .tc main_v2} : Finset (DevRef τ sig)) ⊆ S11; decide
theorem ops3_sub : ∀ op ∈ [(op3 : HloOp τ sig (Elt F))], op.bufs ⊆ S11 := fun op h => by
  simp only [List.mem_singleton] at h; subst h
  show ({Proc.devRef .tc main_v3, Proc.devRef .tc main_v4} : Finset (DevRef τ sig)) ⊆ S11; decide
theorem ops12_fresh : ∀ op ∈ [(op1 : HloOp τ sig (Elt F)), op2], op.fresh = ∅ := fun op h => by
  simp only [List.mem_cons, List.mem_nil_iff, or_false] at h
  rcases h with rfl | rfl <;> rfl
theorem ops3_fresh : ∀ op ∈ [(op3 : HloOp τ sig (Elt F))], op.fresh = ∅ := fun op h => by
  simp only [List.mem_singleton] at h; subst h; rfl

local notation "ℍ" => Pipeline.HostSeg (Name := ℕ) (U := UU) (pcfgs (F := F)) defs₀ 𝒱₀ (Lh (F := F)) (lvh (F := F))

/-- The two reshapes before the call. -/
def seg0 (Vl : Valuation τ sig (Elt F)) (O : CellTallies nD τ sig (HIx 1)) (W : Waits sig (HIx 1)) : ℍ :=
  Pipeline.HostSeg.ofOps _ _ _ _ _ S11 [op1, op2] ops12_sub ops12_fresh (fun _ => Vl) (Rr O W)

/-- The reshape after it. -/
def seg2 (Vl : Valuation τ sig (Elt F)) (O : CellTallies nD τ sig (HIx 1)) (W : Waits sig (HIx 1)) : ℍ :=
  Pipeline.HostSeg.ofOps _ _ _ _ _ S11 [op3] ops3_sub ops3_fresh (fun _ => V3 Vl) (Rr O W)

/-- The arrays the call does not stage. -/
abbrev Zr (Vl : Valuation τ sig (Elt F)) (c : Dev nD) : sProp 𝕄 :=
  iprop(ptb c main_arg0 (V1 Vl (Proc.devRef .tc main_arg0)) ∗ ptb c main_arg3 (V1 Vl (Proc.devRef .tc main_arg3))
    ∗ ptb c main_arg5 (V1 Vl (Proc.devRef .tc main_arg5)) ∗ ptb c main_v4 (V1 Vl (Proc.devRef .tc main_v4)))

theorem V3_ne (Vl : Valuation τ sig (Elt F)) (b : Ref sig .tc) (h : Proc.devRef (τ := τ) .tc b ≠ Proc.devRef .tc main_v3) :
    V3 Vl (Proc.devRef .tc b) = V1 Vl (Proc.devRef .tc b) := Function.update_of_ne h _ _
theorem V3_v3 (Vl : Valuation τ sig (Elt F)) : V3 Vl (Proc.devRef .tc main_v3) = out3 (V1 Vl) := Function.update_self ..

/-- The write-back at the one point leaves the result array at `out3`. -/
theorem arrAt6 (V : Valuation τ sig (Elt F)) (O : CellTallies nD τ sig (HIx 1)) (W : Waits sig (HIx 1)) (c : Dev nD) :
    (dats V O W 0 c).arrAt 6 cfg1.N = out3 V := by
  show (dats V O W 0 c).arrAt 6 (0 + 1) = out3 V
  unfold Dat.arrAt
  simp only [Dat.arrAt]
  rw [dif_pos (by decide : 0 < cfg1.N), if_pos (flush1_6 _)]
  rfl

set_option maxHeartbeats 1600000 in
/-- The matrix-unit call as a region of the tail: the generated layout, no semaphore of its own, the body obligation, the
    wait evidence from the level facts (the staging cells wait at the kernel's own index, below every debt); entered from
    the eleven arrays after the two reshapes — seven staged, four bypassing — and left with the result array rewritten. -/
def reg (Vl : Valuation τ sig (Elt F)) (O : CellTallies nD τ sig (HIx 1)) (W : Waits sig (HIx 1)) (hO : ∀ g, O g none = 0) :
    Pipeline.RegionSeg (pcfgs (F := F)) adm (dats (V1 Vl) O W) none defs₀ 𝒱₀ (Lh (F := F)) (lvh (F := F)) 0 where
  win := launch1.win.to₀
  block_pos := launch1.block_pos
  stage_whole := launch1.stage_whole
  K := PEmpty
  osem k := k.elim
  ho := Pipeline.OwnSemFacts.none _
  hbody c := (body_obligation (V1 Vl) O W c).loose
  hwaits c := Pipeline.cellsWaits_intro _ _ _ 0 c fun w s t => (K (F := F)).mayWait_none _ hO
  pre c := iprop(StableHlo.held (c : Thread nD τ) S11 (V1 Vl) ∗ Rr O W c)
  post c := iprop(StableHlo.held (c : Thread nD τ) S11 (V3 Vl) ∗ Rr O W c)
  X _ := iprop(emp)
  Y _ := iprop(emp)
  Z c := Zr Vl c
  hentry c := by
    rw [held_S11, Pipeline.ownSems0_none,
      Pipeline.arrays_eq _ (dats (V1 Vl) O W) 0 c launch1.arr_whole ((dats (V1 Vl) O W 0 c).share_full fun _ => rfl), bigSep_W1]
    iintro ⟨⟨⟨Ha0, Ha1, Ha2, Ha3, Ha4, Ha5, Hv0, Hv1, Hv2, Hv3, Hv4⟩, HO⟩, -, -⟩
    imodintro
    isplitl [Ha1 Ha2 Ha4 Hv0 Hv1 Hv2 Hv3]
    · isplitl [Hv0]; · iexact Hv0
      isplitl [Ha1]; · iexact Ha1
      isplitl [Ha2]; · iexact Ha2
      isplitl [Hv1]; · iexact Hv1
      isplitl [Ha4]; · iexact Ha4
      isplitl [Hv2]; · iexact Hv2
      iexact Hv3
    isplitr
    · unfold Pipeline.prefHeld; rw [show (Finset.univ : Finset (Fin 0)) = ∅ from rfl, BI.bigSep_empty]; iempintro
    isplitl [HO]
    · unfold Pipeline.Dat.owesAt Pipeline.owesWithin
      icases HO with ⟨%W', %hW', HO⟩
      iexists W'; isplitr; · ipureintro; exact fun p hp => Or.inl (hW' p hp)
      iexact HO
    isplitr; · iempintro
    isplitl [Ha0]; · iexact Ha0
    isplitl [Ha3]; · iexact Ha3
    isplitl [Ha5]; · iexact Ha5
    iexact Hv4
  hin c := by
    iintro -; iempintro
  hout c := by
    rw [Pipeline.ownSems0_none, scopedRest1_eq]
    iintro -
    isplitr; · iempintro
    isplitr <;> iempintro
  hexit c := by
    rw [held_S11, Pipeline.arrays_eq _ (dats (V1 Vl) O W) 0 c launch1.arr_whole ((dats (V1 Vl) O W 0 c).share_full fun _ => rfl), bigSep_W1,
      (dats (V1 Vl) O W 0 c).arrAt_in 0 rfl, (dats (V1 Vl) O W 0 c).arrAt_in 1 rfl, (dats (V1 Vl) O W 0 c).arrAt_in 2 rfl,
      (dats (V1 Vl) O W 0 c).arrAt_in 3 rfl, (dats (V1 Vl) O W 0 c).arrAt_in 4 rfl, (dats (V1 Vl) O W 0 c).arrAt_in 5 rfl,
      arrAt6,
      V3_ne Vl main_arg0 (by decide), V3_ne Vl main_arg1 (by decide), V3_ne Vl main_arg2 (by decide), V3_ne Vl main_arg3 (by decide),
      V3_ne Vl main_arg4 (by decide), V3_ne Vl main_arg5 (by decide), V3_ne Vl main_v0 (by decide), V3_ne Vl main_v1 (by decide),
      V3_ne Vl main_v2 (by decide), V3_v3, V3_ne Vl main_v4 (by decide)]
    iintro ⟨⟨Hv0, Ha1, Ha2, Hv1, Ha4, Hv2, Hv3⟩, HO, -, ⟨Ha0, Ha3, Ha5, Hv4⟩⟩
    imodintro
    isplitr [HO]
    · isplitl [Ha0]; · iexact Ha0
      isplitl [Ha1]; · iexact Ha1
      isplitl [Ha2]; · iexact Ha2
      isplitl [Ha3]; · iexact Ha3
      isplitl [Ha4]; · iexact Ha4
      isplitl [Ha5]; · iexact Ha5
      isplitl [Hv0]; · iexact Hv0
      isplitl [Hv1]; · iexact Hv1
      isplitl [Hv2]; · iexact Hv2
      isplitl [Hv3]; · iexact Hv3
      iexact Hv4
    · unfold Pipeline.Dat.owesAt Pipeline.owesWithin
      icases HO with ⟨%W', %hW', HO⟩
      iexists W'; isplitr
      · ipureintro
        intro p hp
        rcases hW' hp with h | ⟨w, s, rfl⟩
        · exact h
        · exact Or.inr rfl
      iexact HO

/-- The tail as the list of its three segments. -/
abbrev segs (Vl : Valuation τ sig (Elt F)) (O : CellTallies nD τ sig (HIx 1)) (W : Waits sig (HIx 1)) (hO : ∀ g, O g none = 0) :
    List (Pipeline.Seg (pcfgs (F := F)) adm (dats (V1 Vl) O W) none defs₀ 𝒱₀ (Lh (F := F)) (lvh (F := F))) :=
  [.host (seg0 Vl O W), .region (reg Vl O W hO), .host (seg2 Vl O W)]

theorem tail_eq (Vl : Valuation τ sig (Elt F)) (O : CellTallies nD τ sig (HIx 1)) (W : Waits sig (HIx 1)) (hO : ∀ g, O g none = 0) :
    tailProg (F := F) = Pipeline.Seg.run (segs Vl O W hO) := by
  simp only [tailProg, segs, Pipeline.Seg.run, seg0, seg2, Pipeline.HostSeg.ofOps, StableHlo.seq, Prog.lift, Prog.bind_op, Prog.bind_ret,
    bind_pure_comp]
  rfl

/-- The tail, run: from the region boundary, the eleven arrays at `Vl`, the thread's debts, the level facts and the call's
    launch ghost state, the tail runs to the boundary, the arrays at `tailVal Vl`, and the debts unchanged with only
    pairs at the kernel's own index recorded beside `W`'s. -/
theorem tail_wp (d : Dev nD) (Vl : Valuation τ sig (Elt F)) (O : CellTallies nD τ sig (HIx 1)) (W : Waits sig (HIx 1))
    (hO : ∀ g, O g none = 0) :
    iprop(boundary (T d) ∗ StableHlo.held (T d) S11 Vl ∗ owes (T d) O W ∗ levAts (Lh (F := F)) (lvh (F := F))
        ∗ Pipeline.cellsGhost (Pipeline.pin (pcfgs (F := F)) adm) EP 0 d ∗ Pipeline.toksInit (Pipeline.pin (pcfgs (F := F)) adm) EP 0 d)
      ⊢ wp frame (wpE (D (F := F)) 𝒱 (T d) none) Set.univ (tailProg (F := F)) fun _ =>
          (iprop(boundary (T d) ∗ StableHlo.held (T d) S11 (tailVal Vl) ∗ ∃ W', ⌜∀ p ∈ W', p ∈ W ∨ p.2 = none⌝ ∗ owes (T d) O W') : sProp 𝕄) := by
  rw [tail_eq Vl O W hO]
  have h := Pipeline.wp_segs (pcfgs (F := F)) adm (dats (V1 Vl) O W) none cellOf_inj EP defs₀ 𝒱₀ (Lh (F := F)) (lvh (F := F)) d
    (Q := fun _ => (iprop(boundary (T d) ∗ StableHlo.held (T d) S11 (tailVal Vl) ∗ ∃ W', ⌜∀ p ∈ W', p ∈ W ∨ p.2 = none⌝ ∗ owes (T d) O W') : sProp 𝕄))
    (segs Vl O W hO) {0}
    (fun c => iprop(StableHlo.held (c : Thread nD τ) S11 Vl ∗ Rr O W c))
    (fun c => iprop(StableHlo.held (c : Thread nD τ) S11 (tailVal Vl) ∗ Rr O W c))
    (by simp only [segs, Pipeline.Seg.pipes_host, Pipeline.Seg.pipes_region, Pipeline.Seg.pipes_nil]; decide)
    (by simp only [segs, Pipeline.Seg.pipes_host, Pipeline.Seg.pipes_region, Pipeline.Seg.pipes_nil]; decide)
    ⟨fun _ => .rfl, fun _ => .rfl, fun _ => .rfl, fun _ => .rfl⟩
  refine BIBase.Entails.trans ?_ h
  iintro ⟨Hbd, Hh, HO, Hla, Hcg, Hti⟩
  isplitr [Hbd Hh HO Hla Hcg Hti]
  · iintro ⟨Hbd, Hh, HR⟩
    isplitl [Hbd]; · iexact Hbd
    isplitl [Hh]; · iexact Hh
    iexact HR
  isplitl [Hbd]; · iexact Hbd
  isplitl [Hh HO]
  · isplitl [Hh]; · iexact Hh
    iexists W; isplitr; · ipureintro; exact fun p hp => Or.inl hp
    iexact HO
  isplitl [Hla]; · iexact Hla
  unfold Pipeline.ghostOn Pipeline.PerCore.ghostOn
  rw [BI.bigSep_singleton]
  isplitl [Hcg] <;> iassumption

end Cert.HistIdeal

end
-- ==== Proof.LaunchElem.lean ====
/-
  The launch element of the ghost state: the launch's handshakes take the left component; the middle one funds, per
  device, the launch state of the matrix-unit call's seven staging cells and the tokens of its seven transfers; the
  local copies' counters start at the unit. The histogram kernel keeps no ghost state of its own.
-/
import proofs.«201856_g16750372454438_cont_week2b_1124_27_alg».proof.Proof.Launch
import proofs.«201856_g16750372454438_cont_week2b_1124_27_alg».proof.Proof.TcTail

noncomputable section

namespace Cert.HistIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "idsW" => (Memref.whole Cert.KernelIdeal.main_arg0_scv : Memref Cert.KernelIdeal.sig Kind.scVector Space.hbm Cert.KernelIdeal.S8192 EltTy.i32)
local notation "outW" => (Memref.whole Cert.KernelIdeal.main_v0_scv : Memref Cert.KernelIdeal.sig Kind.scVector Space.hbm Cert.KernelIdeal.S16x256 EltTy.f32)
local notation "sIds" => (Memref.whole Cert.KernelIdeal.cc0_scratch0 : Memref Cert.KernelIdeal.sig Kind.scVector Space.vmem Cert.KernelIdeal.S512 EltTy.i32)
local notation "sCnt" => (Memref.whole Cert.KernelIdeal.cc0_scratch1 : Memref Cert.KernelIdeal.sig Kind.scVector Space.vmem Cert.KernelIdeal.S256 EltTy.f32)

variable (m : (ℓ : Loc nD τ sig) → Buf (Elt F) ℓ)
variable [FloatOps F]

def u₀ : UU :=
  (initOf (K (F := F)).hsCells (K (F := F)).hsToks, (initOf (Pipeline.cells (Pipeline.pin (pcfgs (F := F)) adm) cellOf_inj) (Pipeline.launchToks (Pipeline.pin (pcfgs (F := F)) adm) cellOf_inj), 1))

/-- What @main's proof starts from on device `d`, beside what the launch deals it: the staging cells' launch state. -/
abbrev G (d : Dev nD) : sProp 𝕄 := iprop(Pipeline.cellsGhost (Pipeline.pin (pcfgs (F := F)) adm) EP 0 d ∗ Pipeline.toksInit (Pipeline.pin (pcfgs (F := F)) adm) EP 0 d)

omit [FloatOps F] in
theorem bigSep_emp' {I : Type} (s : Finset I) : (bigSep s fun _ => iprop(emp)) = (iprop(emp) : sProp 𝕄) := bigSep_emp_const s

omit [FloatOps F] in
theorem own_EP (b : UP) : (BI.own ((embR : Emb (UP × Counters) 𝕄) (b, 1)) : sProp 𝕄) = BI.own (EP (F := F) b) := rfl

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m).x q thr) := by
  have e1 : (bigSep Finset.univ fun c : Dev nD => bigSep Finset.univ fun p : Fin 1 => (Pipeline.cellsGhost (Pipeline.pin (pcfgs (F := F)) adm) EP p c : sProp 𝕄))
      = bigSep Finset.univ fun c : Dev nD => (Pipeline.cellsGhost (Pipeline.pin (pcfgs (F := F)) adm) EP 0 c : sProp 𝕄) :=
    bigSep_congr fun c _ => bigSep_univ_of_subsingleton (0 : Fin 1)
  have e2 : (bigSep Finset.univ fun c : Dev nD => bigSep Finset.univ fun p : Fin 1 => (Pipeline.toksInit (Pipeline.pin (pcfgs (F := F)) adm) EP p c : sProp 𝕄))
      = bigSep Finset.univ fun c : Dev nD => (Pipeline.toksInit (Pipeline.pin (pcfgs (F := F)) adm) EP 0 c : sProp 𝕄) :=
    bigSep_congr fun c _ => bigSep_univ_of_subsingleton (0 : Fin 1)
  unfold u₀
  iintro Hu
  ihave H := (ownU_pair _ _) $$ Hu
  icases H with ⟨HH, HP⟩
  ihave HP2 := (Entails.of_eq (own_EP (F := F) _)) $$ HP
  imod (Pipeline.fund_ghost (Pipeline.pin (pcfgs (F := F)) adm) (EP (F := F)) cellOf_inj) $$ HP2 with ⟨Hg, Ht⟩
  imodintro
  isplitl [HH]; · iexact HH
  isplitl [Hg Ht]
  · unfold G; rw [bigSep_sep', ← e1, ← e2]
    isplitl [Hg]; · iexact Hg
    iexact Ht
  · unfold P; dsimp only
    rw [show (bigSep Finset.univ fun _ : Thread nD τ => bigSep Finset.univ fun _ : Fin 1 => (iprop(emp) : sProp 𝕄)) = iprop(emp) from by
      rw [bigSep_congr fun _ _ => bigSep_emp' _, bigSep_emp']]
    iempintro

end Cert.HistIdeal

end
-- ==== Proof.HeldRead.lean ====
/-
  Arrays held whole read the final memory: if a thread holds a set of its device's arrays, each whole, at contents `V`,
  then the memory the logic speaks of holds `V` at every one of them.
-/
import proofs.«201856_g16750372454438_cont_week2b_1124_27_alg».proof.Proof.Common

noncomputable section

namespace Cert.HistIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "idsW" => (Memref.whole Cert.KernelIdeal.main_arg0_scv : Memref Cert.KernelIdeal.sig Kind.scVector Space.hbm Cert.KernelIdeal.S8192 EltTy.i32)
local notation "outW" => (Memref.whole Cert.KernelIdeal.main_v0_scv : Memref Cert.KernelIdeal.sig Kind.scVector Space.hbm Cert.KernelIdeal.S16x256 EltTy.f32)
local notation "sIds" => (Memref.whole Cert.KernelIdeal.cc0_scratch0 : Memref Cert.KernelIdeal.sig Kind.scVector Space.vmem Cert.KernelIdeal.S512 EltTy.i32)
local notation "sCnt" => (Memref.whole Cert.KernelIdeal.cc0_scratch1 : Memref Cert.KernelIdeal.sig Kind.scVector Space.vmem Cert.KernelIdeal.S256 EltTy.f32)

open Idealize.ShloMosaic.StableHlo (held)

theorem held_read (thr : Thread nD τ) (V : Valuation τ sig (Elt F)) (s' : Phys nD τ sig (Elt F)) (S : Finset (DevRef τ sig)) :
    iprop(held thr S V ∗ SI s') ⊢ (⌜∀ b ∈ S, s'.mem.mem (thr.1, b) = V b⌝ : sProp 𝕄) := by
  classical
  induction S using Finset.induction_on with
  | empty =>
    iintro -; ipureintro; intro b hb; exact absurd hb (Finset.notMem_empty _)
  | insert a S ha ih =>
    unfold held at ih ⊢
    rw [SparseCore.bigSep_insert' ha]
    iintro ⟨⟨Ha, HS⟩, HSI⟩
    ihave H := (persistent_entails_right (SI_pointsTo_agree (st := s') (ℓ := ((thr.1, a) : Loc nD τ sig)) (I := Finset.univ) (q := fullShare) (f := V a))) $$ [HSI Ha]
    · isplitl [HSI] <;> iassumption
    icases H with ⟨%h1, HSI, -⟩
    ihave H2 := ih $$ [HS HSI]
    · isplitl [HS] <;> iassumption
    icases H2 with %h2
    ipureintro; intro b hb
    rcases Finset.mem_insert.mp hb with rfl | hb
    · exact funext fun i => h1 i (Finset.mem_univ i)
    · exact h2 b hb

end Cert.HistIdeal

end
-- ==== Proof.Main.lean ====
/-
  The whole program's run. On each device the TensorCore starts the histogram call and waits for it — the index list
  and the result array go to the SparseCore's sixteen workers and come back, the array at the workers' counts — and then
  runs the tail of @main: two reshapes, the matrix-unit call, one more reshape. Every weakly fair execution of the
  thirty-five threads terminates without a fault, with the eleven arrays at the tail's values of the launch contents
  and the counts: in particular the six argument arrays as they were.
-/
import proofs.«201856_g16750372454438_cont_week2b_1124_27_alg».proof.Proof.LaunchElem
import proofs.«201856_g16750372454438_cont_week2b_1124_27_alg».proof.Proof.HeldRead
import proofs.«201856_g16750372454438_cont_week2b_1124_27_alg».proof.Proof.TcTail

noncomputable section

namespace Cert.HistIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "idsW" => (Memref.whole Cert.KernelIdeal.main_arg0_scv : Memref Cert.KernelIdeal.sig Kind.scVector Space.hbm Cert.KernelIdeal.S8192 EltTy.i32)
local notation "outW" => (Memref.whole Cert.KernelIdeal.main_v0_scv : Memref Cert.KernelIdeal.sig Kind.scVector Space.hbm Cert.KernelIdeal.S16x256 EltTy.f32)
local notation "sIds" => (Memref.whole Cert.KernelIdeal.cc0_scratch0 : Memref Cert.KernelIdeal.sig Kind.scVector Space.vmem Cert.KernelIdeal.S512 EltTy.i32)
local notation "sCnt" => (Memref.whole Cert.KernelIdeal.cc0_scratch1 : Memref Cert.KernelIdeal.sig Kind.scVector Space.vmem Cert.KernelIdeal.S256 EltTy.f32)

open Idealize.ShloMosaic.StableHlo (held)

variable (m : (ℓ : Loc nD τ sig) → Buf (Elt F) ℓ) (ρ : Dev nD → PrngReg)
variable [FloatOps F]

theorem st0_eq (d : Dev nD) : (bigSep Finset.univ fun c : Fin ((K (F := F)).nCore 0) => (P m).st 0 d c) = iprop(idsPts m d ∗ outPts d (m (outLoc d))) :=
  bigSep_univ_of_subsingleton (0 : Fin 1)
theorem dn0_eq (d : Dev nD) : (bigSep Finset.univ fun c : Fin ((K (F := F)).nCore 0) => (P m).dn 0 d c)
    = iprop(idsPts m d ∗ ∃ f, ⌜∀ i, RowOK (F := F) m d i f⌝ ∗ outPts d f) :=
  bigSep_univ_of_subsingleton (0 : Fin 1)

/-- The launch valuation; after the call, the result array at what the workers left. -/
def V0 (d : Dev nD) : Valuation τ sig (Elt F) := fun b => m (d, b)
abbrev out' : DevRef τ sig := Proc.devRef .tc (main_v0 : Ref sig .tc)
def Vcall (d : Dev nD) (f : Buf (Elt F) (outLoc d)) : Valuation τ sig (Elt F) := Function.update (V0 m d) out' f

theorem Vcall_out (d : Dev nD) (f : Buf (Elt F) (outLoc d)) : Vcall m d f out' = f := Function.update_self _ _ _
theorem Vcall_ne (d : Dev nD) (f : Buf (Elt F) (outLoc d)) {b : DevRef τ sig} (h : b ≠ out') : Vcall m d f b = m (d, b) := Function.update_of_ne h _ _

omit [FloatOps F] in
/-- The TensorCore's unscoped arrays are the eleven. -/
theorem unscoped_held (d : Dev nD) : (unscopedBufs d (fun b => m ((SparseCore.T d).loc b)) : sProp 𝕄) = held (SparseCore.T d) S11 (V0 m d) := by
  unfold unscopedBufs held S11
  rw [show (Finset.univ.filter fun b : Ref sig .tc => ¬ b.isScoped)
      = ({main_arg0, main_arg1, main_arg2, main_arg3, main_arg4, main_arg5, main_v0, main_v1, main_v2, main_v3, main_v4} : Finset (Ref sig .tc)) by decide]
  rw [bigSep_eq_bigSepL_of_eq [main_arg0, main_arg1, main_arg2, main_arg3, main_arg4, main_arg5, main_v0, main_v1, main_v2, main_v3, main_v4] (by decide) (by decide),
    bigSep_eq_bigSepL_of_eq [Proc.devRef .tc main_arg0, Proc.devRef .tc main_arg1, Proc.devRef .tc main_arg2, Proc.devRef .tc main_arg3,
      Proc.devRef .tc main_arg4, Proc.devRef .tc main_arg5, Proc.devRef .tc main_v0, Proc.devRef .tc main_v1,
      Proc.devRef .tc main_v2, Proc.devRef .tc main_v3, Proc.devRef .tc main_v4] (by decide) (by decide)]
  rfl

/-- What @main leaves the claim on device `d`: the eleven arrays at the tail's values, from counts every worker's row of
    which is what that worker computes. -/
def FIN (d : Dev nD) : sProp 𝕄 := iprop(∃ f, ⌜∀ i, RowOK (F := F) m d i f⌝ ∗ held (SparseCore.T d) S11 (tailVal (Vcall m d f)))

/-- The TensorCore's debts after the one call, opened: its recorded pairs lie at or below the call's levels. -/
theorem tcSt_open (d : Dev nD) :
    ((K (F := F)).tcSt EH d 1 : sProp 𝕄) ⊢ iprop(∃ W, ⌜(K (F := F)).WBelow (SparseCore.T d) W (8 * 1)⌝ ∗ owes (SparseCore.T d) ((K (F := F)).Otc d 1) W
      ∗ (∀ W', ⌜(K (F := F)).WBelow (SparseCore.T d) W' (8 * 1)⌝ -∗ owes (SparseCore.T d) ((K (F := F)).Otc d 1) W' -∗ (K (F := F)).tcSt EH d 1)) := by
  unfold SparseCore.Cfg.tcSt
  iintro ⟨⟨%W, %hW, HO⟩, Hrest⟩
  iexists W; isplitr
  · ipureintro; exact hW
  isplitl [HO]; · iexact HO
  iintro %W' %hW' HO'
  isplitl [HO']
  · iexists W'; isplitr
    · ipureintro; exact hW'
    · iexact HO'
  · iexact Hrest

/-- @main on device `d`'s TensorCore. -/
theorem hmain (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d) := by
  have hO : ∀ g, (K (F := F)).Otc d 1 g none = 0 := fun g => by rw [(K (F := F)).Otc_end d (le_refl 1)]; rfl
  unfold SparseCore.Cfg.tcRes
  rw [unscoped_held, main_eq, wp_bind]
  iintro ⟨#Hctx, Hst, ⟨Hb, Hheld, -, -⟩, ⟨Hg, Ht⟩⟩
  ihave Hlev := (SparseCore.Cfg.ctx_levAts κ) $$ Hctx
  ihave Hh := (Entails.of_eq (held_S11 (F := F) d _)) $$ Hheld
  icases Hh with ⟨H0, H1, H2, H3, H4, H5, Hv0, Hv1, Hv2, Hv3, Hv4⟩
  iapply ((K (F := F)).wp_run (D (F := F)) 𝒱 (EH := EH) (P := P m) κ d 0) $$ [Hst H0 Hv0 Hb H1 H2 H3 H4 H5 Hv1 Hv2 Hv3 Hv4 Hg Ht]
  isplitr; · iexact Hctx
  isplitl [Hst]; · iexact Hst
  isplitl [H0 Hv0]
  · rw [st0_eq]
    isplitl [H0]; · iexact H0
    iexact Hv0
  iintro ⟨Hst, Hdn⟩
  ihave Hdn' := (Entails.of_eq (dn0_eq m d)) $$ Hdn
  icases Hdn' with ⟨H0, %f, %hf, Hv0⟩
  ihave Hst1 := (Entails.of_eq (show ((K (F := F)).tcSt EH d ((0 : Fin 1).val + 1) : sProp 𝕄) = (K (F := F)).tcSt EH d 1 from rfl)) $$ Hst
  ihave Hst' := (tcSt_open (F := F) d) $$ Hst1
  icases Hst' with ⟨%W, %hW, HO, Hclose⟩
  -- the tail, at the pipeline's signature
  iapply ((K (F := F)).wp_liftProg (D (F := F)) 𝒱 (SparseCore.T d) Set.univ none (tailProg (F := F)) _)
  iapply (wp_wand_r frame _ Set.univ)
  isplitl [Hb H0 H1 H2 H3 H4 H5 Hv0 Hv1 Hv2 Hv3 Hv4 HO Hg Ht]
  · iapply (tail_wp (F := F) d (Vcall m d f) ((K (F := F)).Otc d 1) W hO)
    isplitl [Hb]; · iexact Hb
    isplitl [H0 H1 H2 H3 H4 H5 Hv0 Hv1 Hv2 Hv3 Hv4]
    · rw [held_S11]
      isplitl [H0]; · iexact H0
      isplitl [H1]; · iexact H1
      isplitl [H2]; · iexact H2
      isplitl [H3]; · iexact H3
      isplitl [H4]; · iexact H4
      isplitl [H5]; · iexact H5
      isplitl [Hv0]; · iexact Hv0
      isplitl [Hv1]; · iexact Hv1
      isplitl [Hv2]; · iexact Hv2
      isplitl [Hv3]; · iexact Hv3
      iexact Hv4
    isplitl [HO]; · iexact HO
    isplitr; · iexact Hlev
    isplitl [Hg]; · iexact Hg
    iexact Ht
  · iintro %_ ⟨-, Hheld, %W', %hW', HO⟩
    isplitl [HO Hclose]
    · ispecialize Hclose $$ %W'
      iapply Hclose
      · ipureintro
        intro p hp
        rcases hW' p hp with h | h
        · exact hW p h
        · rw [show p = (p.1, p.2) from rfl, h]; exact Nat.zero_le _
      · iexact HO
    · unfold FIN
      iexists f; isplitr
      · ipureintro; exact hf
      · iexact Hheld

/-! ## The final memory and the run -/

/-- What the claim reads off the final memory on device `d`. -/
def fq (d : Dev nD) (s' : Phys nD τ sig (Elt F)) : Prop :=
  ∃ f, (∀ i, RowOK (F := F) m d i f) ∧ ∀ b ∈ S11, s'.mem.mem (d, b) = tailVal (Vcall m d f) b

theorem hfin (d : Dev nD) (s' : Phys nD τ sig (Elt F)) : iprop(FIN m d ∗ SI s') ⊢ (⌜fq m d s'⌝ : sProp 𝕄) := by
  unfold FIN
  iintro ⟨⟨%f, %hf, Hheld⟩, HSI⟩
  ihave H := (held_read (F := F) (SparseCore.T d) (tailVal (Vcall m d f)) s' S11) $$ [Hheld HSI]
  · isplitl [Hheld] <;> iassumption
  icases H with %h
  ipureintro; exact ⟨f, hf, h⟩

def QC : PUnit × MemSt nD τ sig (Elt F) → Prop := fun r => ∀ c : Dev nD,
  ∃ f, (∀ i, RowOK (F := F) m c i f) ∧ ∀ b ∈ S11, r.2.mem (c, b) = tailVal (Vcall m c f) b

theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts hpre)
    (fun q _ => match q with | 0 => SparseCore.Cfg.VecSplit.of_plain (vecSplit m))
    m ρ main (G (F := F)) (FIN m) (u₀ (F := F)) (sep_elim_left.trans (hu₀ m)) (hmain m ρ) (fq m) (hfin m) (QC m) (fun _ h => h)

end Cert.HistIdeal

end
-- ==== Proof.TcTailVal.lean ====
/-
  What the tail leaves in the arrays.

  The tail writes four arrays: the two reshaped operands, the call's result, and the reshaped result. Every other array
  keeps its contents. The result of the call is the body's payload of the six operand arrays as they stand when the
  call is entered — the histogram, the table, the first layer's weights, the reshaped first bias, the second layer's
  weights, the reshaped second bias —, staged and written back whole; the tail's last array is that, reshaped.
-/
import proofs.«201856_g16750372454438_cont_week2b_1124_27_alg».proof.Proof.TcTail

noncomputable section

namespace Cert.HistIdeal

open Cert.KernelIdeal Cert.KernelIdeal.Gen

open Idealize.ShloMosaic
open Idealize.ShloMosaic.TcCoe Idealize.ShloMosaic.Tactic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-- An array the tail does not write keeps its contents. -/
theorem tailVal_of_ne (Vl : Valuation τ sig (Elt F)) (b : Ref sig .tc) (h1 : b ≠ main_v1) (h2 : b ≠ main_v2) (h3 : b ≠ main_v3) (h4 : b ≠ main_v4) :
    tailVal Vl (Proc.devRef .tc b) = Vl (Proc.devRef .tc b) := by
  unfold tailVal
  rw [StableHlo.after_cons, StableHlo.after_nil, StableHlo.reshape_result_ne _ _ _ _ _ _ _ h4, V3_ne Vl b (StableHlo.devRef_ne_of_ne h3)]
  show StableHlo.after [op1, op2] Vl (Proc.devRef .tc b) = _
  rw [StableHlo.after_cons, StableHlo.after_cons, StableHlo.after_nil, StableHlo.reshape_result_ne _ _ _ _ _ _ _ h2,
    StableHlo.reshape_result_ne _ _ _ _ _ _ _ h1]

theorem tailVal_arg0 (Vl : Valuation τ sig (Elt F)) : tailVal Vl (Proc.devRef .tc main_arg0) = Vl (Proc.devRef .tc main_arg0) :=
  tailVal_of_ne Vl main_arg0 (by decide) (by decide) (by decide) (by decide)
theorem tailVal_arg1 (Vl : Valuation τ sig (Elt F)) : tailVal Vl (Proc.devRef .tc main_arg1) = Vl (Proc.devRef .tc main_arg1) :=
  tailVal_of_ne Vl main_arg1 (by decide) (by decide) (by decide) (by decide)
theorem tailVal_arg2 (Vl : Valuation τ sig (Elt F)) : tailVal Vl (Proc.devRef .tc main_arg2) = Vl (Proc.devRef .tc main_arg2) :=
  tailVal_of_ne Vl main_arg2 (by decide) (by decide) (by decide) (by decide)
theorem tailVal_arg3 (Vl : Valuation τ sig (Elt F)) : tailVal Vl (Proc.devRef .tc main_arg3) = Vl (Proc.devRef .tc main_arg3) :=
  tailVal_of_ne Vl main_arg3 (by decide) (by decide) (by decide) (by decide)
theorem tailVal_arg4 (Vl : Valuation τ sig (Elt F)) : tailVal Vl (Proc.devRef .tc main_arg4) = Vl (Proc.devRef .tc main_arg4) :=
  tailVal_of_ne Vl main_arg4 (by decide) (by decide) (by decide) (by decide)
theorem tailVal_arg5 (Vl : Valuation τ sig (Elt F)) : tailVal Vl (Proc.devRef .tc main_arg5) = Vl (Proc.devRef .tc main_arg5) :=
  tailVal_of_ne Vl main_arg5 (by decide) (by decide) (by decide) (by decide)
theorem tailVal_v0 (Vl : Valuation τ sig (Elt F)) : tailVal Vl (Proc.devRef .tc main_v0) = Vl (Proc.devRef .tc main_v0) :=
  tailVal_of_ne Vl main_v0 (by decide) (by decide) (by decide) (by decide)

/-- When the call is entered, an array the two reshapes do not write holds what it held. -/
theorem V1_of_ne (Vl : Valuation τ sig (Elt F)) (b : Ref sig .tc) (h1 : b ≠ main_v1) (h2 : b ≠ main_v2) :
    V1 Vl (Proc.devRef .tc b) = Vl (Proc.devRef .tc b) := by
  show StableHlo.after [op1, op2] Vl (Proc.devRef .tc b) = _
  rw [StableHlo.after_cons, StableHlo.after_cons, StableHlo.after_nil, StableHlo.reshape_result_ne _ _ _ _ _ _ _ h2,
    StableHlo.reshape_result_ne _ _ _ _ _ _ _ h1]

/-- The first bias, reshaped. -/
theorem V1_v1 (Vl : Valuation τ sig (Elt F)) :
    V1 Vl (Proc.devRef .tc main_v1) = fun i => shapeCast S1x64 (Vl (Proc.devRef .tc main_arg3)) Facts₀.shapeCasts_S64_S1x64 i := by
  show StableHlo.after [op1, op2] Vl (Proc.devRef .tc main_v1) = _
  rw [StableHlo.after_cons, StableHlo.after_cons, StableHlo.after_nil,
    StableHlo.reshape_result_ne _ _ _ _ _ _ _ (by decide : main_v1 ≠ main_v2)]
  exact StableHlo.reshape_result main_arg3 main_v1 rfl Facts₀.shapeCasts_S64_S1x64 ⟨by decide, rfl⟩ ⟨by decide, rfl⟩ Vl

/-- The second bias, reshaped. -/
theorem V1_v2 (Vl : Valuation τ sig (Elt F)) :
    V1 Vl (Proc.devRef .tc main_v2) = fun i => shapeCast S1x8 (Vl (Proc.devRef .tc main_arg5)) Facts₀.shapeCasts_S8_S1x8 i := by
  show StableHlo.after [op1, op2] Vl (Proc.devRef .tc main_v2) = _
  rw [StableHlo.after_cons, StableHlo.after_cons, StableHlo.after_nil]
  refine (StableHlo.reshape_result main_arg5 main_v2 rfl Facts₀.shapeCasts_S8_S1x8 ⟨by decide, rfl⟩ ⟨by decide, rfl⟩ _).trans ?_
  rw [StableHlo.reshape_result_ne _ _ _ _ _ _ _ (by decide : main_arg5 ≠ main_v1)]
  rfl

/-- The tail's last array: the call's result, reshaped. -/
theorem tailVal_v4 (Vl : Valuation τ sig (Elt F)) :
    tailVal Vl (Proc.devRef .tc main_v4) = fun i => shapeCast S8 (out3 (V1 Vl)) Facts₀.shapeCasts_S1x8_S8 i := by
  unfold tailVal
  rw [StableHlo.after_cons, StableHlo.after_nil]
  refine (StableHlo.reshape_result main_v3 main_v4 rfl Facts₀.shapeCasts_S1x8_S8 ⟨by decide, rfl⟩ ⟨by decide, rfl⟩ _).trans ?_
  rw [V3_v3]
  rfl

/-- A whole-array window's one block sits in its array at the same indices. -/
theorem blk_emb0 (y : ((cfg1.win 0).xblock (cfg1.grid.coords t1_0)).Idx) : ((cfg1.win 0).blk t1_0).view.emb y = y := by
  funext a; apply Fin.ext
  exact (cfg1.win 0).rect_emb_val_of_index_zero t1_0 a rfl y

theorem stg0_eq (V : Valuation τ sig (Elt F)) : stg V 0 = V (Proc.devRef .tc main_v0) := by
  funext y
  show ((cfg1.win 0).blk t1_0).view.read (Elt F) (V (Proc.devRef .tc main_v0)) y = _
  rw [View.read_apply, blk_emb0]
  rfl
theorem blk_emb1 (y : ((cfg1.win 1).xblock (cfg1.grid.coords t1_0)).Idx) : ((cfg1.win 1).blk t1_0).view.emb y = y := by
  funext a; apply Fin.ext
  exact (cfg1.win 1).rect_emb_val_of_index_zero t1_0 a rfl y
theorem blk_emb2 (y : ((cfg1.win 2).xblock (cfg1.grid.coords t1_0)).Idx) : ((cfg1.win 2).blk t1_0).view.emb y = y := by
  funext a; apply Fin.ext
  exact (cfg1.win 2).rect_emb_val_of_index_zero t1_0 a rfl y
theorem blk_emb3 (y : ((cfg1.win 3).xblock (cfg1.grid.coords t1_0)).Idx) : ((cfg1.win 3).blk t1_0).view.emb y = y := by
  funext a; apply Fin.ext
  exact (cfg1.win 3).rect_emb_val_of_index_zero t1_0 a rfl y
theorem blk_emb4 (y : ((cfg1.win 4).xblock (cfg1.grid.coords t1_0)).Idx) : ((cfg1.win 4).blk t1_0).view.emb y = y := by
  funext a; apply Fin.ext
  exact (cfg1.win 4).rect_emb_val_of_index_zero t1_0 a rfl y
theorem blk_emb5 (y : ((cfg1.win 5).xblock (cfg1.grid.coords t1_0)).Idx) : ((cfg1.win 5).blk t1_0).view.emb y = y := by
  funext a; apply Fin.ext
  exact (cfg1.win 5).rect_emb_val_of_index_zero t1_0 a rfl y
theorem blk_emb6 (y : ((cfg1.win 6).xblock (cfg1.grid.coords t1_0)).Idx) : ((cfg1.win 6).blk t1_0).view.emb y = y := by
  funext a; apply Fin.ext
  exact (cfg1.win 6).rect_emb_val_of_index_zero t1_0 a rfl y
theorem stg1_eq (V : Valuation τ sig (Elt F)) : stg V 1 = V (Proc.devRef .tc main_arg1) := by
  funext y
  show ((cfg1.win 1).blk t1_0).view.read (Elt F) (V (Proc.devRef .tc main_arg1)) y = _
  rw [View.read_apply, blk_emb1]
  rfl
theorem stg2_eq (V : Valuation τ sig (Elt F)) : stg V 2 = V (Proc.devRef .tc main_arg2) := by
  funext y
  show ((cfg1.win 2).blk t1_0).view.read (Elt F) (V (Proc.devRef .tc main_arg2)) y = _
  rw [View.read_apply, blk_emb2]
  rfl
theorem stg3_eq (V : Valuation τ sig (Elt F)) : stg V 3 = V (Proc.devRef .tc main_v1) := by
  funext y
  show ((cfg1.win 3).blk t1_0).view.read (Elt F) (V (Proc.devRef .tc main_v1)) y = _
  rw [View.read_apply, blk_emb3]
  rfl
theorem stg4_eq (V : Valuation τ sig (Elt F)) : stg V 4 = V (Proc.devRef .tc main_arg4) := by
  funext y
  show ((cfg1.win 4).blk t1_0).view.read (Elt F) (V (Proc.devRef .tc main_arg4)) y = _
  rw [View.read_apply, blk_emb4]
  rfl
theorem stg5_eq (V : Valuation τ sig (Elt F)) : stg V 5 = V (Proc.devRef .tc main_v2) := by
  funext y
  show ((cfg1.win 5).blk t1_0).view.read (Elt F) (V (Proc.devRef .tc main_v2)) y = _
  rw [View.read_apply, blk_emb5]
  rfl

/-- The write-back of the whole block over the whole array leaves the block. -/
theorem out3_eq (V : Valuation τ sig (Elt F)) :
    out3 V = k1_pay1 (V (Proc.devRef .tc main_v0)) (V (Proc.devRef .tc main_arg1)) (V (Proc.devRef .tc main_arg2))
      (V (Proc.devRef .tc main_v1)) (V (Proc.devRef .tc main_arg4)) (V (Proc.devRef .tc main_v2)) := by
  unfold out3
  rw [stg0_eq, stg1_eq, stg2_eq, stg3_eq, stg4_eq, stg5_eq]
  funext i
  have h := View.write_emb_of_mem (v := ((cfg1.win 6).blk t1_0).view) (Val := Elt F) (V (Proc.devRef .tc main_v3))
    (k1_pay1 (V (Proc.devRef .tc main_v0)) (V (Proc.devRef .tc main_arg1)) (V (Proc.devRef .tc main_arg2))
      (V (Proc.devRef .tc main_v1)) (V (Proc.devRef .tc main_arg4)) (V (Proc.devRef .tc main_v2)))
    (M := Finset.univ) (x := i) (Finset.mem_univ _)
  rw [blk_emb6] at h
  exact h

/-- The call's result array after the tail. -/
theorem tailVal_v3 (Vl : Valuation τ sig (Elt F)) : tailVal Vl (Proc.devRef .tc main_v3) = out3 (V1 Vl) := by
  unfold tailVal
  rw [StableHlo.after_cons, StableHlo.after_nil, StableHlo.reshape_result_ne _ _ _ _ _ _ _ (by decide : main_v3 ≠ main_v4), V3_v3]

/-- The value the tail leaves in the call's result array: the payload of the histogram, the table, the first layer's
    weights, the reshaped first bias, the second layer's weights and the reshaped second bias. -/
def tailOut (Vl : Valuation τ sig (Elt F)) : FVec F S1x8 .f32 :=
  k1_pay1 (Vl (Proc.devRef .tc main_v0)) (Vl (Proc.devRef .tc main_arg1)) (Vl (Proc.devRef .tc main_arg2))
    (fun i => shapeCast S1x64 (Vl (Proc.devRef .tc main_arg3)) Facts₀.shapeCasts_S64_S1x64 i) (Vl (Proc.devRef .tc main_arg4))
    (fun i => shapeCast S1x8 (Vl (Proc.devRef .tc main_arg5)) Facts₀.shapeCasts_S8_S1x8 i)

theorem out3_V1 (Vl : Valuation τ sig (Elt F)) : out3 (V1 Vl) = tailOut Vl := by
  rw [out3_eq, V1_of_ne Vl main_v0 (by decide) (by decide), V1_of_ne Vl main_arg1 (by decide) (by decide),
    V1_of_ne Vl main_arg2 (by decide) (by decide), V1_of_ne Vl main_arg4 (by decide) (by decide), V1_v1, V1_v2]
  rfl

/-- The tail's last array is that value, reshaped. -/
theorem tailVal_v4_eq (Vl : Valuation τ sig (Elt F)) :
    tailVal Vl (Proc.devRef .tc main_v4) = fun i => shapeCast S8 (tailOut Vl) Facts₀.shapeCasts_S1x8_S8 i := by
  rw [tailVal_v4, out3_V1]

/-- The two reshaped operands after the tail. -/
theorem tailVal_v1 (Vl : Valuation τ sig (Elt F)) :
    tailVal Vl (Proc.devRef .tc main_v1) = fun i => shapeCast S1x64 (Vl (Proc.devRef .tc main_arg3)) Facts₀.shapeCasts_S64_S1x64 i := by
  unfold tailVal
  rw [StableHlo.after_cons, StableHlo.after_nil, StableHlo.reshape_result_ne _ _ _ _ _ _ _ (by decide : main_v1 ≠ main_v4),
    V3_ne Vl main_v1 (by decide), V1_v1]
theorem tailVal_v2 (Vl : Valuation τ sig (Elt F)) :
    tailVal Vl (Proc.devRef .tc main_v2) = fun i => shapeCast S1x8 (Vl (Proc.devRef .tc main_arg5)) Facts₀.shapeCasts_S8_S1x8 i := by
  unfold tailVal
  rw [StableHlo.after_cons, StableHlo.after_nil, StableHlo.reshape_result_ne _ _ _ _ _ _ _ (by decide : main_v2 ≠ main_v4),
    V3_ne Vl main_v2 (by decide), V1_v2]
theorem tailVal_v3_eq (Vl : Valuation τ sig (Elt F)) : tailVal Vl (Proc.devRef .tc main_v3) = tailOut Vl := by
  rw [tailVal_v3, out3_V1]

/-- The same with the reshapes written as plain shape casts. -/
theorem tailVal_v4_plain (Vl : Valuation τ sig (Elt F)) :
    tailVal Vl (Proc.devRef .tc main_v4)
      = shapeCast S8 (k1_pay1 (Vl (Proc.devRef .tc main_v0)) (Vl (Proc.devRef .tc main_arg1)) (Vl (Proc.devRef .tc main_arg2))
          (shapeCast S1x64 (Vl (Proc.devRef .tc main_arg3)) Facts₀.shapeCasts_S64_S1x64) (Vl (Proc.devRef .tc main_arg4))
          (shapeCast S1x8 (Vl (Proc.devRef .tc main_arg5)) Facts₀.shapeCasts_S8_S1x8)) Facts₀.shapeCasts_S1x8_S8 :=
  tailVal_v4_eq Vl

end Cert.HistIdeal

end
-- ==== Proof.Frame.lean ====
/-
  The frame: in every final memory of the run the six argument arrays are as the launch found them. The tail's values
  leave every array but its four results alone, and the histogram call rewrote only the counts array.
-/
import proofs.«201856_g16750372454438_cont_week2b_1124_27_alg».proof.Proof.Main
import proofs.«201856_g16750372454438_cont_week2b_1124_27_alg».proof.Proof.TcTailVal

noncomputable section

namespace Cert.HistIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "idsW" => (Memref.whole Cert.KernelIdeal.main_arg0_scv : Memref Cert.KernelIdeal.sig Kind.scVector Space.hbm Cert.KernelIdeal.S8192 EltTy.i32)
local notation "outW" => (Memref.whole Cert.KernelIdeal.main_v0_scv : Memref Cert.KernelIdeal.sig Kind.scVector Space.hbm Cert.KernelIdeal.S16x256 EltTy.f32)
local notation "sIds" => (Memref.whole Cert.KernelIdeal.cc0_scratch0 : Memref Cert.KernelIdeal.sig Kind.scVector Space.vmem Cert.KernelIdeal.S512 EltTy.i32)
local notation "sCnt" => (Memref.whole Cert.KernelIdeal.cc0_scratch1 : Memref Cert.KernelIdeal.sig Kind.scVector Space.vmem Cert.KernelIdeal.S256 EltTy.f32)

variable (m : (ℓ : Loc nD τ sig) → Buf (Elt F) ℓ) (ρ : Dev nD → PrngReg)
variable [FloatOps F]

omit [FloatOps F] in
/-- The arguments and the result are among the eleven. -/
theorem mem_S11 : (Proc.devRef .tc main_arg0 : DevRef τ sig) ∈ S11 ∧ (Proc.devRef .tc main_arg1 : DevRef τ sig) ∈ S11
    ∧ (Proc.devRef .tc main_arg2 : DevRef τ sig) ∈ S11 ∧ (Proc.devRef .tc main_arg3 : DevRef τ sig) ∈ S11
    ∧ (Proc.devRef .tc main_arg4 : DevRef τ sig) ∈ S11 ∧ (Proc.devRef .tc main_arg5 : DevRef τ sig) ∈ S11
    ∧ (Proc.devRef .tc main_v4 : DevRef τ sig) ∈ S11 := by
  unfold S11; decide

theorem QC_args (r : PUnit × MemSt nD τ sig (Elt F)) (h : QC m r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5) := by
  obtain ⟨f, -, hb⟩ := h c
  refine ⟨?_, ?_, ?_, ?_, ?_, ?_⟩
  · exact (hb (Proc.devRef .tc main_arg0) mem_S11.1).trans ((tailVal_arg0 _).trans (Vcall_ne m c f (by decide)))
  · exact (hb (Proc.devRef .tc main_arg1) mem_S11.2.1).trans ((tailVal_arg1 _).trans (Vcall_ne m c f (by decide)))
  · exact (hb (Proc.devRef .tc main_arg2) mem_S11.2.2.1).trans ((tailVal_arg2 _).trans (Vcall_ne m c f (by decide)))
  · exact (hb (Proc.devRef .tc main_arg3) mem_S11.2.2.2.1).trans ((tailVal_arg3 _).trans (Vcall_ne m c f (by decide)))
  · exact (hb (Proc.devRef .tc main_arg4) mem_S11.2.2.2.2.1).trans ((tailVal_arg4 _).trans (Vcall_ne m c f (by decide)))
  · exact (hb (Proc.devRef .tc main_arg5) mem_S11.2.2.2.2.2.1).trans ((tailVal_arg5 _).trans (Vcall_ne m c f (by decide)))

/-- The result array in a final memory: the tail's value of the launch contents with the counts array at counts every
    worker's row of which is what that worker computes. -/
theorem QC_result (r : PUnit × MemSt nD τ sig (Elt F)) (h : QC m r) (c : Dev nD) :
    ∃ f, (∀ i, RowOK (F := F) m c i f) ∧ r.2.mem ((c.tc : Thread nD τ).loc main_v4) = tailVal (Vcall m c f) (Proc.devRef .tc main_v4) := by
  obtain ⟨f, hf, hb⟩ := h c
  exact ⟨f, hf, hb (Proc.devRef .tc main_v4) mem_S11.2.2.2.2.2.2⟩

end Cert.HistIdeal

end
-- ==== Proof.Spec.lean ====
/-
  The function both programs compute, over the extended reals.

  Position `i` of the index list names a row of the 256 × 64 table; the rows named by all 8192 positions are averaged,
  and the average is sent through two affine layers with a positive part between them:
  `out k = Σ_j max (Σ_d e d · W1 (j, d) + b1 j) 0 · W2 (k, j) + b2 k`.
  The average is written twice: directly, as the sum over positions of the row each names (`meanLookup`), and through
  the histogram — sixteen workers count, each over its own 512 consecutive positions, how often every row is named, the
  sixteen counts of a row are added and weigh that row (`meanHist`). The division by 8192 is the product with the real
  1/8192, which it is on every extended real.
-/
import Idealize.ShloMosaic.PureOps.Ideal
import Idealize.ShloMosaic.Lib.ValueIdx

noncomputable section

open scoped BigOperators

namespace Cert.Spec

open Idealize.ShloMosaic Idealize.ShloMosaic.ValueIdx

abbrev Ids : Type := (⟨1, ![8192]⟩ : Shape).Idx → BitVec 32
abbrev Table : Type := (⟨2, ![256, 64]⟩ : Shape).Idx → EReal
abbrev Weights1 : Type := (⟨2, ![64, 64]⟩ : Shape).Idx → EReal
abbrev Bias1 : Type := (⟨1, ![64]⟩ : Shape).Idx → EReal
abbrev Weights2 : Type := (⟨2, ![8, 64]⟩ : Shape).Idx → EReal
abbrev Bias2 : Type := (⟨1, ![8]⟩ : Shape).Idx → EReal

/-- The table row position `i` names: its word read unsigned, reduced modulo 256 (the identity on a word below 256). -/
def row (ids : Ids) (i : Fin 8192) : Fin 256 := ⟨(ids (ix1 i)).toNat % 256, Nat.mod_lt _ (by norm_num)⟩

/-- Position `t` of worker `w`'s 512 consecutive positions. -/
def pos (w : Fin 16) (t : Fin 512) : Fin 8192 := ⟨512 * w.val + t.val, by omega⟩

/-- How many of worker `w`'s positions name row `b`. -/
def cnt (ids : Ids) (w : Fin 16) (b : Fin 256) : ℕ := (Finset.univ.filter fun t : Fin 512 => row ids (pos w t) = b).card

/-- The mean of the rows the positions name, column `d`. -/
def meanLookup (ids : Ids) (emb : Table) (d : Fin 64) : EReal :=
  (∑ i : Fin 8192, emb (ix2 (row ids i) d)) * ((1 / 8192 : ℝ) : EReal)

/-- The same mean through the workers' histograms: row `b` weighed by the number of positions naming it. -/
def meanHist (ids : Ids) (emb : Table) (d : Fin 64) : EReal :=
  (∑ b : Fin 256, (∑ w : Fin 16, ((cnt ids w b : ℝ) : EReal)) * emb (ix2 b d)) * ((1 / 8192 : ℝ) : EReal)

/-- The first layer and the positive part. -/
def hidden (e : Fin 64 → EReal) (W1 : Weights1) (b1 : Bias1) (j : Fin 64) : EReal :=
  max ((∑ d : Fin 64, e d * W1 (ix2 j d)) + b1 (ix1 j)) 0

/-- The second layer at output `k`. -/
def outAt (e : Fin 64 → EReal) (W1 : Weights1) (b1 : Bias1) (W2 : Weights2) (b2 : Bias2) (k : Fin 8) : EReal :=
  (∑ j : Fin 64, hidden e W1 b1 j * W2 (ix2 k j)) + b2 (ix1 k)

/-- The result array, from the averaged row `e`. -/
def out (e : Fin 64 → EReal) (W1 : Weights1) (b1 : Bias1) (W2 : Weights2) (b2 : Bias2) : (⟨1, ![8]⟩ : Shape).Idx → EReal :=
  fun o => outAt e W1 b1 W2 b2 (o 0)

end Cert.Spec

end
-- ==== Proof.LibStoreIdxCount.lean ====
/-
  Scatter-add into a rank-one array, read at one element.

  A scatter-add takes the lanes of the stored vector in ascending order and adds each lane's value onto the element its
  index names. Read at element `b` of the base, the result is the old element plus the sum of the values of the lanes
  whose index is `b`: addition on the extended reals is associative, so the fold's running sum is the old element plus
  the partial sum, and a lane that names another element leaves `b` alone (it contributes `0`). With a vector of ones
  the sum is the number of lanes naming `b`.
-/
import Idealize.ShloMosaic.PureOps.Ideal
import Idealize.ShloMosaic.Lib.ValueIdx

noncomputable section

open scoped BigOperators

namespace Idealize.ShloMosaic.StoreIdxCount

open Idealize.ShloMosaic Idealize.ShloMosaic.ValueIdx

/-- Lane `k` of a rank-one shape is the index with coordinate `k`. -/
theorem ofLane_eq_ix1 {d : ℕ} (k : Fin d) :
    (Shape.ofLane (d := ![d]) k : (⟨1, ![d]⟩ : Shape).Idx) = ix1 k := by
  funext a
  match a with
  | ⟨0, _⟩ => rfl

/-- One lane of an unmasked scatter-add, read at element `b`: the lane's value is added when its index is `b`, and
    nothing changes otherwise. -/
theorem lane_add_apply {n d : ℕ} (idx : IVec ⟨1, ![d]⟩ 32) (v : Vec Ideal ⟨1, ![d]⟩ .f32)
    (h : ∀ a x, ((![idx] : Fin 1 → IVec ⟨1, ![d]⟩ 32) a x).toNat < (⟨1, ![n]⟩ : Shape).size a)
    (g : Vec Ideal ⟨1, ![n]⟩ .f32) (k : Fin d) (b : Fin n) :
    (if (∀ a, ((ix1 b : (⟨1, ![n]⟩ : Shape).Idx) a).val
          = ((idxAt (s := ⟨1, ![n]⟩) ![idx] h (ix1 k)) a).val)
      then Elt.idxAdd (F := Ideal) .f32 (g (idxAt (s := ⟨1, ![n]⟩) ![idx] h (ix1 k))) (v (ix1 k))
      else g (ix1 b))
      = g (ix1 b) + if (idx (ix1 k)).toNat = b.val then v (ix1 k) else 0 := by
  by_cases hb : (idx (ix1 k)).toNat = b.val
  · have hi : idxAt (s := ⟨1, ![n]⟩) ![idx] h (ix1 k) = ix1 b := by
      funext a
      match a with
      | ⟨0, _⟩ => exact Fin.ext hb
    have hc : ∀ a, ((ix1 b : (⟨1, ![n]⟩ : Shape).Idx) a).val
        = ((idxAt (s := ⟨1, ![n]⟩) ![idx] h (ix1 k)) a).val := by
      intro a; rw [hi]
    rw [if_pos hc, if_pos hb, hi]
    rfl
  · have hc : ¬ ∀ a, ((ix1 b : (⟨1, ![n]⟩ : Shape).Idx) a).val
        = ((idxAt (s := ⟨1, ![n]⟩) ![idx] h (ix1 k)) a).val := by
      intro hall
      exact hb (hall 0).symm
    rw [if_neg hc, if_neg hb, add_zero]

/-- The fold of an unmasked scatter-add over any list of lanes, read at element `b`: the accumulator's element plus the
    values of the listed lanes whose index is `b`. -/
theorem foldl_add_apply {n d : ℕ} (idx : IVec ⟨1, ![d]⟩ 32) (v : Vec Ideal ⟨1, ![d]⟩ .f32)
    (h : ∀ a x, ((![idx] : Fin 1 → IVec ⟨1, ![d]⟩ 32) a x).toNat < (⟨1, ![n]⟩ : Shape).size a)
    (b : Fin n) (l : List (Fin d)) (g : Vec Ideal ⟨1, ![n]⟩ .f32) :
    (l.foldl (fun (g : Vec Ideal ⟨1, ![n]⟩ .f32) (k : Fin d) =>
        fun j => if (∀ a, (j a).val = ((idxAt (s := ⟨1, ![n]⟩) ![idx] h (ix1 k)) a).val)
          then Elt.idxAdd (F := Ideal) .f32 (g (idxAt (s := ⟨1, ![n]⟩) ![idx] h (ix1 k))) (v (ix1 k))
          else g j) g) (ix1 b)
      = g (ix1 b) + (l.map fun k => if (idx (ix1 k)).toNat = b.val then v (ix1 k) else 0).sum := by
  induction l generalizing g with
  | nil => simp
  | cons k l ih =>
    rw [List.foldl_cons, ih, List.map_cons, List.sum_cons, ← add_assoc]
    congr 1
    exact lane_add_apply idx v h g k b

/-- An unmasked scatter-add into a rank-one array of extent `n`, read at element `b`: the old element plus the sum of
    the values of the lanes whose index is `b`. -/
theorem storeIdx_add_apply {n d : ℕ} (f : Vec Ideal ⟨1, ![n]⟩ .f32) (idx : IVec ⟨1, ![d]⟩ 32)
    (v : Vec Ideal ⟨1, ![d]⟩ .f32)
    (h : ∀ a x, ((![idx] : Fin 1 → IVec ⟨1, ![d]⟩ 32) a x).toNat < (⟨1, ![n]⟩ : Shape).size a) (b : Fin n) :
    storeIdx (F := Ideal) (s := ⟨1, ![n]⟩) (d := ![d]) f ![idx] v (fun _ => 1#1) true h (ix1 b)
      = f (ix1 b) + ∑ k : Fin d, if (idx (ix1 k)).toNat = b.val then v (ix1 k) else 0 := by
  have hfold := foldl_add_apply idx v h b (List.finRange d) f
  have hone : (1#1 : BitVec 1) = 1 := rfl
  have hl : ∀ k : Fin ((![d] : Fin 1 → ℕ) 0), Shape.ofLane (d := ![d]) k = ix1 (n := d) k :=
    fun k => ofLane_eq_ix1 (d := d) k
  rw [Fin.sum_univ_def, ← hfold]
  unfold storeIdx
  simp only [if_pos hone, if_true, hl]
  rfl

/-- A natural multiple of `1` on the extended reals is the natural number, read as a real. -/
theorem nsmul_one_eq_coe (m : ℕ) : m • (1 : EReal) = ((m : ℝ) : EReal) := by
  induction m with
  | zero => simp
  | succ m ih => rw [succ_nsmul, ih, Nat.cast_succ, EReal.coe_add, EReal.coe_one]

/-- The same with a vector of ones: the old element plus the number of lanes whose index is `b`. -/
theorem storeIdx_add_ones_apply {n d : ℕ} (f : Vec Ideal ⟨1, ![n]⟩ .f32) (idx : IVec ⟨1, ![d]⟩ 32)
    (h : ∀ a x, ((![idx] : Fin 1 → IVec ⟨1, ![d]⟩ 32) a x).toNat < (⟨1, ![n]⟩ : Shape).size a) (b : Fin n) :
    storeIdx (F := Ideal) (s := ⟨1, ![n]⟩) (d := ![d]) f ![idx] (fun _ => (1 : EReal)) (fun _ => 1#1) true h (ix1 b)
      = f (ix1 b) + (((Finset.univ.filter fun k : Fin d => (idx (ix1 k)).toNat = b.val).card : ℝ) : EReal) := by
  rw [storeIdx_add_apply]
  congr 1
  rw [Finset.sum_ite, Finset.sum_const_zero, add_zero, Finset.sum_const, nsmul_one_eq_coe]

end Idealize.ShloMosaic.StoreIdxCount

end
-- ==== Proof.HistTile.lean ====
/-
  One worker's histogram, and the sixteen workers' histograms added.

  A worker counts its 512 words in thirty-two passes of sixteen lanes: pass `c` adds one to the row named by each of
  the words `16c … 16c+15`. Starting from zeros, after `c` passes row `b` holds the number of the first `16c` words
  equal to `b` — as a sum of zeros and ones over the passes and lanes done so far. Every word position below 512 is
  `16c + k` for exactly one pass `c` below 32 and lane `k` below 16, so after all thirty-two passes the sum runs over
  all 512 words once each: row `b` holds the number of the worker's words equal to `b`. When every word is below 256
  it names the row it equals, and that number is the worker's count of positions naming `b`.
-/
import proofs.«201856_g16750372454438_cont_week2b_1124_27_alg».proof.Proof.Spec
import proofs.«201856_g16750372454438_cont_week2b_1124_27_alg».proof.Proof.LibStoreIdxCount

noncomputable section

open scoped BigOperators

namespace Cert.Spec

open Idealize.ShloMosaic Idealize.ShloMosaic.ValueIdx Idealize.ShloMosaic.StoreIdxCount

/-- Pass `c`'s sixteen words of a 512-word list: words `16c … 16c+15` (the position taken modulo 512, which changes
    nothing for `c` below 32). -/
def chunk (x : (⟨1, ![512]⟩ : Shape).Idx → BitVec 32) (c : ℕ) : IVec ⟨1, ![16]⟩ 32 :=
  fun l => x (ix1 ⟨(16 * c + (l 0).val) % 512, Nat.mod_lt _ (by norm_num)⟩)

/-- Words below 256 are in range as row indices of a 256-row array. -/
theorem chunk_lt (x : (⟨1, ![512]⟩ : Shape).Idx → BitVec 32) (hx : ∀ t, (x t).toNat < 256) (c : ℕ) :
    ∀ a l, ((![chunk x c] : Fin 1 → IVec ⟨1, ![16]⟩ 32) a l).toNat < (⟨1, ![256]⟩ : Shape).size a := by
  intro a l
  match a with
  | ⟨0, _⟩ => exact hx _

/-- The histogram after `c` passes: zeros, then one scatter-add of ones per pass. -/
def histFrom (x : (⟨1, ![512]⟩ : Shape).Idx → BitVec 32) (hx : ∀ t, (x t).toNat < 256) :
    ℕ → ((⟨1, ![256]⟩ : Shape).Idx → EReal)
  | 0 => fun _ => 0
  | c + 1 => storeIdx (F := Ideal) (s := ⟨1, ![256]⟩) (e := .f32) (d := ![16]) (histFrom x hx c) ![chunk x c]
      (fun _ => (1 : EReal)) (fun _ => 1#1) true (chunk_lt x hx c)

theorem histFrom_zero (x : (⟨1, ![512]⟩ : Shape).Idx → BitVec 32) (hx : ∀ t, (x t).toNat < 256) :
    histFrom x hx 0 = fun _ => 0 := rfl

theorem histFrom_succ (x : (⟨1, ![512]⟩ : Shape).Idx → BitVec 32) (hx : ∀ t, (x t).toNat < 256) (c : ℕ) :
    histFrom x hx (c + 1) = storeIdx (F := Ideal) (s := ⟨1, ![256]⟩) (e := .f32) (d := ![16]) (histFrom x hx c)
      ![chunk x c] (fun _ => (1 : EReal)) (fun _ => 1#1) true (chunk_lt x hx c) := rfl

/-- After `c` passes row `b` holds a one for every pass done and lane whose word is `b`. -/
theorem histFrom_eq_sum (x : (⟨1, ![512]⟩ : Shape).Idx → BitVec 32) (hx : ∀ t, (x t).toNat < 256) (b : Fin 256)
    (c : ℕ) :
    histFrom x hx c (ix1 b)
      = ∑ c' ∈ Finset.range c, ∑ k : Fin 16, if (chunk x c' (ix1 k)).toNat = b.val then (1 : EReal) else 0 := by
  induction c with
  | zero => rfl
  | succ c ih =>
    rw [Finset.sum_range_succ, ← ih, histFrom_succ]
    exact storeIdx_add_apply (n := 256) (d := 16) (histFrom x hx c) (chunk x c) (fun _ => (1 : EReal))
      (chunk_lt x hx c) b

/-- The word positions are the pairs of a pass and a lane. -/
def chunkEquiv : Fin 32 × Fin 16 ≃ Fin 512 where
  toFun p := ⟨16 * p.1.val + p.2.val, by have := p.1.isLt; have := p.2.isLt; omega⟩
  invFun t := (⟨t.val / 16, by have := t.isLt; omega⟩, ⟨t.val % 16, Nat.mod_lt _ (by norm_num)⟩)
  left_inv := by
    rintro ⟨c, k⟩
    have hc := c.isLt
    have hk := k.isLt
    apply Prod.ext
    · apply Fin.ext
      show (16 * c.val + k.val) / 16 = c.val
      omega
    · apply Fin.ext
      show (16 * c.val + k.val) % 16 = k.val
      omega
  right_inv := by
    intro t
    apply Fin.ext
    show 16 * (t.val / 16) + t.val % 16 = t.val
    omega

/-- Pass `c` below 32, lane `k`: the word at position `16c + k`. -/
theorem chunk_apply (x : (⟨1, ![512]⟩ : Shape).Idx → BitVec 32) (c : Fin 32) (k : Fin 16) :
    chunk x c.val (ix1 k) = x (ix1 (chunkEquiv (c, k))) := by
  have hc := c.isLt
  have hk := k.isLt
  show x (ix1 ⟨(16 * c.val + k.val) % 512, _⟩) = x (ix1 ⟨16 * c.val + k.val, _⟩)
  congr 2
  apply Fin.ext
  show (16 * c.val + k.val) % 512 = 16 * c.val + k.val
  omega

/-- After all thirty-two passes row `b` holds the number of the 512 words equal to `b`. -/
theorem histFrom_apply (x : (⟨1, ![512]⟩ : Shape).Idx → BitVec 32) (hx : ∀ t, (x t).toNat < 256) (b : Fin 256) :
    histFrom x hx 32 (ix1 b)
      = (((Finset.univ.filter fun t : Fin 512 => (x (ix1 t)).toNat = b.val).card : ℝ) : EReal) := by
  rw [histFrom_eq_sum, Finset.sum_range]
  have hpair : ∀ c : Fin 32, ∀ k : Fin 16,
      (if (chunk x c.val (ix1 k)).toNat = b.val then (1 : EReal) else 0)
        = (fun t : Fin 512 => if (x (ix1 t)).toNat = b.val then (1 : EReal) else 0) (chunkEquiv (c, k)) := by
    intro c k
    rw [chunk_apply]
  simp only [hpair]
  rw [← Fintype.sum_prod_type
    (f := fun p : Fin 32 × Fin 16 =>
      (fun t : Fin 512 => if (x (ix1 t)).toNat = b.val then (1 : EReal) else 0) (chunkEquiv p)),
    Equiv.sum_comp chunkEquiv (fun t : Fin 512 => if (x (ix1 t)).toNat = b.val then (1 : EReal) else 0),
    Finset.sum_ite, Finset.sum_const_zero, add_zero, Finset.sum_const, nsmul_one_eq_coe]

/-- Worker `w`'s 512 words of the index list. -/
def workerWords (ids : Ids) (w : Fin 16) : (⟨1, ![512]⟩ : Shape).Idx → BitVec 32 :=
  fun t => ids (ix1 (pos w (t 0)))

theorem workerWords_lt (ids : Ids) (hids : ∀ i, (ids i).toNat < 256) (w : Fin 16) :
    ∀ t, (workerWords ids w t).toNat < 256 := fun _ => hids _

/-- A word below 256 names the row it equals. -/
theorem row_eq_iff (ids : Ids) (hids : ∀ i, (ids i).toNat < 256) (i : Fin 8192) (b : Fin 256) :
    row ids i = b ↔ (ids (ix1 i)).toNat = b.val := by
  unfold row
  rw [Fin.ext_iff]
  show (ids (ix1 i)).toNat % 256 = b.val ↔ _
  rw [Nat.mod_eq_of_lt (hids (ix1 i))]

/-- The number of worker `w`'s words equal to `b` is its count of positions naming `b`. -/
theorem card_workerWords_eq_cnt (ids : Ids) (hids : ∀ i, (ids i).toNat < 256) (w : Fin 16) (b : Fin 256) :
    (Finset.univ.filter fun t : Fin 512 => (workerWords ids w (ix1 t)).toNat = b.val).card = cnt ids w b := by
  unfold cnt
  congr 1
  refine Finset.filter_congr fun t _ => ?_
  exact (row_eq_iff ids hids (pos w t) b).symm

/-- Worker `w`'s finished histogram at row `b` is its count of positions naming `b`. -/
theorem histFrom_workerWords_apply (ids : Ids) (hids : ∀ i, (ids i).toNat < 256) (w : Fin 16) (b : Fin 256) :
    histFrom (workerWords ids w) (workerWords_lt ids hids w) 32 (ix1 b) = ((cnt ids w b : ℝ) : EReal) := by
  rw [histFrom_apply, card_workerWords_eq_cnt ids hids w b]

/-- The sixteen workers' finished histograms at row `b`, added: the sum of their counts. -/
theorem sum_histFrom_workerWords (ids : Ids) (hids : ∀ i, (ids i).toNat < 256) (b : Fin 256) :
    ∑ w : Fin 16, histFrom (workerWords ids w) (workerWords_lt ids hids w) 32 (ix1 b)
      = ∑ w : Fin 16, ((cnt ids w b : ℝ) : EReal) :=
  Finset.sum_congr rfl fun w _ => histFrom_workerWords_apply ids hids w b

/-- The same, added onto a zero. -/
theorem zero_add_sum_histFrom_workerWords (ids : Ids) (hids : ∀ i, (ids i).toNat < 256) (b : Fin 256) :
    (0 : EReal) + ∑ w : Fin 16, histFrom (workerWords ids w) (workerWords_lt ids hids w) 32 (ix1 b)
      = ∑ w : Fin 16, ((cnt ids w b : ℝ) : EReal) := by
  rw [zero_add]
  exact sum_histFrom_workerWords ids hids b

end Cert.Spec

end
-- ==== Proof.TileIdeal.lean ====
/-
  A worker's row at the ideal values.

  At the ideal values the zero word is 0 and the word each pass adds is 1, so the counts a worker holds after c passes
  are the specification's histogram after c passes over the same 512 words; after all thirty-two passes entry b of
  its row is the number of its positions that name row b.
-/
import proofs.«201856_g16750372454438_cont_week2b_1124_27_alg».proof.Proof.Tile
import proofs.«201856_g16750372454438_cont_week2b_1124_27_alg».proof.Proof.HistTile
import Idealize.ShloMosaic.Lib.IdealHost
import Idealize.ShloMosaic.Lib.ValueIdx

noncomputable section

namespace Cert.HistIdeal

open Cert.KernelIdeal Cert.KernelIdeal.Gen
open Idealize.ShloMosaic
open Idealize.ShloMosaic.SparseCore (S V T)

/-- At the ideal values the word added in each pass is one. -/
theorem pay2_ideal : (k0_pay2 (F := Ideal)) = fun _ => (1 : EReal) :=
  funext fun _ => Ideal.ofBits_one_f32

/-- At the ideal values the counts after c passes are the specification's histogram after c passes. -/
theorem histG_eq_histFrom (x : S512.Idx → BitVec 32) (hx : ∀ t, (x t).toNat < 256) (c : ℕ) :
    histG (F := Ideal) x hx c = Cert.Spec.histFrom x hx c := by
  induction c with
  | zero =>
    funext _
    exact Ideal.ofBits_zero_f32
  | succ c ih =>
    show storeIdx (F := Ideal) (s := S256) (e := .f32) (d := ![16]) (histG (F := Ideal) x hx c) ![chunkOf x c] (k0_pay2 (F := Ideal))
        (fun _ => 1#1) true (chunkOf_lt x hx c) = Cert.Spec.histFrom x hx (c + 1)
    rw [ih, pay2_ideal]
    rfl

/-- What a worker leaves in its row, at the ideal values: entry b is the worker's count of positions naming row b. -/
theorem row_counts (m : (ℓ : Loc nD τ sig) → Buf (Elt Ideal) ℓ) (hpre : PreOK m) (d : Dev nD) (i : Fin 16)
    (f : Buf (Elt Ideal) (outLoc d)) (h : RowOK (F := Ideal) m d i f) (b : Fin 256) :
    f (ValueIdx.ix2 i b) = ((Cert.Spec.cnt (m (idsLoc d)) i b : ℝ) : EReal) := by
  rw [h hpre b, histG_eq_histFrom]
  exact Cert.Spec.histFrom_workerWords_apply (m (idsLoc d)) (hpre d) i b

end Cert.HistIdeal

end
-- ==== Proof.MlpValue.lean ====
/-
  The dense layers of the kernel's last stage, read at an index.

  The stage takes the sixteen workers' histograms (a 16 × 256 array), the table and the two layers' weights and
  biases. Adding the sixteen histograms from zero gives, for every row of the table, how often it is named; the
  product of that row of counts with the table, scaled by 2⁻¹³ = 1/8192, is the mean of the named rows written
  through the histogram; each layer contracts the second axis of its input with the second axis of its weights
  and adds the bias, the maximum with the zero splat between them being the positive part. With the histograms
  the specification's counts, this is the specification's result from the histogram form of the mean.
-/
import proofs.«201856_g16750372454438_cont_week2b_1124_27_alg».proof.Proof.Gen.KernelIdeal.Skeleton
import proofs.«201856_g16750372454438_cont_week2b_1124_27_alg».proof.Proof.Spec
import Idealize.ShloMosaic.Lib.ValueIdx
import Idealize.ShloMosaic.Lib.Pipeline.Value
import Idealize.ShloMosaic.Lib.ValueLayout
import Idealize.ShloMosaic.Lib.KernelVsHost
import Idealize.ShloMosaic.Lib.StackMember
import Idealize.ShloMosaic.PureOps.Ideal.Laws

noncomputable section

open scoped BigOperators

namespace Cert.KerVal

open Cert.KernelIdeal Idealize.ShloMosaic Idealize.ShloMosaic.ValueIdx
open Cert.KernelIdeal.Facts₀ Cert.KernelIdeal.Facts
open Cert.KernelIdeal.Gen (k1_pay1)

variable [Cert.KernelIdeal.Facts]

/-! ## The stage as four steps -/

/-- The sixteen histograms added from zero, as one row. -/
def counts (pc : FVec Ideal S16x256 .f32) : FVec Ideal S1x256 .f32 :=
  shapeCast S1x256
    (multiReduction .add [0] S256 (shapeCast S16x256 pc shapeCasts_S16x256_S16x256) 0x00000000#32 reduces_S16x256_S256 (.inl rfl) rfl)
    shapeCasts_S256_S1x256

/-- The row of counts times the table, scaled by the constant word 0x39000000. -/
def meanK (x : FVec Ideal S1x256 .f32) (emb : FVec Ideal S256x64 .f32) : FVec Ideal S1x64 .f32 :=
  mulf (matmul dot_S1x256_S256x64_S1x64_1_0_0_1_n_n (some .fp32) x emb (constant S1x64 .f32 0x00000000#32))
    (broadcast S1x64 (Scalar.ofBits .f32 0x39000000#32))

/-- The first layer and the positive part. -/
def hiddenK (e : FVec Ideal S1x64 .f32) (W1 : FVec Ideal S64x64 .f32) (b1 : FVec Ideal S1x64 .f32) : FVec Ideal S1x64 .f32 :=
  maximumf
    (addf (matmul dot_S1x64_S64x64_S1x64_1_1_0_0_n_n none e W1 (constant S1x64 .f32 0x00000000#32))
      (shapeCast S1x64 b1 shapeCasts_S1x64_S1x64))
    (broadcast S1x64 (Scalar.ofBits .f32 0x00000000#32))

/-- The second layer. -/
def outK (h : FVec Ideal S1x64 .f32) (W2 : FVec Ideal S8x64 .f32) (b2 : FVec Ideal S1x8 .f32) : FVec Ideal S1x8 .f32 :=
  addf (matmul dot_S1x64_S8x64_S1x8_1_1_0_0_n_n none h W2 (constant S1x8 .f32 0x00000000#32))
    (shapeCast S1x8 b2 shapeCasts_S1x8_S1x8)

/-- The stage's stored value is the four steps composed. -/
theorem pay_eq (pc : FVec Ideal S16x256 .f32) (emb : FVec Ideal S256x64 .f32) (W1 : FVec Ideal S64x64 .f32)
    (b1 : FVec Ideal S1x64 .f32) (W2 : FVec Ideal S8x64 .f32) (b2 : FVec Ideal S1x8 .f32) :
    k1_pay1 (F := Ideal) pc emb W1 b1 W2 b2 = outK (hiddenK (meanK (counts pc) emb) W1 b1) W2 b2 := rfl

/-! ## Products read at an index -/

/-- A product into the zero splat whose right operand is contracted on its second axis: at (a, b) the sum over c of
    the left operand at (a, c) times the right at (b, c). -/
theorem matmul_zero_transposedRhs_apply {m k n : ℕ} (prec : Option ContractPrecision)
    (A : FVec Ideal ⟨2, ![m, k]⟩ .f32) (B : FVec Ideal ⟨2, ![n, k]⟩ .f32) (a : Fin m) (b : Fin n) :
    matmul (DotDims.transposedRhs m k n) prec A B (constant ⟨2, ![m, n]⟩ .f32 0x00000000#32) (ix2 a b)
      = ∑ c : Fin k, A (ix2 a c) * B (ix2 b c) := by
  show FloatOps.matmul _ prec A B _ (ix2 a b) = _
  rw [Ideal.matmul_constant_zero_apply, ← Equiv.sum_comp (contrEquiv1 (DotDims.transposedRhs m k n) k rfl rfl).symm]
  refine Finset.sum_congr rfl fun c _ => ?_
  have c2 := contrEquiv1_symm_val (DotDims.transposedRhs m k n) k rfl rfl c
  have l2 : (DotDims.transposedRhs m k n).lhsIdx (ix2 a b) ((contrEquiv1 _ k rfl rfl).symm c) = ix2 a c := by
    funext ax; apply Fin.ext
    match ax with
    | ⟨0, _⟩ => simp [DotDims.lhsIdx, DotDims.transposedRhs]; rfl
    | ⟨1, _⟩ => simp [DotDims.lhsIdx, DotDims.transposedRhs]; exact c2
  have r2 : (DotDims.transposedRhs m k n).rhsIdx (ix2 a b) ((contrEquiv1 _ k rfl rfl).symm c) = ix2 b c := by
    funext ax; apply Fin.ext
    match ax with
    | ⟨0, _⟩ => simp [DotDims.rhsIdx, DotDims.transposedRhs]; rfl
    | ⟨1, _⟩ => simp [DotDims.rhsIdx, DotDims.transposedRhs]; exact c2
  rw [l2, r2]

theorem dot1_eq : dot_S1x256_S256x64_S1x64_1_0_0_1_n_n = DotDims.plain 1 256 64 := rfl
theorem dot2_eq : dot_S1x64_S64x64_S1x64_1_1_0_0_n_n = DotDims.transposedRhs 1 64 64 := rfl
theorem dot3_eq : dot_S1x64_S8x64_S1x8_1_1_0_0_n_n = DotDims.transposedRhs 1 64 8 := rfl

/-- The word 0x39000000 is the real 1/8192. -/
theorem ofBits_inv8192 : Ideal.ofBits .f32 0x39000000#32 = (((1 / 8192 : ℝ) : ℝ) : EReal) := by
  simp [Ideal.ofBits, Ideal.ieee, -EReal.coe_mul]; norm_num

/-! ## The four steps at an index -/

/-- The count of row b: the sum over the sixteen workers of their histograms at b. -/
theorem counts_apply (pc : FVec Ideal S16x256 .f32) (b : Fin 256) :
    counts pc (ix2 (0 : Fin 1) b) = ∑ w : Fin 16, pc (ix2 w b) := by
  unfold counts
  rw [shapeCast_a_1a_apply, shapeCast_self]
  refine (Ideal.multiReduction_add_single pc 0x00000000#32 reduces_S16x256_S256 (.inl rfl) rfl (ix1 b)).trans ?_
  refine Finset.sum_congr rfl fun (w : Fin 16) _ => congrArg pc ?_
  funext a
  match a with
  | ⟨0, _⟩ => rfl
  | ⟨1, _⟩ => rfl

/-- The scaled product of a row with the table at column d. -/
theorem meanK_apply (x : FVec Ideal S1x256 .f32) (emb : FVec Ideal S256x64 .f32) (d : Fin 64) :
    meanK x emb (ix2 (0 : Fin 1) d) = (∑ b : Fin 256, x (ix2 (0 : Fin 1) b) * emb (ix2 b d)) * (((1 / 8192 : ℝ) : ℝ) : EReal) := by
  unfold meanK
  rw [mulf_apply, broadcast_apply, matmul_zero_eq_dotGeneral, dot1_eq, StackMember.dotGeneral_plain_apply]
  show _ * Ideal.ofBits .f32 0x39000000#32 = _
  rw [ofBits_inv8192]

/-- The first layer and the positive part at j. -/
theorem hiddenK_apply (e : FVec Ideal S1x64 .f32) (W1 : FVec Ideal S64x64 .f32) (b1 : FVec Ideal S1x64 .f32) (j : Fin 64) :
    hiddenK e W1 b1 (ix2 (0 : Fin 1) j)
      = max ((∑ d : Fin 64, e (ix2 (0 : Fin 1) d) * W1 (ix2 j d)) + b1 (ix2 (0 : Fin 1) j)) 0 := by
  unfold hiddenK
  rw [maximumf_apply, addf_apply, broadcast_apply, shapeCast_self, dot2_eq, matmul_zero_transposedRhs_apply]
  show max _ (Ideal.ofBits .f32 0x00000000#32) = _
  rw [Ideal.ofBits_zero_f32]

/-- The second layer at k. -/
theorem outK_apply (h : FVec Ideal S1x64 .f32) (W2 : FVec Ideal S8x64 .f32) (b2 : FVec Ideal S1x8 .f32) (k : Fin 8) :
    outK h W2 b2 (ix2 (0 : Fin 1) k) = (∑ j : Fin 64, h (ix2 (0 : Fin 1) j) * W2 (ix2 k j)) + b2 (ix2 (0 : Fin 1) k) := by
  unfold outK
  rw [addf_apply, shapeCast_self, dot3_eq, matmul_zero_transposedRhs_apply]

/-! ## The result -/

/-- With the histograms the specification's counts, the stage's stored value, through the reshapes the program puts
    around the call (the two biases as one-row arrays, the result back to eight entries), is the specification's
    result from the histogram form of the mean. -/
theorem mlp_eq (ids : Cert.Spec.Ids) (pc : FVec Ideal S16x256 .f32) (emb : FVec Ideal S256x64 .f32)
    (W1 : FVec Ideal S64x64 .f32) (b1 : FVec Ideal S64 .f32) (W2 : FVec Ideal S8x64 .f32) (b2 : FVec Ideal S8 .f32)
    (hpc : ∀ (w : Fin 16) (b : Fin 256), pc (ix2 w b) = ((Cert.Spec.cnt ids w b : ℝ) : EReal)) :
    shapeCast S8 (k1_pay1 (F := Ideal) pc emb W1 (shapeCast S1x64 b1 shapeCasts_S64_S1x64) W2
        (shapeCast S1x8 b2 shapeCasts_S8_S1x8)) shapeCasts_S1x8_S8
      = Cert.Spec.out (Cert.Spec.meanHist ids emb) W1 b1 W2 b2 := by
  funext o
  obtain ⟨k, rfl⟩ : ∃ k : Fin 8, o = ix1 k := ⟨o 0, eq_ix1 o⟩
  rw [shapeCast_1a_a_apply, pay_eq, outK_apply, shapeCast_a_1a_apply]
  show _ = Cert.Spec.outAt (Cert.Spec.meanHist ids emb) W1 b1 W2 b2 k
  unfold Cert.Spec.outAt
  refine congrArg (fun S : EReal => S + b2 (ix1 k)) (Finset.sum_congr rfl fun j _ => ?_)
  rw [hiddenK_apply, shapeCast_a_1a_apply]
  unfold Cert.Spec.hidden
  refine congrArg (fun S : EReal => max (S + b1 (ix1 j)) 0 * W2 (ix2 k j)) (Finset.sum_congr rfl fun d _ => ?_)
  rw [meanK_apply]
  unfold Cert.Spec.meanHist
  refine congrArg (fun S : EReal => S * (((1 / 8192 : ℝ) : ℝ) : EReal) * W1 (ix2 j d)) (Finset.sum_congr rfl fun b _ => ?_)
  rw [counts_apply]
  refine congrArg (fun S : EReal => S * emb (ix2 b d)) (Finset.sum_congr rfl fun w _ => ?_)
  exact hpc w b

/-! ## What a reshape of the program writes -/

/-- A reshape between two buffers of one element type writes the cast read entry by entry and transported along
    the equation of that element type with itself; the transport is the identity, so what is written is the cast. -/
theorem reshape_fn_eq {Val : EltTy → Type} {e : EltTy} {s t : Shape} (v : s.Idx → Val e) (hn : s.ShapeCasts t) (he : e = e) :
    (fun i => (he ▸ shapeCast t v hn i : Val e)) = shapeCast t v hn := rfl

end Cert.KerVal

end
-- ==== Proof.Value.lean ====
/-
  The result array's value at the ideal instance: the tail's value of the counts array is the two affine layers of the
  mean taken through the histogram. Each worker's row holds, at column `b`, the number of its 512 positions naming row
  `b` (what thirty-two scatter-adds of ones into zeros leave); the matrix-unit call adds the sixteen rows, weighs the
  table's rows by the sums, scales by 1/8192 and applies the layers.
-/
import proofs.«201856_g16750372454438_cont_week2b_1124_27_alg».proof.Proof.Frame
import proofs.«201856_g16750372454438_cont_week2b_1124_27_alg».proof.Proof.TileIdeal
import proofs.«201856_g16750372454438_cont_week2b_1124_27_alg».proof.Proof.MlpValue

noncomputable section

namespace Cert.HistIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

open Idealize.ShloMosaic.ValueIdx

variable (m : (ℓ : Loc nD τ sig) → Buf (Elt Ideal) ℓ)

theorem result_value (hpre : PreOK m) (r : PUnit × MemSt nD τ sig (Elt Ideal)) (h : QC m r) (c : Dev nD) :
    r.2.mem ((c.tc : Thread nD τ).loc main_v4)
      = Cert.Spec.out (Cert.Spec.meanHist (m ((c.tc : Thread nD τ).loc main_arg0)) (m ((c.tc : Thread nD τ).loc main_arg1)))
          (m ((c.tc : Thread nD τ).loc main_arg2)) (m ((c.tc : Thread nD τ).loc main_arg3))
          (m ((c.tc : Thread nD τ).loc main_arg4)) (m ((c.tc : Thread nD τ).loc main_arg5)) := by
  obtain ⟨f, hf, hv⟩ := QC_result m r h c
  rw [hv, tailVal_v4_plain, Vcall_out, Vcall_ne m c f (by decide), Vcall_ne m c f (by decide), Vcall_ne m c f (by decide),
    Vcall_ne m c f (by decide), Vcall_ne m c f (by decide)]
  exact Cert.KerVal.mlp_eq (m ((c.tc : Thread nD τ).loc main_arg0)) f _ _ _ _ _ (fun w b => row_counts m hpre c w f (hf w) b)

end Cert.HistIdeal

end
-- ==== Proof.RefRun.lean ====
/-
  The reference program's run, read back.

  The program is a straight line of forty-one array operations. The first twenty-three are the table lookup: an
  index word below zero has 256 added, a resulting row number outside 0 … 255 selects a fill value in place of the
  gathered row, and the gather reads the table's rows at the row numbers. The other eighteen add the 8192 looked-up
  rows from zero and divide by 8192, then apply the two affine layers with the positive part between them (each
  layer a contraction with the transposed weights plus the broadcast bias) and drop the leading unit axis.
  Every weakly fair execution terminates with the result buffer at the composition of these operations applied to
  the argument arrays (refTerm), and with the argument arrays unchanged.
-/
import proofs.«201856_g16750372454438_cont_week2b_1124_27_alg».proof.ReferenceIdeal
import Idealize.ShloMosaic.Lib.StableHlo.Run

noncomputable section

namespace Cert.RefHand

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Cert.ReferenceIdeal.Facts]

/-! ## The composition of the operations -/

/-- The row numbers as a column: an index word below zero (as a signed word) has 256 added. -/
def rowWords (ids : IVec S8192 32) : IVec S8192x1 32 :=
  broadcastInDim S8192x1 ![0] bcast_S8192_S8192x1_0
    (select (cmpi .slt ids (broadcastInDim S8192 ![] bcast_S_S8192 (constantI S_ 32 0#32)))
      (addi ids (broadcastInDim S8192 ![] bcast_S_S8192 (constantI S_ 32 256#32)))
      ids)

/-- The positions whose row number lies in 0 … 255 (signed comparisons, folded with "and" from true along the
    unit axis). -/
def inRange (ids : IVec S8192 32) : IVec S8192 1 :=
  Host.reduce IntOp.andi
    (andi
      (cmpi .sge (rowWords ids) (broadcastInDim S8192x1 ![] bcast_S_S8192x1 (constantI S_ 32 0#32)))
      (cmpi .sle (rowWords ids)
        (broadcastInDim S8192x1 ![0, 1] bcast_S1x1_S8192x1_0_1
          (broadcastInDim S1x1 ![1] bcast_S1_S1x1_1 (constantI S1 32 255#32)))))
    (constantI S_ 1 1#1) reducesTo_S8192x1_S8192_d1 h_S_

/-- The looked-up rows: the gathered row where the row number is in range, the fill value elsewhere. -/
def lookedUp (ids : IVec S8192 32) (emb : FVec F S256x64 .f32) : FVec F S8192x64 .f32 :=
  select (broadcastInDim S8192x64 ![0] bcast_S8192_S8192x64_0 (inRange ids))
    (Host.gather gather_S256x64_S8192x1_S8192x64_1_0_n_n_0_1_164 emb (rowWords ids))
    (broadcastInDim S8192x64 ![] bcast_S_S8192x64 (constant S_ .f32 0x7FC00000#32))

/-- The looked-up rows added from zero along the positions, divided by 8192. -/
def meanRow (ids : IVec S8192 32) (emb : FVec F S256x64 .f32) : FVec F S1x64 .f32 :=
  Host.divf
    (Host.reduceAdd (broadcastInDim S1x8192x64 ![1, 2] bcast_S8192x64_S1x8192x64_1_2 (lookedUp ids emb))
      (constant S_ .f32 0x00000000#32) reducesTo_S1x8192x64_S1x64_d1 h_S_)
    (broadcastInDim S1x64 ![] bcast_S_S1x64 (constant S_ .f32 0x46000000#32))

/-- The first layer and the positive part. -/
def hiddenRow (e : FVec F S1x64 .f32) (W1 : FVec F S64x64 .f32) (b1 : FVec F S64 .f32) : FVec F S1x64 .f32 :=
  maximumf
    (addf
      (Host.dotGeneral dot_S1x64_S64x64_S1x64_1_0_0_1_n_n none e (transpose S64x64 [1, 0] W1 transposes_S64x64_S64x64_1_0))
      (broadcastInDim S1x64 ![1] bcast_S64_S1x64_1 b1))
    (broadcastInDim S1x64 ![] bcast_S_S1x64 (constant S_ .f32 0x00000000#32))

/-- The second layer, still with its leading unit axis. -/
def outRow (h : FVec F S1x64 .f32) (W2 : FVec F S8x64 .f32) (b2 : FVec F S8 .f32) : FVec F S1x8 .f32 :=
  addf
    (Host.dotGeneral dot_S1x64_S64x8_S1x8_1_0_0_1_n_n none h (transpose S64x8 [1, 0] W2 transposes_S8x64_S64x8_1_0))
    (broadcastInDim S1x8 ![1] bcast_S8_S1x8_1 b2)

/-- The program's result as a function of its six argument arrays: its operations composed, none simplified. -/
def refTerm (ids : IVec S8192 32) (emb : FVec F S256x64 .f32) (W1 : FVec F S64x64 .f32) (b1 : FVec F S64 .f32)
    (W2 : FVec F S8x64 .f32) (b2 : FVec F S8 .f32) : FVec F S8 .f32 :=
  shapeCast S8 (outRow (hiddenRow (meanRow ids emb) W1 b1) W2 b2) shapeCasts_S1x8_S8

/-! ## The program as a list of operations -/

/-- The forty-one operations in order, the lookup's (and, inside it, the selection's one) listed at the call over
    the call's own buffers. -/
abbrev ops : List (HloOp τ sig (Elt F)) :=
  [ TRef.nullary main_call0.c (constantI S_ 32 0#32),
    TRef.unary main_call0.c main_call0.v0 (broadcastInDim S8192 ![] bcast_S_S8192),
    TRef.binary (.of main_arg0) main_call0.v0 main_call0.v1 (cmpi .slt),
    TRef.nullary main_call0.c_0 (constantI S_ 32 256#32),
    TRef.unary main_call0.c_0 main_call0.v2 (broadcastInDim S8192 ![] bcast_S_S8192),
    TRef.binary (.of main_arg0) main_call0.v2 main_call0.v3 addi,
    TRef.ternary main_call0.v1 main_call0.v3 (.of main_arg0) main_call0.call0.v0 select,
    TRef.unary main_call0.call0.v0 main_call0.v5 (broadcastInDim S8192x1 ![0] bcast_S8192_S8192x1_0),
    TRef.nullary main_call0.c_1 (constantI S1 32 255#32),
    TRef.nullary main_call0.c_2 (constantI S_ 32 0#32),
    TRef.unary main_call0.c_2 main_call0.v6 (broadcastInDim S8192x1 ![] bcast_S_S8192x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S8192x1 ![0, 1] bcast_S1x1_S8192x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S8192x1_S8192_d1 h_S_),
    TRef.binary (.of main_arg1) main_call0.v5 main_call0.v13 (fun x i => Host.gather gather_S256x64_S8192x1_S8192x64_1_0_n_n_0_1_164 x i),
    TRef.unary main_call0.v12 main_call0.v14 (broadcastInDim S8192x64 ![0] bcast_S8192_S8192x64_0),
    TRef.nullary main_call0.cst (constant S_ .f32 0x7FC00000#32),
    TRef.unary main_call0.cst main_call0.v15 (broadcastInDim S8192x64 ![] bcast_S_S8192x64),
    TRef.ternary main_call0.v14 main_call0.v13 main_call0.v15 main_call0.v16 select,
    unary main_v0 main_v1 (broadcastInDim S1x8192x64 ![1, 2] bcast_S8192x64_S1x8192x64_1_2 : (⟨S8192x64, .f32⟩ : BufTy).Contents (Elt F) → (⟨S1x8192x64, .f32⟩ : BufTy).Contents (Elt F)),
    nullary main_cst (constant S_ .f32 0x00000000#32),
    binary main_v1 main_cst main_v2 ((fun x v => Host.reduceAdd x v reducesTo_S1x8192x64_S1x64_d1 h_S_) : (⟨S1x8192x64, .f32⟩ : BufTy).Contents (Elt F) → (⟨S_, .f32⟩ : BufTy).Contents (Elt F) → (⟨S1x64, .f32⟩ : BufTy).Contents (Elt F)),
    nullary main_cst_0 (constant S_ .f32 0x46000000#32),
    unary main_cst_0 main_v3 (broadcastInDim S1x64 ![] bcast_S_S1x64 : (⟨S_, .f32⟩ : BufTy).Contents (Elt F) → (⟨S1x64, .f32⟩ : BufTy).Contents (Elt F)),
    binary main_v2 main_v3 main_v4 (Host.divf : (⟨S1x64, .f32⟩ : BufTy).Contents (Elt F) → (⟨S1x64, .f32⟩ : BufTy).Contents (Elt F) → (⟨S1x64, .f32⟩ : BufTy).Contents (Elt F)),
    unary main_arg2 main_v5 ((transpose S64x64 [1, 0] · transposes_S64x64_S64x64_1_0) : (⟨S64x64, .f32⟩ : BufTy).Contents (Elt F) → (⟨S64x64, .f32⟩ : BufTy).Contents (Elt F)),
    binary main_v4 main_v5 main_v6 ((fun l r => Host.dotGeneral dot_S1x64_S64x64_S1x64_1_0_0_1_n_n none l r) : (⟨S1x64, .f32⟩ : BufTy).Contents (Elt F) → (⟨S64x64, .f32⟩ : BufTy).Contents (Elt F) → (⟨S1x64, .f32⟩ : BufTy).Contents (Elt F)),
    unary main_arg3 main_v7 (broadcastInDim S1x64 ![1] bcast_S64_S1x64_1 : (⟨S64, .f32⟩ : BufTy).Contents (Elt F) → (⟨S1x64, .f32⟩ : BufTy).Contents (Elt F)),
    binary main_v6 main_v7 main_v8 (addf : (⟨S1x64, .f32⟩ : BufTy).Contents (Elt F) → (⟨S1x64, .f32⟩ : BufTy).Contents (Elt F) → (⟨S1x64, .f32⟩ : BufTy).Contents (Elt F)),
    nullary main_cst_1 (constant S_ .f32 0x00000000#32),
    unary main_cst_1 main_v9 (broadcastInDim S1x64 ![] bcast_S_S1x64 : (⟨S_, .f32⟩ : BufTy).Contents (Elt F) → (⟨S1x64, .f32⟩ : BufTy).Contents (Elt F)),
    binary main_v8 main_v9 main_v10 (maximumf : (⟨S1x64, .f32⟩ : BufTy).Contents (Elt F) → (⟨S1x64, .f32⟩ : BufTy).Contents (Elt F) → (⟨S1x64, .f32⟩ : BufTy).Contents (Elt F)),
    unary main_arg4 main_v11 ((transpose S64x8 [1, 0] · transposes_S8x64_S64x8_1_0) : (⟨S8x64, .f32⟩ : BufTy).Contents (Elt F) → (⟨S64x8, .f32⟩ : BufTy).Contents (Elt F)),
    binary main_v10 main_v11 main_v12 ((fun l r => Host.dotGeneral dot_S1x64_S64x8_S1x8_1_0_0_1_n_n none l r) : (⟨S1x64, .f32⟩ : BufTy).Contents (Elt F) → (⟨S64x8, .f32⟩ : BufTy).Contents (Elt F) → (⟨S1x8, .f32⟩ : BufTy).Contents (Elt F)),
    unary main_arg5 main_v13 (broadcastInDim S1x8 ![1] bcast_S8_S1x8_1 : (⟨S8, .f32⟩ : BufTy).Contents (Elt F) → (⟨S1x8, .f32⟩ : BufTy).Contents (Elt F)),
    binary main_v12 main_v13 main_v14 (addf : (⟨S1x8, .f32⟩ : BufTy).Contents (Elt F) → (⟨S1x8, .f32⟩ : BufTy).Contents (Elt F) → (⟨S1x8, .f32⟩ : BufTy).Contents (Elt F)),
    reshape main_v14 main_v15 rfl shapeCasts_S1x8_S8 ]

-- the straight line is forty-one statements deep
set_option maxRecDepth 1024 in
/-- The program is that straight line: the two helper functions unfolded at their calls, the buffer records at
    their fields, and sequencing re-associated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..,
    unary_bufs_sub .., nullary_bufs_sub .., binary_bufs_sub .., nullary_bufs_sub .., unary_bufs_sub .., binary_bufs_sub ..,
    unary_bufs_sub .., binary_bufs_sub .., unary_bufs_sub .., binary_bufs_sub .., nullary_bufs_sub .., unary_bufs_sub ..,
    binary_bufs_sub .., unary_bufs_sub .., binary_bufs_sub .., unary_bufs_sub .., binary_bufs_sub .., reshape_bufs_sub ..⟩

/-! ## The fold of the operations, buffer by buffer -/

/-- At the result buffer the fold is the composition of the operations over the argument buffers' contents: each
    operation's result read back at its own buffer and passed over at every other, the transports of the lookup's
    typed buffers being the identity at these buffers. -/
theorem after_result (V : Valuation τ sig (Elt F)) :
    after ops V (Proc.devRef .tc main_v15)
      = refTerm (V (Proc.devRef .tc main_arg0)) (V (Proc.devRef .tc main_arg1)) (V (Proc.devRef .tc main_arg2))
          (V (Proc.devRef .tc main_arg3)) (V (Proc.devRef .tc main_arg4)) (V (Proc.devRef .tc main_arg5)) := by
  after_results_simp
  rfl

/-- No operation writes an argument buffer: the fold leaves each at its contents. -/
theorem after_arg0 (V : Valuation τ sig (Elt F)) :
    after ops V (Proc.devRef .tc main_arg0) = V (Proc.devRef .tc main_arg0) := by
  after_results_simp
theorem after_arg1 (V : Valuation τ sig (Elt F)) :
    after ops V (Proc.devRef .tc main_arg1) = V (Proc.devRef .tc main_arg1) := by
  after_results_simp
theorem after_arg2 (V : Valuation τ sig (Elt F)) :
    after ops V (Proc.devRef .tc main_arg2) = V (Proc.devRef .tc main_arg2) := by
  after_results_simp
theorem after_arg3 (V : Valuation τ sig (Elt F)) :
    after ops V (Proc.devRef .tc main_arg3) = V (Proc.devRef .tc main_arg3) := by
  after_results_simp
theorem after_arg4 (V : Valuation τ sig (Elt F)) :
    after ops V (Proc.devRef .tc main_arg4) = V (Proc.devRef .tc main_arg4) := by
  after_results_simp
theorem after_arg5 (V : Valuation τ sig (Elt F)) :
    after ops V (Proc.devRef .tc main_arg5) = V (Proc.devRef .tc main_arg5) := by
  after_results_simp

/-! ## The run -/

/-- On every device, for any float values, from any memory with zero counters: every weakly fair execution of the
    program terminates with the result buffer at the composition of the operations applied to the argument
    arrays' launch contents, and the argument arrays unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v15)
          = refTerm (m ((c.tc : Thread nD τ).loc main_arg0)) (m ((c.tc : Thread nD τ).loc main_arg1)) (m ((c.tc : Thread nD τ).loc main_arg2))
              (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h c main_v15).trans (after_result _),
      (h c main_arg0).trans (after_arg0 _), (h c main_arg1).trans (after_arg1 _), (h c main_arg2).trans (after_arg2 _),
      (h c main_arg3).trans (after_arg3 _), (h c main_arg4).trans (after_arg4 _), (h c main_arg5).trans (after_arg5 _)⟩)
    (run_seq scopedRefs_eq scopedSems_eq defs main (fun _ => ops) main_eq (fun _ => ops_sub) m ρ)

/-- The same run, keeping only that the argument arrays end unchanged. -/
theorem frame (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => (h c).2) (run m ρ)

end Cert.RefHand

end
-- ==== Proof.RefValue.lean ====
/-
  The reference's composed operations compute the shared specification.

  With every index word below 256 the lookup's two guards never fire: such a word is not negative as a signed word,
  so no 256 is added, and it lies in 0 … 255, so the row is the gathered one and never the fill value; the gather's
  clamp of the row number into 0 … 255 is then the identity, and the row read is the one the specification names.
  The sum from zero over the 8192 positions followed by the division by 8192 is the specification's mean (a
  division by a real that is not zero is the product with its reciprocal on every extended real); each layer is a
  contraction with the transposed weights, so entry (d, j) of the right operand is the weights' (j, d), plus the
  bias, and the maximum with the zero splat is the positive part.
-/
import proofs.«201856_g16750372454438_cont_week2b_1124_27_alg».proof.Proof.RefRun
import proofs.«201856_g16750372454438_cont_week2b_1124_27_alg».proof.Proof.Spec
import Idealize.ShloMosaic.Lib.ValueIdx
import Idealize.ShloMosaic.Lib.Pipeline.Value
import Idealize.ShloMosaic.Lib.ValueLayout
import Idealize.ShloMosaic.Lib.IdealHost
import Idealize.ShloMosaic.Lib.StackMember
import Idealize.ShloMosaic.Lib.Affine
import Idealize.ShloMosaic.PureOps.Ideal.Laws

noncomputable section

open scoped BigOperators

namespace Cert.RefHand

open Cert.ReferenceIdeal Idealize.ShloMosaic Idealize.ShloMosaic.ValueIdx
open Cert.ReferenceIdeal.Facts₀ Cert.ReferenceIdeal.Facts

variable [Cert.ReferenceIdeal.Facts]

/-! ## Words below 256 -/

/-- A word below 256 read signed is the number it is read unsigned. -/
theorem toInt_of_lt (x : BitVec 32) (h : x.toNat < 256) : x.toInt = (x.toNat : ℤ) :=
  BitVec.toInt_eq_toNat_of_lt (by omega)

/-- It is not below zero … -/
theorem not_slt_zero (x : BitVec 32) (h : x.toNat < 256) : IntOp.cmpi .slt x 0#32 = 0#1 :=
  eq_zero_of_ne_one fun e => by
    have h1 := IntOp.cmpi_slt.mp e
    rw [toInt_of_lt x h] at h1
    have h0 : (0#32 : BitVec 32).toInt = 0 := by decide
    rw [h0] at h1
    omega

/-- … it is at least zero … -/
theorem sge_zero (x : BitVec 32) (h : x.toNat < 256) : IntOp.cmpi .sge x 0#32 = 1#1 :=
  IntOp.cmpi_sge.mpr (by
    have h0 : (0#32 : BitVec 32).toInt = 0 := by decide
    rw [toInt_of_lt x h, h0]; omega)

/-- … and at most 255. -/
theorem sle_255 (x : BitVec 32) (h : x.toNat < 256) : IntOp.cmpi .sle x 255#32 = 1#1 :=
  IntOp.cmpi_sle.mpr (by
    have h0 : (255#32 : BitVec 32).toInt = 255 := by decide
    rw [toInt_of_lt x h, h0]; omega)

/-- An "and" of one-bit words that are all 1, from 1, is 1. -/
theorem fold_andi_one {n : ℕ} (g : Fin n → BitVec 1) (hg : ∀ k, g k = 1#1) :
    (Finset.univ : Finset (Fin n)).fold IntOp.andi 1#1 g = 1#1 := by
  have key : ∀ s : Finset (Fin n), s.fold IntOp.andi 1#1 g = 1#1 := fun s => by
    induction s using Finset.induction_on with
    | empty => rfl
    | insert a s ha ih => rw [Finset.fold_insert ha, ih, hg a]; rfl
  exact key _

/-! ## The lookup, position by position -/

/-- No 256 is added: the row number at position p is the index word there. -/
theorem rowWords_apply (ids : IVec S8192 32) (hr : ∀ i, (ids i).toNat < 256) (p : Fin 8192) (q : Fin 1) :
    rowWords ids (ix2 p q) = ids (ix1 p) := by
  unfold rowWords
  rw [broadcastInDim_apply _ _ _ _ (ix1 p) (fun a => match a with | ⟨0, _⟩ => rfl), select_apply]
  show Scalar.select (IntOp.cmpi .slt (ids (ix1 p)) 0#32) _ _ = _
  rw [not_slt_zero _ (hr _), select_zero]

/-- So every row number is below 256. -/
theorem rowWords_lt (ids : IVec S8192 32) (hr : ∀ i, (ids i).toNat < 256) (j : S8192x1.Idx) :
    (rowWords ids j).toNat < 256 := by
  obtain ⟨p, q, rfl⟩ : ∃ (p : Fin 8192) (q : Fin 1), j = ix2 p q := ⟨j 0, j 1, eq_ix2 j⟩
  rw [rowWords_apply ids hr]
  exact hr _

/-- Every position's row number is in range. -/
theorem inRange_apply (ids : IVec S8192 32) (hr : ∀ i, (ids i).toNat < 256) (i : Fin 8192) :
    inRange ids (ix1 i) = 1#1 := by
  unfold inRange
  rw [Host.reduce_eq_fold_single IntOp.andi _ _ reducesTo_S8192x1_S8192_d1 (by decide : S8192x1.Reduces [1] S8192) h_S_]
  refine fold_andi_one _ fun k => ?_
  show IntOp.andi (IntOp.cmpi .sge (rowWords ids _) 0#32) (IntOp.cmpi .sle (rowWords ids _) 255#32) = 1#1
  rw [sge_zero _ (rowWords_lt ids hr _), sle_255 _ (rowWords_lt ids hr _)]
  rfl

/-- The gather at (i, c): the table at the row number of position i, read signed and clamped into 0 … 255,
    and column c. -/
theorem gather_rows_apply {α : Type} (emb : S256x64.Idx → α) (idx : IVec S8192x1 32) (i : Fin 8192) (c : Fin 64) :
    Host.gather gather_S256x64_S8192x1_S8192x64_1_0_n_n_0_1_164 emb idx (ix2 i c)
      = emb (ix2 (⟨min (idx (ix2 i (0 : Fin 1))).toInt.toNat 255, by omega⟩ : Fin 256) c) := by
  unfold Host.gather
  congr 1
  funext a
  refine Fin.ext ?_
  match a with
  | ⟨0, _⟩ =>
    show gather_S256x64_S8192x1_S8192x64_1_0_n_n_0_1_164.start (ix2 i c) idx 0 + gather_S256x64_S8192x1_S8192x64_1_0_n_n_0_1_164.batchCoord (ix2 i c) 0 + gather_S256x64_S8192x1_S8192x64_1_0_n_n_0_1_164.offCoord (ix2 i c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S256x64_S8192x1_S8192x64_1_0_n_n_0_1_164.startIndexMap from List.mem_singleton.mpr rfl)]
    have hsi : gather_S256x64_S8192x1_S8192x64_1_0_n_n_0_1_164.siIdx (ix2 i c)
        ⟨List.idxOf (0 : Fin 2) gather_S256x64_S8192x1_S8192x64_1_0_n_n_0_1_164.startIndexMap, List.idxOf_lt_length_iff.2 (List.mem_singleton.mpr rfl)⟩
          = ix2 i (0 : Fin 1) := by
      funext b
      refine Fin.ext ?_
      match b with
      | ⟨0, _⟩ => rfl
      | ⟨1, _⟩ => rfl
    rw [hsi]
    rfl
  | ⟨1, _⟩ =>
    show gather_S256x64_S8192x1_S8192x64_1_0_n_n_0_1_164.start (ix2 i c) idx 1 + gather_S256x64_S8192x1_S8192x64_1_0_n_n_0_1_164.batchCoord (ix2 i c) 1 + gather_S256x64_S8192x1_S8192x64_1_0_n_n_0_1_164.offCoord (ix2 i c) 1 = c.val
    rw [GatherDims.batchCoord_eq_zero _ _ _ List.not_mem_nil]
    unfold GatherDims.start
    rw [dif_neg (show (1 : Fin 2) ∉ gather_S256x64_S8192x1_S8192x64_1_0_n_n_0_1_164.startIndexMap from
      fun h => absurd (List.mem_singleton.mp h) (by decide))]
    unfold GatherDims.offCoord
    rw [dif_pos (show (1 : Fin 2) ∈ gather_S256x64_S8192x1_S8192x64_1_0_n_n_0_1_164.sKept from
      (GatherDims.mem_sKept _ _).mpr ⟨fun h => absurd (List.mem_singleton.mp h) (by decide), List.not_mem_nil⟩)]
    rw [Nat.zero_add]
    rfl

/-- The looked-up row at (i, c) is the table's row the specification names, column c. -/
theorem lookedUp_apply (ids : IVec S8192 32) (emb : FVec Ideal S256x64 .f32) (hr : ∀ i, (ids i).toNat < 256)
    (i : Fin 8192) (c : Fin 64) :
    lookedUp ids emb (ix2 i c) = emb (ix2 (Cert.Spec.row ids i) c) := by
  unfold lookedUp
  rw [select_apply, broadcastInDim_apply _ _ _ _ (ix1 i) (fun a => match a with | ⟨0, _⟩ => rfl),
    inRange_apply ids hr, select_one, gather_rows_apply]
  have hrow : (⟨min (rowWords ids (ix2 i (0 : Fin 1))).toInt.toNat 255, by omega⟩ : Fin 256) = Cert.Spec.row ids i := by
    refine Fin.ext ?_
    show min (rowWords ids (ix2 i (0 : Fin 1))).toInt.toNat 255 = (ids (ix1 i)).toNat % 256
    have h := hr (ix1 i)
    rw [rowWords_apply ids hr, toInt_of_lt _ h, Int.toNat_natCast]
    omega
  exact congrArg (fun r => emb (ix2 r c)) hrow

/-! ## The mean -/

/-- The word 0x46000000 is the real 8192. -/
theorem ofBits_8192 : Ideal.ofBits .f32 0x46000000#32 = ((8192 : ℝ) : EReal) := by
  simp [Ideal.ofBits, Ideal.ieee, -EReal.coe_mul]; norm_num

/-- The rows added from zero and divided by 8192 are the specification's mean of the named rows. -/
theorem meanRow_apply (ids : IVec S8192 32) (emb : FVec Ideal S256x64 .f32) (hr : ∀ i, (ids i).toNat < 256) (d : Fin 64) :
    meanRow ids emb (ix2 (0 : Fin 1) d) = Cert.Spec.meanLookup ids emb d := by
  have hR : S1x8192x64.Reduces [1] S1x64 := by
    obtain ⟨h, hs⟩ := reducesTo_S1x8192x64_S1x64_d1
    exact ⟨h, by decide, hs⟩
  unfold meanRow Cert.Spec.meanLookup
  rw [hostDivf_apply]
  rw [hostReduceAdd_apply]
  rw [Ideal.hostReduceAdd_single reducesTo_S1x8192x64_S1x64_d1 hR]
  rw [broadcastInDim_scalar_apply]
  rw [constant_apply, constant_apply]
  rw [Ideal.ofBits_zero_f32, zero_add, ofBits_8192]
  rw [Ideal.div_coe (by norm_num : (8192 : ℝ) ≠ 0)]
  refine congrArg (fun S : EReal => S * (((1 / 8192 : ℝ) : ℝ) : EReal)) (Finset.sum_congr rfl fun (i : Fin 8192) _ => ?_)
  exact (broadcastInDim_apply _ _ _ _ (ix2 i d) (fun a => match a with | ⟨0, _⟩ => rfl | ⟨1, _⟩ => rfl)).trans
    (lookedUp_apply ids emb hr i d)

/-! ## The two layers -/

theorem dot1_eq : dot_S1x64_S64x64_S1x64_1_0_0_1_n_n = DotDims.plain 1 64 64 := rfl
theorem dot2_eq : dot_S1x64_S64x8_S1x8_1_0_0_1_n_n = DotDims.plain 1 64 8 := rfl

/-- The first layer and the positive part at j. -/
theorem hiddenRow_apply (e : FVec Ideal S1x64 .f32) (W1 : FVec Ideal S64x64 .f32) (b1 : FVec Ideal S64 .f32) (j : Fin 64) :
    hiddenRow e W1 b1 (ix2 (0 : Fin 1) j) = Cert.Spec.hidden (fun d => e (ix2 (0 : Fin 1) d)) W1 b1 j := by
  unfold hiddenRow Cert.Spec.hidden
  rw [maximumf_apply, addf_apply, dot1_eq, StackMember.dotGeneral_plain_apply,
    broadcastInDim_apply _ _ _ _ (ix1 j) (fun a => match a with | ⟨0, _⟩ => rfl),
    broadcastInDim_scalar_apply, constant_apply, Ideal.ofBits_zero_f32]
  congr 2
  refine Finset.sum_congr rfl fun d _ => ?_
  rw [transpose_ix2_apply]

/-- The second layer at k. -/
theorem outRow_apply (h : FVec Ideal S1x64 .f32) (W2 : FVec Ideal S8x64 .f32) (b2 : FVec Ideal S8 .f32) (k : Fin 8) :
    outRow h W2 b2 (ix2 (0 : Fin 1) k) = (∑ j : Fin 64, h (ix2 (0 : Fin 1) j) * W2 (ix2 k j)) + b2 (ix1 k) := by
  unfold outRow
  rw [addf_apply, dot2_eq, StackMember.dotGeneral_plain_apply,
    broadcastInDim_apply _ _ _ _ (ix1 k) (fun a => match a with | ⟨0, _⟩ => rfl)]
  congr 1
  refine Finset.sum_congr rfl fun j _ => ?_
  rw [transpose_ix2_apply]

/-! ## The result -/

/-- With every index word below 256, the program's composed operations are the specification's result from the
    mean of the named rows. -/
theorem refTerm_eq (ids : IVec S8192 32) (emb : FVec Ideal S256x64 .f32) (W1 : FVec Ideal S64x64 .f32)
    (b1 : FVec Ideal S64 .f32) (W2 : FVec Ideal S8x64 .f32) (b2 : FVec Ideal S8 .f32)
    (hr : ∀ i, (ids i).toNat < 256) :
    refTerm ids emb W1 b1 W2 b2 = Cert.Spec.out (Cert.Spec.meanLookup ids emb) W1 b1 W2 b2 := by
  funext o
  obtain ⟨k, rfl⟩ : ∃ k : Fin 8, o = ix1 k := ⟨o 0, eq_ix1 o⟩
  unfold refTerm
  rw [shapeCast_1a_a_apply, outRow_apply]
  show _ = Cert.Spec.outAt (Cert.Spec.meanLookup ids emb) W1 b1 W2 b2 k
  unfold Cert.Spec.outAt
  congr 1
  refine Finset.sum_congr rfl fun j _ => ?_
  rw [hiddenRow_apply]
  congr 2
  funext d
  exact meanRow_apply ids emb hr d

end Cert.RefHand

end
-- ==== Proof.PreFacts.lean ====
/-
  What the input-domain predicate says, read back.

  The predicate is a conjunction of six "all elements" tests: the five float arrays have every entry of absolute
  value below +∞, and every index word lies between 0 and 255 read signed. When the predicate holds, each conjunct
  holds at every element. For an index word, 0 ≤ x ≤ 255 read signed forces the top bit clear, so the word read
  unsigned is below 256. For a table entry over the extended reals, |x| < +∞ (the float word 0x7F800000 reads as +∞)
  excludes both infinities, so the entry is a real.
-/
import proofs.«201856_g16750372454438_cont_week2b_1124_27_alg».proof.Pre_input_domain
import Idealize.ShloMosaic.Lib.ReduceAll
import Idealize.ShloMosaic.Lib.ValueIdx
import Idealize.ShloMosaic.PureOps.Ideal

noncomputable section

namespace Cert.PreFacts

open Idealize.ShloMosaic Idealize.ShloMosaic.ValueIdx Cert.Pre_input_domain

/-- The scalar shape has one index. -/
instance : Subsingleton S_.Idx := ⟨fun a b => funext fun d => d.elim0⟩

/-- A 32-bit word between 0 and 255, read signed, is below 256 read unsigned. -/
theorem toNat_lt_of_signed_range (x : BitVec 32) (hge : (0#32 : BitVec 32).toInt ≤ x.toInt)
    (hle : x.toInt ≤ (255#32 : BitVec 32).toInt) : x.toNat < 256 := by
  have e0 : (0#32 : BitVec 32).toInt = 0 := by decide
  have e255 : (255#32 : BitVec 32).toInt = 255 := by decide
  rw [e0] at hge
  rw [e255] at hle
  rw [BitVec.toInt_eq_toNat_cond] at hge hle
  have hlt := x.isLt
  by_cases hc : 2 * x.toNat < 2 ^ 32
  · rw [if_pos hc] at hle; omega
  · rw [if_neg hc] at hge; omega

/-- The float word 0x7F800000 reads as +∞. -/
theorem inf_word : Ideal.ofBits .f32 0x7F800000#32 = (⊤ : EReal) := by
  simp [Ideal.ofBits, Ideal.ieee]

/-- An extended real whose absolute value compares below the +∞ word is a real. -/
theorem real_of_abs_lt_inf (x : EReal)
    (hx : Ideal.cmp .olt (max x (-x)) (Ideal.ofBits .f32 0x7F800000#32) = 1#1) : ∃ r : ℝ, x = (r : EReal) := by
  rw [inf_word] at hx
  induction x using EReal.rec with
  | bot => exact absurd hx (by simp [Ideal.cmp])
  | top => exact absurd hx (by simp [Ideal.cmp])
  | coe r => exact ⟨r, rfl⟩

/-- When the predicate holds, every index word is below 256 (any float instance). -/
theorem ids_lt {F : FTy → Type} [FloatOps F] [Facts] (ids : IVec S8192 32) (emb : FVec F S256x64 .f32)
    (W1 : FVec F S64x64 .f32) (b1 : FVec F S64 .f32) (W2 : FVec F S8x64 .f32) (b2 : FVec F S8 .f32)
    (h : fn (F := F) ids emb W1 b1 W2 b2 = fun _ => 1#1) : ∀ i, (ids i).toNat < 256 := by
  intro i
  have h0 := congrFun h ix0
  dsimp only [fn, fn_part1, andi] at h0
  have h29 := (IntOp.andi_eq_one.1 h0).2
  have hi := Host.reduce_andi_all _ _ _ _ _ h29 i
  dsimp only [andi, cmpi] at hi
  obtain ⟨hge, hle⟩ := IntOp.andi_eq_one.1 hi
  exact toNat_lt_of_signed_range (ids i) (IntOp.cmpi_sge.1 hge) (IntOp.cmpi_sle.1 hle)

/-- When the predicate holds over the extended reals, every table entry is a real. -/
theorem emb_real [Facts] (ids : IVec S8192 32) (emb : FVec Ideal S256x64 .f32)
    (W1 : FVec Ideal S64x64 .f32) (b1 : FVec Ideal S64 .f32) (W2 : FVec Ideal S8x64 .f32) (b2 : FVec Ideal S8 .f32)
    (h : fn (F := Ideal) ids emb W1 b1 W2 b2 = fun _ => 1#1) : ∀ j, ∃ r : ℝ, emb j = (r : EReal) := by
  intro j
  have h0 := congrFun h ix0
  dsimp only [fn, fn_part1, andi] at h0
  have h3 := (IntOp.andi_eq_one.1 (IntOp.andi_eq_one.1 (IntOp.andi_eq_one.1 (IntOp.andi_eq_one.1
    (IntOp.andi_eq_one.1 h0).1).1).1).1).1
  have hj := Host.reduce_andi_all _ _ _ _ _ h3 j
  exact real_of_abs_lt_inf (emb j) hj

end Cert.PreFacts

end
-- ==== Proof.HistAlgebra.lean ====
/-
  The mean of the named rows, regrouped by row.

  Every position `i` below 8192 is `512·w + t` for exactly one worker `w` below 16 and one offset `t` below 512, so
  a sum over the positions is the double sum over workers and offsets. For one worker, a sum of `g (row i)` over its
  positions collects, for each row `b`, as many copies of `g b` as the worker has positions naming `b`. Exchanging
  the two outer sums gives `Σ_i g (row i) = Σ_b (Σ_w cnt w b) · g b`.

  The regrouping is done over the reals, where multiplication distributes over addition (on the extended reals it does
  not, in general); the table's entries are real by hypothesis, and the coercion of the reals into the extended reals
  carries finite sums, products and natural numbers across.
-/
import proofs.«201856_g16750372454438_cont_week2b_1124_27_alg».proof.Proof.Spec
import Mathlib.Algebra.BigOperators.Group.Finset.Basic
import Mathlib.Data.EReal.Basic

noncomputable section

open scoped BigOperators

namespace Cert.Spec

open Idealize.ShloMosaic Idealize.ShloMosaic.ValueIdx

/-- The coercion of the reals into the extended reals carries a finite sum across. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The positions are the pairs of a worker and an offset among that worker's 512 positions. -/
def posEquiv : Fin 16 × Fin 512 ≃ Fin 8192 where
  toFun p := pos p.1 p.2
  invFun i := (⟨i.val / 512, by have := i.isLt; omega⟩, ⟨i.val % 512, Nat.mod_lt _ (by norm_num)⟩)
  left_inv := by
    rintro ⟨w, t⟩
    have hw := w.isLt
    have ht := t.isLt
    apply Prod.ext
    · apply Fin.ext
      show (512 * w.val + t.val) / 512 = w.val
      omega
    · apply Fin.ext
      show (512 * w.val + t.val) % 512 = t.val
      omega
  right_inv := by
    intro i
    apply Fin.ext
    show 512 * (i.val / 512) + i.val % 512 = i.val
    omega

/-- A sum over the positions is the double sum over the workers and their offsets. -/
theorem sum_pos {M : Type*} [AddCommMonoid M] (F : Fin 8192 → M) :
    ∑ i, F i = ∑ w : Fin 16, ∑ t : Fin 512, F (pos w t) := by
  rw [← Equiv.sum_comp posEquiv F, Fintype.sum_prod_type]
  rfl

/-- One worker's sum of `g (row i)` over its positions: each row `b` weighed by how many of them name it. -/
theorem sum_worker (ids : Ids) (w : Fin 16) (g : Fin 256 → ℝ) :
    ∑ t : Fin 512, g (row ids (pos w t)) = ∑ b : Fin 256, (cnt ids w b : ℝ) * g b := by
  rw [← Finset.sum_fiberwise Finset.univ (fun t : Fin 512 => row ids (pos w t))
    (fun t => g (row ids (pos w t)))]
  refine Finset.sum_congr rfl fun b _ => ?_
  have hcongr : ∑ t ∈ Finset.univ.filter (fun t : Fin 512 => row ids (pos w t) = b), g (row ids (pos w t))
      = ∑ _t ∈ Finset.univ.filter (fun t : Fin 512 => row ids (pos w t) = b), g b :=
    Finset.sum_congr rfl fun t ht => by rw [(Finset.mem_filter.mp ht).2]
  rw [hcongr, Finset.sum_const, nsmul_eq_mul]
  rfl

/-- The regrouping over the reals: the sum over all positions of `g (row i)` is the sum over the rows of `g b`
    weighed by the sixteen workers' counts of `b`, added. -/
theorem sum_row_eq_sum_cnt (ids : Ids) (g : Fin 256 → ℝ) :
    ∑ i : Fin 8192, g (row ids i) = ∑ b : Fin 256, (∑ w : Fin 16, (cnt ids w b : ℝ)) * g b := by
  rw [sum_pos]
  simp only [sum_worker]
  rw [Finset.sum_comm]
  refine Finset.sum_congr rfl fun b _ => ?_
  rw [Finset.sum_mul]

/-- The mean of the named rows is the histogram-weighted mean, on a table of real entries. -/
theorem meanLookup_eq_meanHist (ids : Ids) (emb : Table) (hfin : ∀ j, ∃ r : ℝ, emb j = (r : EReal)) :
    meanLookup ids emb = meanHist ids emb := by
  choose r hr using hfin
  funext d
  unfold meanLookup meanHist
  congr 1
  simp only [hr]
  rw [← coe_finset_sum]
  have hb : ∀ b : Fin 256,
      (∑ w : Fin 16, ((cnt ids w b : ℝ) : EReal)) * ((r (ix2 b d) : ℝ) : EReal)
        = (((∑ w : Fin 16, (cnt ids w b : ℝ)) * r (ix2 b d) : ℝ) : EReal) := by
    intro b
    rw [← coe_finset_sum, ← EReal.coe_mul]
  simp only [hb]
  rw [← coe_finset_sum]
  exact congrArg _ (sum_row_eq_sum_cnt ids fun b => r (ix2 b d))

end Cert.Spec

end
-- ==== Proof.lean ====
/-
  The kernel and the reference compute one function of an index list of 8192 words, a 256 × 64 table and two affine
  layers: the mean of the table rows the words name, sent through the first layer, a positive part and the second layer.

  The reference looks every word's row up and averages the 8192 rows. The kernel counts instead: sixteen workers each
  count, over 512 of the words, how often every row is named — a scatter-add of ones, which adds lane by lane, so repeated
  words within one vector are all counted —, the sixteen histograms are added, the table's rows are weighed by the
  counts and the weighted sum is scaled by 2⁻¹³. Over the extended reals the two means are equal when the table's
  entries are finite (regrouping a finite sum of reals by the row named; the precondition gives finiteness) and the
  division by 8192 is the product with 1/8192, exactly. Every word is below 256 by the precondition, which is what the
  workers' scatter-adds and the reference's lookup both need: the kernel's in-range checks hold and the lookup's
  wrap-around and out-of-range fill never fire.

  The frames: every weakly fair execution of the kernel's thirty-five threads (at the word level and at the ideal
  instance alike) and of the reference terminates, faults nowhere and leaves the six arguments unchanged. The ideal
  pass rewrote nothing, so the kernel's idealization is its own text read at the ideal instance.
-/
import proofs.«201856_g16750372454438_cont_week2b_1124_27_alg».proof.Defs
import proofs.«201856_g16750372454438_cont_week2b_1124_27_alg».proof.Proof.Gen.Kernel
import proofs.«201856_g16750372454438_cont_week2b_1124_27_alg».proof.Proof.Gen.Kernel.Skeleton
import proofs.«201856_g16750372454438_cont_week2b_1124_27_alg».proof.Proof.Gen.Kernel.Launch
import proofs.«201856_g16750372454438_cont_week2b_1124_27_alg».proof.Proof.Gen.Kernel.Points
import proofs.«201856_g16750372454438_cont_week2b_1124_27_alg».proof.Proof.Gen.KernelIdeal
import proofs.«201856_g16750372454438_cont_week2b_1124_27_alg».proof.Proof.Gen.KernelIdeal.Skeleton
import proofs.«201856_g16750372454438_cont_week2b_1124_27_alg».proof.Proof.Gen.KernelIdeal.Launch
import proofs.«201856_g16750372454438_cont_week2b_1124_27_alg».proof.Proof.Gen.KernelIdeal.Points
import proofs.«201856_g16750372454438_cont_week2b_1124_27_alg».proof.Proof.Gen.ReferenceIdeal
import proofs.«201856_g16750372454438_cont_week2b_1124_27_alg».proof.Proof.Gen.Pre_input_domain
import proofs.«201856_g16750372454438_cont_week2b_1124_27_alg».proof.Proof.FrameK
import proofs.«201856_g16750372454438_cont_week2b_1124_27_alg».proof.Proof.Value
import proofs.«201856_g16750372454438_cont_week2b_1124_27_alg».proof.Proof.RefRun
import proofs.«201856_g16750372454438_cont_week2b_1124_27_alg».proof.Proof.RefValue
import proofs.«201856_g16750372454438_cont_week2b_1124_27_alg».proof.Proof.PreFacts
import proofs.«201856_g16750372454438_cont_week2b_1124_27_alg».proof.Proof.HistAlgebra
import Idealize.ShloMosaic.Adequacy
import Idealize.ShloMosaic.Init

noncomputable section

namespace Cert.Proof

open Idealize.ShloMosaic Idealize.SL.Sem

/-- The word-level kernel runs and leaves its arguments unchanged. -/
theorem frame_K : Cert.frame_Kernel := fun m g hpre =>
  (θ_run Cert.Kernel.defs _ _).mono (fun r h c => Cert.HistBits.QC_args m r h c)
    (Cert.HistBits.run_main (F := Bits) m g (fun d j => Cert.PreFacts.ids_lt _ _ _ _ _ _ (hpre d) j))

/-- So does the kernel at the ideal instance. -/
theorem frame_KI : Cert.frame_KernelIdeal := fun m g hpre =>
  (θ_run Cert.KernelIdeal.defs _ _).mono (fun r h c => Cert.HistIdeal.QC_args m r h c)
    (Cert.HistIdeal.run_main (F := Ideal) m g (fun d j => Cert.PreFacts.ids_lt _ _ _ _ _ _ (hpre d) j))

/-- And the reference. -/
theorem frame_RI : Cert.frame_ReferenceIdeal := fun m g _ => Cert.RefHand.frame (F := Ideal) m g

/-- The ideal pass rewrote no operation. -/
theorem preserves : Cert.preserves_Kernel_KernelIdeal := trivial

/-- From memories agreeing on the arguments both programs end with the same result array: the two layers of the mean
    of the looked-up rows, which is the mean through the histogram. -/
theorem algebraic : Cert.algebraic_KernelIdeal_ReferenceIdeal := by
  intro m g m' g' hpre hagree
  have hP : Cert.HistIdeal.PreOK m := fun d j => Cert.PreFacts.ids_lt _ _ _ _ _ _ (hpre d) j
  refine ⟨fun c => Cert.Spec.out (Cert.Spec.meanHist (m ((c.tc : Thread Cert.KernelIdeal.nD Cert.KernelIdeal.τ).loc Cert.KernelIdeal.main_arg0))
      (m ((c.tc : Thread Cert.KernelIdeal.nD Cert.KernelIdeal.τ).loc Cert.KernelIdeal.main_arg1)))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun r h c => ⟨Cert.HistIdeal.result_value m hP r h c, Cert.HistIdeal.QC_args m r h c⟩)
      (Cert.HistIdeal.run_main (F := Ideal) m g hP)
  · refine (θ_run Cert.ReferenceIdeal.defs _ _).mono (fun r h c => ⟨(h c).1.trans ?_, (h c).2⟩)
      (Cert.RefHand.run (F := Ideal) m' g')
    rw [(hagree c).1, (hagree c).2.1, (hagree c).2.2.1, (hagree c).2.2.2.1, (hagree c).2.2.2.2.1, (hagree c).2.2.2.2.2]
    rw [Cert.RefHand.refTerm_eq _ _ _ _ _ _ (hP c)]
    rw [Cert.Spec.meanLookup_eq_meanHist _ _ (Cert.PreFacts.emb_real _ _ _ _ _ _ (hpre c))]

theorem claim : Cert.Claim :=
  ⟨Cert.Kernel.Gen.facts, Cert.KernelIdeal.Gen.facts, Cert.ReferenceIdeal.Gen.facts, Cert.Pre_input_domain.Gen.facts,
    frame_K, frame_KI, frame_RI, preserves, algebraic⟩

end Cert.Proof

end
